-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S160x128 : Shape := ⟨2, ![160, 128]⟩
abbrev S5000x128 : Shape := ⟨2, ![5000, 128]⟩
abbrev S8x128 : Shape := ⟨2, ![8, 128]⟩
abbrev S20x8x128 : Shape := ⟨3, ![20, 8, 128]⟩
abbrev S20x1x128 : Shape := ⟨3, ![20, 1, 128]⟩
abbrev S20x128 : Shape := ⟨2, ![20, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 146
  | .vmem => 56
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x40, .f32⟩
  | 9 => ⟨S40, .f32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S100000x128, .f32⟩
  | 25 => ⟨S800000x1, .i32⟩
  | 26 => ⟨S100000x128, .f32⟩
  | 27 => ⟨S1x128, .f32⟩
  | 28 => ⟨S100000x128, .f32⟩
  | 29 => ⟨S160x128, .f32⟩
  | 30 => ⟨S160x128, .f32⟩
  | 31 => ⟨S20x8x128, .f32⟩
  | 32 => ⟨S20x1x128, .f32⟩
  | 33 => ⟨S20x128, .f32⟩
  | 34 => ⟨S_, .f32⟩
  | 35 => ⟨S128, .f32⟩
  | 36 => ⟨S20x8x128, .f32⟩
  | 37 => ⟨S20x1x128, .f32⟩
  | 38 => ⟨S20x128, .f32⟩
  | 39 => ⟨S_, .f32⟩
  | 40 => ⟨S128, .f32⟩
  | 41 => ⟨S_, .f32⟩
  | 42 => ⟨S128, .f32⟩
  | 43 => ⟨S128, .f32⟩
  | 44 => ⟨S_, .f32⟩
  | 45 => ⟨S128, .f32⟩
  | 46 => ⟨S128, .f32⟩
  | 47 => ⟨S128, .f32⟩
  | 48 => ⟨S128, .f32⟩
  | 49 => ⟨S_, .f32⟩
  | 50 => ⟨S128, .f32⟩
  | 51 => ⟨S128, .f32⟩
  | 52 => ⟨S1x128, .f32⟩
  | 53 => ⟨S1x128, .f32⟩
  | 54 => ⟨S100000x128, .f32⟩
  | 55 => ⟨S1x800000, .i32⟩
  | 56 => ⟨S800000, .i32⟩
  | 57 => ⟨S1x800000, .i32⟩
  | 58 => ⟨S800000, .i32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S_, .f32⟩
  | 69 => ⟨S100000x128, .f32⟩
  | 70 => ⟨S800000x1, .i32⟩
  | 71 => ⟨S100000x128, .f32⟩
  | 72 => ⟨S1x128, .f32⟩
  | 73 => ⟨S100000x128, .f32⟩
  | 74 => ⟨S160x128, .f32⟩
  | 75 => ⟨S160x128, .f32⟩
  | 76 => ⟨S20x8x128, .f32⟩
  | 77 => ⟨S20x1x128, .f32⟩
  | 78 => ⟨S20x128, .f32⟩
  | 79 => ⟨S_, .f32⟩
  | 80 => ⟨S128, .f32⟩
  | 81 => ⟨S20x8x128, .f32⟩
  | 82 => ⟨S20x1x128, .f32⟩
  | 83 => ⟨S20x128, .f32⟩
  | 84 => ⟨S_, .f32⟩
  | 85 => ⟨S128, .f32⟩
  | 86 => ⟨S_, .f32⟩
  | 87 => ⟨S128, .f32⟩
  | 88 => ⟨S128, .f32⟩
  | 89 => ⟨S_, .f32⟩
  | 90 => ⟨S128, .f32⟩
  | 91 => ⟨S128, .f32⟩
  | 92 => ⟨S128, .f32⟩
  | 93 => ⟨S128, .f32⟩
  | 94 => ⟨S_, .f32⟩
  | 95 => ⟨S128, .f32⟩
  | 96 => ⟨S128, .f32⟩
  | 97 => ⟨S1x128, .f32⟩
  | 98 => ⟨S1x128, .f32⟩
  | 99 => ⟨S100000x128, .f32⟩
  | 100 => ⟨S1x800000, .i32⟩
  | 101 => ⟨S800000, .i32⟩
  | 102 => ⟨S1x800000, .i32⟩
  | 103 => ⟨S800000, .i32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S_, .f32⟩
  | 114 => ⟨S100000x128, .f32⟩
  | 115 => ⟨S800000x1, .i32⟩
  | 116 => ⟨S100000x128, .f32⟩
  | 117 => ⟨S1x128, .f32⟩
  | 118 => ⟨S100000x128, .f32⟩
  | 119 => ⟨S160x128, .f32⟩
  | 120 => ⟨S160x128, .f32⟩
  | 121 => ⟨S20x8x128, .f32⟩
  | 122 => ⟨S20x1x128, .f32⟩
  | 123 => ⟨S20x128, .f32⟩
  | 124 => ⟨S_, .f32⟩
  | 125 => ⟨S128, .f32⟩
  | 126 => ⟨S20x8x128, .f32⟩
  | 127 => ⟨S20x1x128, .f32⟩
  | _ => ⟨S100000x128, .f32⟩

abbrev hbmTy0_1 (i : Nat) : BufTy := match i % 128 with
  | 0 => ⟨S20x128, .f32⟩
  | 1 => ⟨S_, .f32⟩
  | 2 => ⟨S128, .f32⟩
  | 3 => ⟨S_, .f32⟩
  | 4 => ⟨S128, .f32⟩
  | 5 => ⟨S128, .f32⟩
  | 6 => ⟨S_, .f32⟩
  | 7 => ⟨S128, .f32⟩
  | 8 => ⟨S128, .f32⟩
  | 9 => ⟨S128, .f32⟩
  | 10 => ⟨S128, .f32⟩
  | 11 => ⟨S_, .f32⟩
  | 12 => ⟨S128, .f32⟩
  | 13 => ⟨S128, .f32⟩
  | 14 => ⟨S1x128, .f32⟩
  | 15 => ⟨S1x128, .f32⟩
  | 16 => ⟨S1x40, .f32⟩
  | 17 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S8x128, .f32⟩
  | .local _ .vmem, ⟨45, _⟩ => ⟨S8x128, .f32⟩
  | .local _ .vmem, ⟨46, _⟩ => ⟨S8x128, .f32⟩
  | .local _ .vmem, ⟨47, _⟩ => ⟨S8x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S128x40, .f32⟩
  | .local _ .vmem, ⟨53, _⟩ => ⟨S1x40, .f32⟩
  | .local _ .vmem, ⟨54, _⟩ => ⟨S5000x40, .f32⟩
  | .local _ .vmem, ⟨55, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50_0 : Ref sig .tc := ⟨.hbm, 73, rfl⟩
abbrev main_v50_1 : Ref sig .tc := ⟨.hbm, 74, rfl⟩
abbrev main_v50_2 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_14 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85_0 : Ref sig .tc := ⟨.hbm, 118, rfl⟩
abbrev main_v85_1 : Ref sig .tc := ⟨.hbm, 119, rfl⟩
abbrev main_v85_2 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_18 : Ref sig .tc := ⟨.hbm, 129, rfl⟩
abbrev main_v93 : Ref sig .tc := ⟨.hbm, 130, rfl⟩
abbrev main_cst_19 : Ref sig .tc := ⟨.hbm, 131, rfl⟩
abbrev main_v94 : Ref sig .tc := ⟨.hbm, 132, rfl⟩
abbrev main_v95 : Ref sig .tc := ⟨.hbm, 133, rfl⟩
abbrev main_cst_20 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg5_1 : Ref sig .tc := ⟨.vmem, 45, rfl⟩
abbrev cc4_stg6_0 : Ref sig .tc := ⟨.vmem, 46, rfl⟩
abbrev cc4_stg6_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem5_1 : DmaSem sig := 45
abbrev cc4_sem6_0 : DmaSem sig := 46
abbrev cc4_sem6_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S8x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S8x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x40 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x40 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x40 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  shapeCasts_S160x128_S20x8x128 : S160x128.ShapeCasts S20x8x128
  slices_S20x8x128_S20x1x128_0_0_0 : S20x8x128.Slices ![0, 0, 0] S20x1x128
  shapeCasts_S20x1x128_S20x128 : S20x1x128.ShapeCasts S20x128
  reducesTo_S20x128_S128_d0 : S20x128.ReducesTo [0] S128
  h_S_ : 0 < S_.numel
  bcast_S_S128 : S_.BroadcastsInDim S128 (![] : Fin 0 → Fin S128.rank)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S160x128.size a
  hwx0_5 : ∀ i : grid0.Coords, EltTy.bits .f32 = 32 ∨ (Rect.block (s := S160x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S160x128.size a
  hwx0_6 : ∀ i : grid0.Coords, EltTy.bits .f32 = 32 ∨ (Rect.block (s := S160x128) S8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S160x128.size a
  hwx2_5 : ∀ i : grid2.Coords, EltTy.bits .f32 = 32 ∨ (Rect.block (s := S160x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S160x128.size a
  hwx2_6 : ∀ i : grid2.Coords, EltTy.bits .f32 = 32 ∨ (Rect.block (s := S160x128) S8x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8x128.size a ≤ S160x128.size a
  hwx4_5 : ∀ i : grid4.Coords, EltTy.bits .f32 = 32 ∨ (Rect.block (s := S160x128) S8x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8x128.size a ≤ S160x128.size a
  hwx4_6 : ∀ i : grid4.Coords, EltTy.bits .f32 = 32 ∨ (Rect.block (s := S160x128) S8x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x40.size a ≤ S128x40.size a
  hwx5_3 : ∀ i : grid5.Coords, EltTy.bits .f32 = 32 ∨ (Rect.block (s := S128x40) S128x40.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x40.size a ≤ S1x40.size a
  hwx5_4 : ∀ i : grid5.Coords, EltTy.bits .f32 = 32 ∨ (Rect.block (s := S1x40) S1x40.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x40.size a ≤ S100000x40.size a
  hwx5_5 : ∀ i : grid5.Coords, EltTy.bits .f32 = 32 ∨ (Rect.block (s := S100000x40) S5000x40.size (cc5_transform_5 i) (hinb5_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v50_1) S8x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v50_2) S8x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v50_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v83) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v85_1) S8x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v85_2) S8x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v85_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S128x40.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x40.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S5000x40.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 203
  | .vmem => 0
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x40, .f32⟩
  | 9 => ⟨S40, .f32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S100000x128, .f32⟩
  | 25 => ⟨S800000x1, .i32⟩
  | 26 => ⟨S100000x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S100000x128, .f32⟩
  | 45 => ⟨S100000x128, .f32⟩
  | 46 => ⟨S100000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S1x800000, .i32⟩
  | 74 => ⟨S800000, .i32⟩
  | 75 => ⟨S1x800000, .i32⟩
  | 76 => ⟨S800000, .i32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S100000x128, .f32⟩
  | 88 => ⟨S800000x1, .i32⟩
  | 89 => ⟨S100000x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S100000x128, .f32⟩
  | 108 => ⟨S100000x128, .f32⟩
  | 109 => ⟨S100000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S100000x128, .f32⟩
  | 23 => ⟨S800000x1, .i32⟩
  | 24 => ⟨S100000x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S128, .f32⟩
  | 32 => ⟨S_, .f32⟩
  | 33 => ⟨S128, .f32⟩
  | 34 => ⟨S128, .f32⟩
  | 35 => ⟨S_, .i32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S100000x128, .f32⟩
  | 43 => ⟨S100000x128, .f32⟩
  | 44 => ⟨S100000x128, .f32⟩
  | 45 => ⟨S_, .f32⟩
  | 46 => ⟨S_, .f32⟩
  | 47 => ⟨S_, .f32⟩
  | 48 => ⟨S_, .f32⟩
  | 49 => ⟨S128, .f32⟩
  | 50 => ⟨S128, .f32⟩
  | 51 => ⟨S128, .f32⟩
  | 52 => ⟨S_, .f32⟩
  | 53 => ⟨S_, .i1⟩
  | 54 => ⟨S_, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S_, .f32⟩
  | 62 => ⟨S128, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x40, .f32⟩
  | 72 => ⟨S1x40, .f32⟩
  | 73 => ⟨S100000x40, .f32⟩
  | 74 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_cst_3 : Ref sig .tc := ⟨.hbm, 54, rfl⟩
abbrev main_call0_v12 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_4 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_call1_cst : Ref sig .tc := ⟨.hbm, 70, rfl⟩
abbrev main_call1_v0 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_c_5 : Ref sig .tc := ⟨.hbm, 77, rfl⟩
abbrev main_v37 : Ref sig .tc := ⟨.hbm, 78, rfl⟩
abbrev main_v38 : Ref sig .tc := ⟨.hbm, 79, rfl⟩
abbrev main_c_6 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_7 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_8 : Ref sig .tc := ⟨.hbm, 95, rfl⟩
abbrev main_v52 : Ref sig .tc := ⟨.hbm, 96, rfl⟩
abbrev main_cst_9 : Ref sig .tc := ⟨.hbm, 97, rfl⟩
abbrev main_v53 : Ref sig .tc := ⟨.hbm, 98, rfl⟩
abbrev main_v54 : Ref sig .tc := ⟨.hbm, 99, rfl⟩
abbrev main_c_10 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_cst_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_cst_1 : Ref sig .tc := ⟨.hbm, 111, rfl⟩
abbrev main_call2_v8 : Ref sig .tc := ⟨.hbm, 112, rfl⟩
abbrev main_call2_cst_2 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_cst_3 : Ref sig .tc := ⟨.hbm, 117, rfl⟩
abbrev main_call2_v12 : Ref sig .tc := ⟨.hbm, 118, rfl⟩
abbrev main_call2_cst_4 : Ref sig .tc := ⟨.hbm, 119, rfl⟩
abbrev main_call2_call0_v0 : Ref sig .tc := ⟨.hbm, 120, rfl⟩
abbrev main_call2_call0_v1 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_cst_11 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_call3_cst : Ref sig .tc := ⟨.hbm, 133, rfl⟩
abbrev main_call3_v0 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_c_12 : Ref sig .tc := ⟨.hbm, 140, rfl⟩
abbrev main_v70 : Ref sig .tc := ⟨.hbm, 141, rfl⟩
abbrev main_v71 : Ref sig .tc := ⟨.hbm, 142, rfl⟩
abbrev main_c_13 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_cst_14 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_cst_15 : Ref sig .tc := ⟨.hbm, 158, rfl⟩
abbrev main_v85 : Ref sig .tc := ⟨.hbm, 159, rfl⟩
abbrev main_cst_16 : Ref sig .tc := ⟨.hbm, 160, rfl⟩
abbrev main_v86 : Ref sig .tc := ⟨.hbm, 161, rfl⟩
abbrev main_v87 : Ref sig .tc := ⟨.hbm, 162, rfl⟩
abbrev main_c_17 : Ref sig .tc := ⟨.hbm, 163, rfl⟩
abbrev main_call4_cst : Ref sig .tc := ⟨.hbm, 164, rfl⟩
abbrev main_call4_v0 : Ref sig .tc := ⟨.hbm, 165, rfl⟩
abbrev main_call4_v1 : Ref sig .tc := ⟨.hbm, 166, rfl⟩
abbrev main_call4_cst_0 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_v6 : Ref sig .tc := ⟨.hbm, 172, rfl⟩
abbrev main_call4_v7 : Ref sig .tc := ⟨.hbm, 173, rfl⟩
abbrev main_call4_cst_1 : Ref sig .tc := ⟨.hbm, 174, rfl⟩
abbrev main_call4_v8 : Ref sig .tc := ⟨.hbm, 175, rfl⟩
abbrev main_call4_cst_2 : Ref sig .tc := ⟨.hbm, 176, rfl⟩
abbrev main_call4_v9 : Ref sig .tc := ⟨.hbm, 177, rfl⟩
abbrev main_call4_v10 : Ref sig .tc := ⟨.hbm, 178, rfl⟩
abbrev main_call4_v11 : Ref sig .tc := ⟨.hbm, 179, rfl⟩
abbrev main_call4_cst_3 : Ref sig .tc := ⟨.hbm, 180, rfl⟩
abbrev main_call4_v12 : Ref sig .tc := ⟨.hbm, 181, rfl⟩
abbrev main_call4_cst_4 : Ref sig .tc := ⟨.hbm, 182, rfl⟩
abbrev main_call4_call0_v0 : Ref sig .tc := ⟨.hbm, 183, rfl⟩
abbrev main_call4_call0_v1 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_cst_18 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_call5_cst : Ref sig .tc := ⟨.hbm, 196, rfl⟩
abbrev main_call5_v0 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_v102 : Ref sig .tc := ⟨.hbm, 202, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KerRun.lean ====
/-
  The idealized kernel's run with its result named.

  The program is twelve segments: six stretches of host operations alternating with six pipelined kernel launches.
  The contents of every buffer at each segment boundary are a fold from the launch memory (the boundary contents
  `W1 … W12` of the generated frame module): a host stretch applies its operations, a launch leaves in each window's
  array what its write-backs leave. The run below is the same run as the frame's, read once more at the end: besides
  the ten argument arrays, the result array holds the last boundary's contents at the result buffer.
-/
import proofs.«176156_j23407571763695_2_alg».proof.Proof.Gen.KernelIdeal.Frame

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents of
    the result buffer, and the ten argument arrays end as launched. -/
theorem run_named : θ_run defs (onTc (τ := τ) (main (F := F))) ⟨m, fun _ => 0, ρ⟩ (fun r => ∀ c : Dev nD,
      r.2.mem ((c.tc : Thread nD τ).loc main_v105) = W12 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v105 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.KerValue

end
-- ==== Proof.KerLinPay.lean ====
/-
  The kernels that multiply by a weight matrix, one block at an index.

  A block of 5000 rows meets a 128-column weight matrix: entry (p, q) of the product is the sum over the 128 shared
  coordinates of row p against column q; the roundings to a narrower float on the way in are the identity on exact
  values, and the accumulator starts at zero. The three layer kernels add the aggregated block to the table's block
  first and the bias row after, and also store the column sums of the result and of its squares, each copied into 8
  rows. The last kernel normalises and clamps its block first.
-/
import proofs.«176156_j23407571763695_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option pp.maxSteps 5000
set_option pp.deepTerms false

noncomputable section

namespace Cert.KernelIdeal.KerValue

open Idealize.ShloMosaic Idealize.ShloMosaic.ValueIdx
open Cert.KernelIdeal Cert.KernelIdeal.Gen

/-- Row p of the left operand against column q of the right: the contraction runs over the 128 shared coordinates. -/
theorem dot_S5000x128_S128x128_S5000x128_1_0_0_1_n_n_apply (lhs : FVec Ideal S5000x128 .bf16) (rhs : FVec Ideal S128x128 .bf16) (p : Fin 5000) (q : Fin 128) :
    matmul (F := Ideal) dot_S5000x128_S128x128_S5000x128_1_0_0_1_n_n none lhs rhs (constant S5000x128 .f32 0x00000000#32) (ix2 p q)
      = ∑ r : Fin 128, lhs (ix2 p r) * rhs (ix2 r q) := by
  show FloatOps.matmul dot_S5000x128_S128x128_S5000x128_1_0_0_1_n_n none lhs rhs (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ =>
      show (dot_S5000x128_S128x128_S5000x128_1_0_0_1_n_n.lhsIdx (ix2 p q) ((contrEquiv1 dot_S5000x128_S128x128_S5000x128_1_0_0_1_n_n 128 rfl rfl).symm k) 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ =>
      show (dot_S5000x128_S128x128_S5000x128_1_0_0_1_n_n.rhsIdx (ix2 p q) ((contrEquiv1 dot_S5000x128_S128x128_S5000x128_1_0_0_1_n_n 128 rfl rfl).symm k) 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- Row p of the left operand against column q of the right: the contraction runs over the 128 shared coordinates. -/
theorem dot_S5000x128_S128x40_S5000x40_1_0_0_1_n_n_apply (lhs : FVec Ideal S5000x128 .bf16) (rhs : FVec Ideal S128x40 .bf16) (p : Fin 5000) (q : Fin 40) :
    matmul (F := Ideal) dot_S5000x128_S128x40_S5000x40_1_0_0_1_n_n none lhs rhs (constant S5000x40 .f32 0x00000000#32) (ix2 p q)
      = ∑ r : Fin 128, lhs (ix2 p r) * rhs (ix2 r q) := by
  show FloatOps.matmul dot_S5000x128_S128x40_S5000x40_1_0_0_1_n_n none lhs rhs (constant S5000x40 .f32 0x00000000#32) (ix2 p q) = _
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ =>
      show (dot_S5000x128_S128x40_S5000x40_1_0_0_1_n_n.lhsIdx (ix2 p q) ((contrEquiv1 dot_S5000x128_S128x40_S5000x40_1_0_0_1_n_n 128 rfl rfl).symm k) 0).val = p.val
      unfold DotDims.lhsIdx
      rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
      rfl
    | ⟨1, _⟩ => exact (dot_S5000x128_S128x40_S5000x40_1_0_0_1_n_n.lhsIdx_val_of_single rfl _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (dot_S5000x128_S128x40_S5000x40_1_0_0_1_n_n.rhsIdx_val_of_single rfl _ _).trans hk
    | ⟨1, _⟩ =>
      show (dot_S5000x128_S128x40_S5000x40_1_0_0_1_n_n.rhsIdx (ix2 p q) ((contrEquiv1 dot_S5000x128_S128x40_S5000x40_1_0_0_1_n_n 128 rfl rfl).symm k) 1).val = q.val
      unfold DotDims.rhsIdx
      rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
      rfl)
  rw [el, er]

/-- A sum down the 5000 rows of a block, read at column q. -/
theorem colsum_apply (src : FVec Ideal S5000x128 .f32) (q : Fin 128) :
    multiReduction (F := Ideal) .add [0] S128 src 0x00000000#32 reduces_S5000x128_S128 (.inl rfl) rfl (ix1 q)
      = ∑ p : Fin 5000, src (ix2 p q) := by
  refine (Ideal.multiReduction_add_single src 0x00000000#32 reduces_S5000x128_S128 (.inl rfl) rfl (ix1 q)).trans ?_
  refine Finset.sum_congr rfl fun k _ => congrArg src ?_
  funext a; apply Fin.ext
  match a with
  | ⟨0, _⟩ => rfl
  | ⟨1, _⟩ => rfl

/-- Entry (p, q) of the block launch 0 stores as the layer's affine output: the aggregated block plus the table's block,
    against the weights, plus the bias row. -/
theorem lin0_pay1_apply (x0 x1 : Vec Ideal S5000x128 .f32) (x2 : Vec Ideal S128x128 .f32) (x3 : Vec Ideal S1x128 .f32)
    (p : Fin 5000) (q : Fin 128) :
    k0_pay1 (F := Ideal) x0 x1 x2 x3 (ix2 p q)
      = (∑ r : Fin 128, (x0 (ix2 p r) + x1 (ix2 p r)) * x2 (ix2 r q)) + x3 (ix2 (0 : Fin 1) q) := by
  unfold k0_pay1
  simp only [shapeCast_self]
  rw [addf_apply, broadcastTo_1b_ab_apply, dot_S5000x128_S128x128_S5000x128_1_0_0_1_n_n_apply]
  rfl

/-- Row r (any of the 8) of the block of column sums launch 0 stores: the sum down the 5000 rows of the affine output. -/
theorem lin0_pay2_apply (x0 x1 : Vec Ideal S5000x128 .f32) (x2 : Vec Ideal S128x128 .f32) (x3 : Vec Ideal S1x128 .f32)
    (r : Fin 8) (q : Fin 128) :
    k0_pay2 (F := Ideal) x0 x1 x2 x3 (ix2 r q) = ∑ p : Fin 5000, k0_pay1 (F := Ideal) x0 x1 x2 x3 (ix2 p q) := by
  unfold k0_pay2
  simp only [shapeCast_self]
  rw [broadcastTo_1b_ab_apply, shapeCast_a_1a_apply]
  exact colsum_apply _ q

/-- Row r (any of the 8) of the block of column sums of squares launch 0 stores. -/
theorem lin0_pay3_apply (x0 x1 : Vec Ideal S5000x128 .f32) (x2 : Vec Ideal S128x128 .f32) (x3 : Vec Ideal S1x128 .f32)
    (r : Fin 8) (q : Fin 128) :
    k0_pay3 (F := Ideal) x0 x1 x2 x3 (ix2 r q)
      = ∑ p : Fin 5000, k0_pay1 (F := Ideal) x0 x1 x2 x3 (ix2 p q) * k0_pay1 (F := Ideal) x0 x1 x2 x3 (ix2 p q) := by
  unfold k0_pay3
  simp only [shapeCast_self]
  rw [broadcastTo_1b_ab_apply, shapeCast_a_1a_apply]
  exact (colsum_apply _ q).trans rfl

/-- Entry (p, q) of the block launch 2 stores as the layer's affine output: the aggregated block plus the table's block,
    against the weights, plus the bias row. -/
theorem lin2_pay1_apply (x0 x1 : Vec Ideal S5000x128 .f32) (x2 : Vec Ideal S128x128 .f32) (x3 : Vec Ideal S1x128 .f32)
    (p : Fin 5000) (q : Fin 128) :
    k2_pay1 (F := Ideal) x0 x1 x2 x3 (ix2 p q)
      = (∑ r : Fin 128, (x0 (ix2 p r) + x1 (ix2 p r)) * x2 (ix2 r q)) + x3 (ix2 (0 : Fin 1) q) := by
  unfold k2_pay1
  simp only [shapeCast_self]
  rw [addf_apply, broadcastTo_1b_ab_apply, dot_S5000x128_S128x128_S5000x128_1_0_0_1_n_n_apply]
  rfl

/-- Row r (any of the 8) of the block of column sums launch 2 stores: the sum down the 5000 rows of the affine output. -/
theorem lin2_pay2_apply (x0 x1 : Vec Ideal S5000x128 .f32) (x2 : Vec Ideal S128x128 .f32) (x3 : Vec Ideal S1x128 .f32)
    (r : Fin 8) (q : Fin 128) :
    k2_pay2 (F := Ideal) x0 x1 x2 x3 (ix2 r q) = ∑ p : Fin 5000, k2_pay1 (F := Ideal) x0 x1 x2 x3 (ix2 p q) := by
  unfold k2_pay2
  simp only [shapeCast_self]
  rw [broadcastTo_1b_ab_apply, shapeCast_a_1a_apply]
  exact colsum_apply _ q

/-- Row r (any of the 8) of the block of column sums of squares launch 2 stores. -/
theorem lin2_pay3_apply (x0 x1 : Vec Ideal S5000x128 .f32) (x2 : Vec Ideal S128x128 .f32) (x3 : Vec Ideal S1x128 .f32)
    (r : Fin 8) (q : Fin 128) :
    k2_pay3 (F := Ideal) x0 x1 x2 x3 (ix2 r q)
      = ∑ p : Fin 5000, k2_pay1 (F := Ideal) x0 x1 x2 x3 (ix2 p q) * k2_pay1 (F := Ideal) x0 x1 x2 x3 (ix2 p q) := by
  unfold k2_pay3
  simp only [shapeCast_self]
  rw [broadcastTo_1b_ab_apply, shapeCast_a_1a_apply]
  exact (colsum_apply _ q).trans rfl

/-- Entry (p, q) of the block launch 4 stores as the layer's affine output: the aggregated block plus the table's block,
    against the weights, plus the bias row. -/
theorem lin4_pay1_apply (x0 x1 : Vec Ideal S5000x128 .f32) (x2 : Vec Ideal S128x128 .f32) (x3 : Vec Ideal S1x128 .f32)
    (p : Fin 5000) (q : Fin 128) :
    k4_pay1 (F := Ideal) x0 x1 x2 x3 (ix2 p q)
      = (∑ r : Fin 128, (x0 (ix2 p r) + x1 (ix2 p r)) * x2 (ix2 r q)) + x3 (ix2 (0 : Fin 1) q) := by
  unfold k4_pay1
  simp only [shapeCast_self]
  rw [addf_apply, broadcastTo_1b_ab_apply, dot_S5000x128_S128x128_S5000x128_1_0_0_1_n_n_apply]
  rfl

/-- Row r (any of the 8) of the block of column sums launch 4 stores: the sum down the 5000 rows of the affine output. -/
theorem lin4_pay2_apply (x0 x1 : Vec Ideal S5000x128 .f32) (x2 : Vec Ideal S128x128 .f32) (x3 : Vec Ideal S1x128 .f32)
    (r : Fin 8) (q : Fin 128) :
    k4_pay2 (F := Ideal) x0 x1 x2 x3 (ix2 r q) = ∑ p : Fin 5000, k4_pay1 (F := Ideal) x0 x1 x2 x3 (ix2 p q) := by
  unfold k4_pay2
  simp only [shapeCast_self]
  rw [broadcastTo_1b_ab_apply, shapeCast_a_1a_apply]
  exact colsum_apply _ q

/-- Row r (any of the 8) of the block of column sums of squares launch 4 stores. -/
theorem lin4_pay3_apply (x0 x1 : Vec Ideal S5000x128 .f32) (x2 : Vec Ideal S128x128 .f32) (x3 : Vec Ideal S1x128 .f32)
    (r : Fin 8) (q : Fin 128) :
    k4_pay3 (F := Ideal) x0 x1 x2 x3 (ix2 r q)
      = ∑ p : Fin 5000, k4_pay1 (F := Ideal) x0 x1 x2 x3 (ix2 p q) * k4_pay1 (F := Ideal) x0 x1 x2 x3 (ix2 p q) := by
  unfold k4_pay3
  simp only [shapeCast_self]
  rw [broadcastTo_1b_ab_apply, shapeCast_a_1a_apply]
  exact (colsum_apply _ q).trans rfl

/-- Entry (p, q) of the block the last launch stores: the normalised, clamped block against the output weights, plus
    the output bias row. -/
theorem fin5_pay_apply (x0 : Vec Ideal S5000x128 .f32) (x1 x2 : Vec Ideal S1x128 .f32) (x3 : Vec Ideal S128x40 .f32)
    (x4 : Vec Ideal S1x40 .f32) (p : Fin 5000) (q : Fin 40) :
    k5_pay1 (F := Ideal) x0 x1 x2 x3 x4 (ix2 p q)
      = (∑ r : Fin 128, max ((x0 (ix2 p r) - x1 (ix2 (0 : Fin 1) r)) * Ideal.rsqrt (x2 (ix2 (0 : Fin 1) r) + Ideal.ofBits .f32 0x3727C5AC#32)) 0
            * x3 (ix2 r q)) + x4 (ix2 (0 : Fin 1) q) := by
  unfold k5_pay1
  simp only [shapeCast_self]
  rw [addf_apply, broadcastTo_1b_ab_apply, dot_S5000x128_S128x40_S5000x40_1_0_0_1_n_n_apply]
  refine congrArg (· + x4 (ix2 (0 : Fin 1) q)) (Finset.sum_congr rfl fun r _ => ?_)
  rw [truncf_apply, truncf_apply, maximumf_apply, mulf_apply, subf_apply, broadcast_apply, broadcastTo_1b_ab_apply, broadcastTo_1b_ab_apply]
  show max ((x0 (ix2 p r) - x1 (ix2 (0 : Fin 1) r)) * Ideal.rsqrt (x2 (ix2 (0 : Fin 1) r) + Ideal.ofBits .f32 0x3727C5AC#32)) (Ideal.ofBits .f32 0x00000000#32) * x3 (ix2 r q) = _
  rw [Ideal.ofBits_zero_f32]

end Cert.KernelIdeal.KerValue

end
-- ==== Proof.Spec.lean ====
/-
  The mathematics both programs compute, stated once, over coordinates.

  A network of three layers and a final affine map acts on a table of 100000 rows (nodes) and 128 columns
  (features). One layer takes the table h to

      o    = (A h + h) · W + b                       (A: neighbour aggregation, kept abstract here)
      h'   = max ((o − μ) · (σ² + ε)^(−1/2), 0)       (column statistics μ, σ² of o over all 100000 rows)

  The two programs differ only in how they obtain the column statistics:
    • one takes the mean of the column and then the mean of the squared deviations from it;
    • the other sums the column, and the column of squares, tile by tile (20 tiles of 5000 rows), adds the
      20 partial sums, and takes  max (E[o²] − (E o)², 0).
  Over finite reals these agree (E[o²] − (E o)² = E[(o − E o)²] ≥ 0, and a sum may be taken tile by tile);
  that is proved elsewhere. This file only fixes the two functions, in curried form, so that each program can be
  shown to compute one of them and the algebra can be done without either program in sight.

  Everything is over the extended reals, with the exact operations: the quotient `Ideal.div`, the reciprocal
  square root `Ideal.rsqrt`, and the two float literals kept as the words the programs carry.
-/
import Idealize.ShloMosaic.PureOps.Ideal
import Idealize.ShloMosaic.Lib.ValueIdx

noncomputable section

open scoped BigOperators

namespace Cert.Spec

open Idealize.ShloMosaic Idealize.ShloMosaic.ValueIdx

/-- A table in curried form: row, then column. -/
abbrev Tab (n k : Nat) := Fin n → Fin k → EReal

/-- The number of rows, as the float word both programs divide by (100000.0). -/
def cnt : EReal := Ideal.ofBits .f32 0x47C35000#32
/-- The stabiliser added to the variance, as the float word both programs carry (the float nearest 1e-5). -/
def eps : EReal := Ideal.ofBits .f32 0x3727C5AC#32

/-- A rank-2 array read in curried form, and back. -/
def cur {n k : Nat} (a : (⟨2, ![n, k]⟩ : Shape).Idx → EReal) : Tab n k := fun p q => a (ix2 p q)
def unc {n k : Nat} (f : Tab n k) : (⟨2, ![n, k]⟩ : Shape).Idx → EReal := fun i => f (i 0) (i 1)
/-- A rank-1 array read by its coordinate. -/
def cur1 {n : Nat} (b : (⟨1, ![n]⟩ : Shape).Idx → EReal) : Fin n → EReal := fun q => b (ix1 q)

theorem cur_unc {n k : Nat} (f : Tab n k) : cur (unc f) = f := rfl
theorem unc_cur {n k : Nat} (a : (⟨2, ![n, k]⟩ : Shape).Idx → EReal) : unc (cur a) = a := by
  funext i; exact congrArg a (eq_ix2 i).symm

/-- The affine map: row p of `a` against column q of `W`, plus the bias. -/
def lin {n k l : Nat} (a : Tab n k) (W : Tab k l) (b : Fin l → EReal) : Tab n l :=
  fun p q => (∑ r : Fin k, a p r * W r q) + b q

/-- Row `5000·t + p` of a table of 100000 rows: row p of tile t. -/
def tileRow (t : Fin 20) (p : Fin 5000) : Fin 100000 := ⟨5000 * t.val + p.val, by have := t.isLt; have := p.isLt; omega⟩

section Stats
variable {l : Nat} (o : Tab 100000 l)

/-- The column mean. -/
def mean (q : Fin l) : EReal := Ideal.div (∑ p : Fin 100000, o p q) cnt
/-- The column variance as the mean squared deviation from the mean. -/
def varDev (q : Fin l) : EReal :=
  Ideal.div (∑ p : Fin 100000, (o p q - mean o q) * (o p q - mean o q)) cnt

/-- One tile's column sum. -/
def tileSum (t : Fin 20) (q : Fin l) : EReal := ∑ p : Fin 5000, o (tileRow t p) q
/-- One tile's column sum of squares. -/
def tileSq (t : Fin 20) (q : Fin l) : EReal := ∑ p : Fin 5000, o (tileRow t p) q * o (tileRow t p) q
/-- The column mean from the 20 partial sums. -/
def meanT (q : Fin l) : EReal := Ideal.div (∑ t : Fin 20, tileSum o t q) cnt
/-- The column variance as mean of squares minus squared mean, from the partial sums, clamped at zero. -/
def varT (q : Fin l) : EReal :=
  max (Ideal.div (∑ t : Fin 20, tileSq o t q) cnt - meanT o q * meanT o q) 0

/-- Normalise by given column statistics, then clamp below at zero. -/
def normRelu (mu var : Fin l → EReal) : Tab 100000 l :=
  fun p q => max ((o p q - mu q) * Ideal.rsqrt (var q + eps)) 0

end Stats

section Layers
-- The neighbour aggregation, abstract: any map of tables.
variable (A : Tab 100000 128 → Tab 100000 128)

/-- The table a layer normalises: aggregate, add the table itself, apply the affine map. -/
def pre (h : Tab 100000 128) (W : Tab 128 128) (b : Fin 128 → EReal) : Tab 100000 128 :=
  lin (fun p r => A h p r + h p r) W b

/-- A layer with the statistics taken as mean and mean squared deviation. -/
def layerDev (h : Tab 100000 128) (W : Tab 128 128) (b : Fin 128 → EReal) : Tab 100000 128 :=
  normRelu (pre A h W b) (mean (pre A h W b)) (varDev (pre A h W b))
/-- A layer with the statistics taken from tile sums. -/
def layerT (h : Tab 100000 128) (W : Tab 128 128) (b : Fin 128 → EReal) : Tab 100000 128 :=
  normRelu (pre A h W b) (meanT (pre A h W b)) (varT (pre A h W b))

/-- Three layers and the final affine map, statistics by deviations. -/
def outDev (x : Tab 100000 128) (W0 : Tab 128 128) (b0 : Fin 128 → EReal) (W1 : Tab 128 128) (b1 : Fin 128 → EReal)
    (W2 : Tab 128 128) (b2 : Fin 128 → EReal) (Wl : Tab 128 40) (bl : Fin 40 → EReal) : Tab 100000 40 :=
  lin (layerDev A (layerDev A (layerDev A x W0 b0) W1 b1) W2 b2) Wl bl
/-- Three layers and the final affine map, statistics by tile sums. -/
def outT (x : Tab 100000 128) (W0 : Tab 128 128) (b0 : Fin 128 → EReal) (W1 : Tab 128 128) (b1 : Fin 128 → EReal)
    (W2 : Tab 128 128) (b2 : Fin 128 → EReal) (Wl : Tab 128 40) (bl : Fin 40 → EReal) : Tab 100000 40 :=
  lin (layerT A (layerT A (layerT A x W0 b0) W1 b1) W2 b2) Wl bl

end Layers

/-- Every entry of a table is a real number. -/
def Fin2 {n k : Nat} (a : Tab n k) : Prop := ∀ p q, ∃ r : ℝ, a p q = (r : EReal)
/-- Every entry of a vector is a real number. -/
def Fin1 {n : Nat} (b : Fin n → EReal) : Prop := ∀ q, ∃ r : ℝ, b q = (r : EReal)

end Cert.Spec

end
-- ==== Proof.KerLinPoint.lean ====
/-
  One grid point of a matrix-multiplying launch, against the whole-array functions.

  The layer launches write three arrays: the affine output, row (5000·t + p) by point t; and, in rows 8·t … 8·t + 7 of two
  small arrays, tile t's column sums of the affine output and of its squares. The last launch writes the network's
  output rows. Each lemma here says: if the entries a point reads are the arrays' entries at the coordinates of the array
  index e the point is writing, then what it stores is the whole-array function at e. No program is in sight.
-/
import Idealize.ShloMosaic.PureOps.Ideal
import Idealize.ShloMosaic.Lib.ValueIdx
import proofs.«176156_j23407571763695_2_alg».proof.Proof.Spec

noncomputable section

open scoped BigOperators

namespace Cert.KernelIdeal.KerValue

open Idealize.ShloMosaic Idealize.ShloMosaic.ValueIdx Cert.Spec

/-- The affine output as one function of the four arrays a layer launch finds: the aggregated table, the table, the
    weights, the bias row. -/
def linFn (A0 A1 : (⟨2, ![100000, 128]⟩ : Shape).Idx → EReal) (A2 : (⟨2, ![128, 128]⟩ : Shape).Idx → EReal)
    (A3 : (⟨2, ![1, 128]⟩ : Shape).Idx → EReal) : Tab 100000 128 :=
  lin (fun p r => cur A0 p r + cur A1 p r) (cur A2) (fun q => A3 (ix2 (0 : Fin 1) q))

theorem lin_point (A0 A1 : (⟨2, ![100000, 128]⟩ : Shape).Idx → EReal) (A2 : (⟨2, ![128, 128]⟩ : Shape).Idx → EReal)
    (A3 : (⟨2, ![1, 128]⟩ : Shape).Idx → EReal) (f0 f1 g : Fin 128 → EReal) (v3 : EReal) (e : (⟨2, ![100000, 128]⟩ : Shape).Idx)
    (h0 : ∀ r, f0 r = cur A0 (e 0) r) (h1 : ∀ r, f1 r = cur A1 (e 0) r) (h2 : ∀ r, g r = cur A2 r (e 1))
    (h3 : v3 = A3 (ix2 (0 : Fin 1) (e 1))) :
    (∑ r : Fin 128, (f0 r + f1 r) * g r) + v3 = unc (linFn A0 A1 A2 A3) e := by
  rw [h3, Finset.sum_congr rfl fun r _ => by rw [h0 r, h1 r, h2 r]]
  rfl

/-- The tile a row of the small arrays belongs to: 8 rows per tile. -/
def tileOf (i : Fin 160) : Fin 20 := ⟨i.val / 8, by have := i.isLt; omega⟩

/-- The array of tile sums: row i holds tile (i / 8)'s column sums of the table G. -/
def sumFn (G : Tab 100000 128) : Tab 160 128 := fun i q => tileSum G (tileOf i) q
/-- The array of tile sums of squares. -/
def sqFn (G : Tab 100000 128) : Tab 160 128 := fun i q => tileSq G (tileOf i) q

theorem sum_point (G : Tab 100000 128) (s : Fin 5000 → EReal) (t : Fin 20) (e : (⟨2, ![160, 128]⟩ : Shape).Idx)
    (ht : tileOf (e 0) = t) (hs : ∀ p, s p = G (tileRow t p) (e 1)) :
    ∑ p : Fin 5000, s p = unc (sumFn G) e := by
  rw [Finset.sum_congr rfl fun p _ => hs p]
  show _ = tileSum G (tileOf (e 0)) (e 1)
  rw [ht]; rfl

theorem sq_point (G : Tab 100000 128) (s : Fin 5000 → EReal) (t : Fin 20) (e : (⟨2, ![160, 128]⟩ : Shape).Idx)
    (ht : tileOf (e 0) = t) (hs : ∀ p, s p = G (tileRow t p) (e 1)) :
    ∑ p : Fin 5000, s p * s p = unc (sqFn G) e := by
  rw [Finset.sum_congr rfl fun p _ => by rw [hs p]]
  show _ = tileSq G (tileOf (e 0)) (e 1)
  rw [ht]; rfl

/-- The network's output as one function of the five arrays the last launch finds: the last affine output, the mean
    row, the variance row, the output weights, the output bias row. -/
def finFn (A0 : (⟨2, ![100000, 128]⟩ : Shape).Idx → EReal) (A1 A2 : (⟨2, ![1, 128]⟩ : Shape).Idx → EReal)
    (A3 : (⟨2, ![128, 40]⟩ : Shape).Idx → EReal) (A4 : (⟨2, ![1, 40]⟩ : Shape).Idx → EReal) : Tab 100000 40 :=
  lin (normRelu (cur A0) (fun q => A1 (ix2 (0 : Fin 1) q)) (fun q => A2 (ix2 (0 : Fin 1) q))) (cur A3) (fun q => A4 (ix2 (0 : Fin 1) q))

theorem fin_point (A0 : (⟨2, ![100000, 128]⟩ : Shape).Idx → EReal) (A1 A2 : (⟨2, ![1, 128]⟩ : Shape).Idx → EReal)
    (A3 : (⟨2, ![128, 40]⟩ : Shape).Idx → EReal) (A4 : (⟨2, ![1, 40]⟩ : Shape).Idx → EReal)
    (f0 f1 f2 g : Fin 128 → EReal) (v4 : EReal) (e : (⟨2, ![100000, 40]⟩ : Shape).Idx)
    (h0 : ∀ r, f0 r = cur A0 (e 0) r) (h1 : ∀ r, f1 r = A1 (ix2 (0 : Fin 1) r)) (h2 : ∀ r, f2 r = A2 (ix2 (0 : Fin 1) r))
    (h3 : ∀ r, g r = cur A3 r (e 1)) (h4 : v4 = A4 (ix2 (0 : Fin 1) (e 1))) :
    (∑ r : Fin 128, max ((f0 r - f1 r) * Ideal.rsqrt (f2 r + Ideal.ofBits .f32 0x3727C5AC#32)) 0 * g r) + v4
      = unc (finFn A0 A1 A2 A3 A4) e := by
  rw [h4, Finset.sum_congr rfl fun r _ => by rw [h0 r, h1 r, h2 r, h3 r]]
  rfl

end Cert.KernelIdeal.KerValue

end
-- ==== Proof.KerLin0.lean ====
/-
  Layer launch 0, as functions of the arrays it finds.

  Point t of 20 reads rows 5000·t … 5000·t + 4999 of the aggregated table and of the table, the whole weight matrix and the
  bias row; it writes back the same rows of the affine output, and rows 8·t … 8·t + 7 of the two arrays of tile sums. So
  after the launch the affine output array holds (agg + h)·W + b everywhere, and row i of each small array holds tile
  (i / 8)'s column sums (of the affine output, and of its squares): every index lies in exactly the block of the
  point its row falls to, and what a point writes back is that block of these functions.
-/
import proofs.«176156_j23407571763695_2_alg».proof.Proof.Gen.KernelIdeal.Frame
import proofs.«176156_j23407571763695_2_alg».proof.Proof.KerLinPay
import proofs.«176156_j23407571763695_2_alg».proof.Proof.KerLinPoint

set_option maxRecDepth 16384
set_option pp.maxSteps 5000
set_option pp.deepTerms false

noncomputable section

namespace Cert.KernelIdeal.KerValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hzL0 : (![0, 0] : Fin 2 → Nat) = fun _ => 0 := funext fun a => by fin_cases a <;> rfl

/-- The affine output, in curried form, of the arrays the launch finds. -/
def linTab0 (c : Dev nD) : Cert.Spec.Tab 100000 128 :=
  linFn (V c (Pipeline.arrRef spec0 0)) (V c (Pipeline.arrRef spec0 1)) (V c (Pipeline.arrRef spec0 2)) (V c (Pipeline.arrRef spec0 3))

/-- The index maps over the grid: the two tables' blocks and the three outputs' blocks all sit at the point's own
    block row; the weights and the bias row stay. -/
theorem idx_factsL0 : ∀ t : Fin cfg0.N, win0_0.index t (0 : Fin 2) = win0_4.index t (0 : Fin 2)
    ∧ win0_1.index t (0 : Fin 2) = win0_4.index t (0 : Fin 2)
    ∧ win0_5.index t (0 : Fin 2) = win0_4.index t (0 : Fin 2)
    ∧ win0_6.index t (0 : Fin 2) = win0_4.index t (0 : Fin 2)
    ∧ win0_0.index t (1 : Fin 2) = 0 ∧ win0_1.index t (1 : Fin 2) = 0 ∧ win0_4.index t (1 : Fin 2) = 0
    ∧ win0_5.index t (1 : Fin 2) = 0 ∧ win0_6.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 19 :=
  (by decide +kernel : ∀ t : Fin grid0.N, _)

theorem idx_ontoL0_4 : ∀ q0 : Fin 20, ∃ t : Fin cfg0.N, win0_4.index t = ![q0.val, 0] :=
  (by decide +kernel : ∀ q0 : Fin 20, ∃ t : Fin grid0.N, win0_4.index t = ![q0.val, 0])
theorem idx_ontoL0_5 : ∀ q0 : Fin 20, ∃ t : Fin cfg0.N, win0_5.index t = ![q0.val, 0] :=
  (by decide +kernel : ∀ q0 : Fin 20, ∃ t : Fin grid0.N, win0_5.index t = ![q0.val, 0])
theorem idx_ontoL0_6 : ∀ q0 : Fin 20, ∃ t : Fin cfg0.N, win0_6.index t = ![q0.val, 0] :=
  (by decide +kernel : ∀ q0 : Fin 20, ∃ t : Fin grid0.N, win0_6.index t = ![q0.val, 0])

/-- Entry (p, q) of the affine block point t computes is the affine output at the array index that entry is written to. -/
theorem blk0_entry (c : Dev nD) (t : Fin cfg0.N) (p : Fin 5000) (q : Fin 128) :
    k0_pay1 (F := Ideal) (iblk0 V c 0 t) (iblk0 V c 1 t) (iblk0 V c 2 t) (iblk0 V c 3 t) (ix2 p q)
      = Cert.Spec.unc (linTab0 V c) (((cfg0.win 4).blk t).view.emb (ix2 p q)) := by
  obtain ⟨e0, e1, e2, e3, e4, e5, e6, e7, e8, e9, e10, e11, e12, e13⟩ := idx_factsL0 t
  refine (lin0_pay1_apply (iblk0 V c 0 t) (iblk0 V c 1 t) (iblk0 V c 2 t) (iblk0 V c 3 t) p q).trans ?_
  have h0 : ∀ r : Fin 128, ((cfg0.win 0).blk t).view.emb (ix2 p r) = ix2 ((((cfg0.win 4).blk t).view.emb (ix2 p q)) 0) r := fun r => by
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * r.val = r.val; omega
  have h1 : ∀ r : Fin 128, ((cfg0.win 1).blk t).view.emb (ix2 p r) = ix2 ((((cfg0.win 4).blk t).view.emb (ix2 p q)) 0) r := fun r => by
    funext a; apply Fin.ext
    match a with
    | ⟨0, _⟩ => show win0_1.index t (0 : Fin 2) * 5000 + 1 * p.val = win0_4.index t (0 : Fin 2) * 5000 + 1 * p.val; omega
    | ⟨1, _⟩ => show win0_1.index t (1 : Fin 2) * 128 + 1 * r.val = r.val; omega
  have h2 : ∀ r : Fin 128, ((cfg0.win 2).blk t).view.emb (ix2 r q) = ix2 r ((((cfg0.win 4).blk t).view.emb (ix2 p q)) 1) := fun r => by
    funext a; apply Fin.ext
    match a with
    | ⟨0, _⟩ => show win0_2.index t (0 : Fin 2) * 128 + 1 * r.val = r.val; omega
    | ⟨1, _⟩ => show win0_2.index t (1 : Fin 2) * 128 + 1 * q.val = win0_4.index t (1 : Fin 2) * 128 + 1 * q.val; omega
  have h3 : ((cfg0.win 3).blk t).view.emb (ix2 (0 : Fin 1) q) = ix2 (0 : Fin 1) ((((cfg0.win 4).blk t).view.emb (ix2 p q)) 1) := by
    funext a; apply Fin.ext
    match a with
    | ⟨0, _⟩ => show win0_3.index t (0 : Fin 2) * 1 + 1 * 0 = 0; omega
    | ⟨1, _⟩ => show win0_3.index t (1 : Fin 2) * 128 + 1 * q.val = win0_4.index t (1 : Fin 2) * 128 + 1 * q.val; omega
  exact lin_point (V c (Pipeline.arrRef spec0 0)) (V c (Pipeline.arrRef spec0 1)) (V c (Pipeline.arrRef spec0 2)) (V c (Pipeline.arrRef spec0 3))
    (fun r => iblk0 V c 0 t (ix2 p r)) (fun r => iblk0 V c 1 t (ix2 p r)) (fun r => iblk0 V c 2 t (ix2 r q)) (iblk0 V c 3 t (ix2 (0 : Fin 1) q))
    (((cfg0.win 4).blk t).view.emb (ix2 p q))
    (fun r => congrArg (V c (Pipeline.arrRef spec0 0)) (h0 r)) (fun r => congrArg (V c (Pipeline.arrRef spec0 1)) (h1 r))
    (fun r => congrArg (V c (Pipeline.arrRef spec0 2)) (h2 r)) (congrArg (V c (Pipeline.arrRef spec0 3)) h3)

/-- What point t writes back to the affine output is block t of the affine output. -/
theorem flushed0_4_eq (c : Dev nD) (t : Fin cfg0.N) :
    (dat0 V c).flushed 4 t = ((cfg0.win 4).blk t).view.read (Elt Ideal) (Cert.Spec.unc (linTab0 V c)) := by
  show (cfg0.win 4).cut (grid0.coords t) ((dat0 V c).after 4 t) = _
  rw [after0_4]
  unfold out0_4
  rw [View.canon_unit_zero hzL0]
  simp only [View.ld_unit_zero (S := S5000x128) hzL0, View.ld_unit_zero (S := S1x128) hzL0, View.ld_unit_zero (S := S128x128) hzL0]
  funext j
  obtain ⟨p, q, rfl⟩ : ∃ (p : Fin 5000) (q : Fin 128), j = ix2 p q := ⟨j 0, j 1, eq_ix2 j⟩
  exact blk0_entry V c t p q

/-- The row of the affine output that row p of point t's block is: row p of the tile the point's block row names. -/
theorem row0_of (t : Fin cfg0.N) (p : Fin 5000) (q : Fin 128) (r : Fin 8) (w : Fin 2) (hw : w = 0 ∨ w = 1) (tl : Fin 20)
    (htl : tl.val = win0_4.index t (0 : Fin 2)) :
    (((cfg0.win 4).blk t).view.emb (ix2 p q)) = ix2 (Cert.Spec.tileRow tl p) q := by
  obtain ⟨e0, e1, e2, e3, e4, e5, e6, e7, e8, e9, e10, e11, e12, e13⟩ := idx_factsL0 t
  funext a; apply Fin.ext
  match a with
  | ⟨0, _⟩ => show win0_4.index t (0 : Fin 2) * 5000 + 1 * p.val = 5000 * tl.val + p.val; omega
  | ⟨1, _⟩ => show win0_4.index t (1 : Fin 2) * 128 + 1 * q.val = q.val; omega

/-- What point t writes back to the array of tile sums is block t of the tile sums of the affine output. -/
theorem flushed0_5_eq (c : Dev nD) (t : Fin cfg0.N) :
    (dat0 V c).flushed 5 t = ((cfg0.win 5).blk t).view.read (Elt Ideal) (Cert.Spec.unc (sumFn (linTab0 V c))) := by
  show (cfg0.win 5).cut (grid0.coords t) ((dat0 V c).after 5 t) = _
  rw [after0_5]
  unfold out0_5
  rw [View.canon_unit_zero hzL0]
  simp only [View.ld_unit_zero (S := S5000x128) hzL0, View.ld_unit_zero (S := S1x128) hzL0, View.ld_unit_zero (S := S128x128) hzL0]
  obtain ⟨e0, e1, e2, e3, e4, e5, e6, e7, e8, e9, e10, e11, e12, e13⟩ := idx_factsL0 t
  funext j
  obtain ⟨r, q, rfl⟩ : ∃ (r : Fin 8) (q : Fin 128), j = ix2 r q := ⟨j 0, j 1, eq_ix2 j⟩
  show k0_pay2 (F := Ideal) (iblk0 V c 0 t) (iblk0 V c 1 t) (iblk0 V c 2 t) (iblk0 V c 3 t) (ix2 r q)
      = Cert.Spec.unc (sumFn (linTab0 V c)) (((cfg0.win 5).blk t).view.emb (ix2 r q))
  refine (lin0_pay2_apply (iblk0 V c 0 t) (iblk0 V c 1 t) (iblk0 V c 2 t) (iblk0 V c 3 t) r q).trans ?_
  have hv0 : ((((cfg0.win 5).blk t).view.emb (ix2 r q)) 0).val = win0_5.index t (0 : Fin 2) * 8 + 1 * r.val := rfl
  have hv1 : ((((cfg0.win 5).blk t).view.emb (ix2 r q)) 1).val = win0_5.index t (1 : Fin 2) * 128 + 1 * q.val := rfl
  have hq : ((((cfg0.win 5).blk t).view.emb (ix2 r q)) 1) = q := Fin.ext (by rw [hv1]; omega)
  refine sum_point (linTab0 V c) _ ⟨win0_4.index t (0 : Fin 2), by omega⟩ _ (Fin.ext ?_) fun p => ?_
  · show ((((cfg0.win 5).blk t).view.emb (ix2 r q)) 0).val / 8 = win0_4.index t (0 : Fin 2)
    rw [hv0]; have := r.isLt; omega
  · rw [blk0_entry V c t p q, row0_of t p q r 0 (Or.inl rfl) ⟨win0_4.index t (0 : Fin 2), by omega⟩ rfl, hq]
    rfl

/-- What point t writes back to the array of tile sums of squares is block t of the tile sums of squares. -/
theorem flushed0_6_eq (c : Dev nD) (t : Fin cfg0.N) :
    (dat0 V c).flushed 6 t = ((cfg0.win 6).blk t).view.read (Elt Ideal) (Cert.Spec.unc (sqFn (linTab0 V c))) := by
  show (cfg0.win 6).cut (grid0.coords t) ((dat0 V c).after 6 t) = _
  rw [after0_6]
  unfold out0_6
  rw [View.canon_unit_zero hzL0]
  simp only [View.ld_unit_zero (S := S5000x128) hzL0, View.ld_unit_zero (S := S1x128) hzL0, View.ld_unit_zero (S := S128x128) hzL0]
  obtain ⟨e0, e1, e2, e3, e4, e5, e6, e7, e8, e9, e10, e11, e12, e13⟩ := idx_factsL0 t
  funext j
  obtain ⟨r, q, rfl⟩ : ∃ (r : Fin 8) (q : Fin 128), j = ix2 r q := ⟨j 0, j 1, eq_ix2 j⟩
  show k0_pay3 (F := Ideal) (iblk0 V c 0 t) (iblk0 V c 1 t) (iblk0 V c 2 t) (iblk0 V c 3 t) (ix2 r q)
      = Cert.Spec.unc (sqFn (linTab0 V c)) (((cfg0.win 6).blk t).view.emb (ix2 r q))
  refine (lin0_pay3_apply (iblk0 V c 0 t) (iblk0 V c 1 t) (iblk0 V c 2 t) (iblk0 V c 3 t) r q).trans ?_
  have hv0 : ((((cfg0.win 6).blk t).view.emb (ix2 r q)) 0).val = win0_6.index t (0 : Fin 2) * 8 + 1 * r.val := rfl
  have hv1 : ((((cfg0.win 6).blk t).view.emb (ix2 r q)) 1).val = win0_6.index t (1 : Fin 2) * 128 + 1 * q.val := rfl
  have hq : ((((cfg0.win 6).blk t).view.emb (ix2 r q)) 1) = q := Fin.ext (by rw [hv1]; omega)
  refine sq_point (linTab0 V c) _ ⟨win0_4.index t (0 : Fin 2), by omega⟩ _ (Fin.ext ?_) fun p => ?_
  · show ((((cfg0.win 6).blk t).view.emb (ix2 r q)) 0).val / 8 = win0_4.index t (0 : Fin 2)
    rw [hv0]; have := r.isLt; omega
  · rw [blk0_entry V c t p q, row0_of t p q r 0 (Or.inl rfl) ⟨win0_4.index t (0 : Fin 2), by omega⟩ rfl, hq]
    rfl

theorem mem_blk0_4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v15_0).slice (win0_4.rect t)).set ↔ _
  rw [View.set_slice_whole, Rect.mem_set_unit]
  exact Iff.rfl
theorem mem_blk0_5 (t : Fin cfg0.N) (i : S160x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v15_1).slice (win0_5.rect t)).set ↔ _
  rw [View.set_slice_whole, Rect.mem_set_unit]
  exact Iff.rfl
theorem mem_blk0_6 (t : Fin cfg0.N) (i : S160x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v15_2).slice (win0_6.rect t)).set ↔ _
  rw [View.set_slice_whole, Rect.mem_set_unit]
  exact Iff.rfl

theorem cover0_4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_ontoL0_4 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega
theorem cover0_5 (i : S160x128.Idx) : ∃ t : Fin cfg0.N, (cfg0.win 5).flush t = true ∧ i ∈ ((cfg0.win 5).blk t).view.set := by
  have hi0 : (i 0).val < 160 := (i 0).isLt
  have hi1 : (i 1).val < 128 := (i 1).isLt
  obtain ⟨t, ht⟩ := idx_ontoL0_5 ⟨(i 0).val / 8, by omega⟩
  have q0 : win0_5.index t (0 : Fin 2) = (i 0).val / 8 := congrFun ht 0
  have q1 : win0_5.index t (1 : Fin 2) = 0 := congrFun ht 1
  refine ⟨t, flush0_5 t, ?_⟩
  rw [mem_blk0_5]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 128 ≤ (i 1).val ∧ (i 1).val < win0_5.index t (1 : Fin 2) * 128 + 128; omega
theorem cover0_6 (i : S160x128.Idx) : ∃ t : Fin cfg0.N, (cfg0.win 6).flush t = true ∧ i ∈ ((cfg0.win 6).blk t).view.set := by
  have hi0 : (i 0).val < 160 := (i 0).isLt
  have hi1 : (i 1).val < 128 := (i 1).isLt
  obtain ⟨t, ht⟩ := idx_ontoL0_6 ⟨(i 0).val / 8, by omega⟩
  have q0 : win0_6.index t (0 : Fin 2) = (i 0).val / 8 := congrFun ht 0
  have q1 : win0_6.index t (1 : Fin 2) = 0 := congrFun ht 1
  refine ⟨t, flush0_6 t, ?_⟩
  rw [mem_blk0_6]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 128 ≤ (i 1).val ∧ (i 1).val < win0_6.index t (1 : Fin 2) * 128 + 128; omega

/-- The three output arrays after the launch. -/
theorem arr0_4 (c : Dev nD) : (dat0 V c).arrAt 4 cfg0.N = Cert.Spec.unc (linTab0 V c) :=
  (dat0 V c).arrAt_eq_of_cover 4 (Cert.Spec.unc (linTab0 V c)) (fun t _ => flushed0_4_eq V c t) (cover0_4)
theorem arr0_5 (c : Dev nD) : (dat0 V c).arrAt 5 cfg0.N = Cert.Spec.unc (sumFn (linTab0 V c)) :=
  (dat0 V c).arrAt_eq_of_cover 5 (Cert.Spec.unc (sumFn (linTab0 V c))) (fun t _ => flushed0_5_eq V c t) (cover0_5)
theorem arr0_6 (c : Dev nD) : (dat0 V c).arrAt 6 cfg0.N = Cert.Spec.unc (sqFn (linTab0 V c)) :=
  (dat0 V c).arrAt_eq_of_cover 6 (Cert.Spec.unc (sqFn (linTab0 V c))) (fun t _ => flushed0_6_eq V c t) (cover0_6)

end Cert.KernelIdeal.KerValue

end
-- ==== Proof.KerBnPay.lean ====
/-
  The normalise-and-clamp kernels, one block at an index.

  A block of 5000 rows is normalised against one row of column means and one row of column variances:
  entry (p, q) becomes  max ((x − mean_q) · (var_q + ε)^(−1/2), 0).  The two row operands arrive as [1, 128] blocks and are
  broadcast down the 5000 rows; the casts between equal shapes are the identity.
-/
import proofs.«176156_j23407571763695_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«176156_j23407571763695_2_alg».proof.Proof.Spec

set_option pp.maxSteps 5000
set_option pp.deepTerms false

noncomputable section

namespace Cert.KernelIdeal.KerValue

open Idealize.ShloMosaic Idealize.ShloMosaic.ValueIdx
open Cert.KernelIdeal Cert.KernelIdeal.Gen

/-- Entry (p, q) of the first normalise-and-clamp kernel's stored block. -/
theorem bn1_pay_apply (x0 : Vec Ideal S5000x128 .f32) (x1 x2 : Vec Ideal S1x128 .f32) (p : Fin 5000) (q : Fin 128) :
    k1_pay1 (F := Ideal) x0 x1 x2 (ix2 p q)
      = max ((x0 (ix2 p q) - x1 (ix2 (0 : Fin 1) q)) * Ideal.rsqrt (x2 (ix2 (0 : Fin 1) q) + Ideal.ofBits .f32 0x3727C5AC#32)) 0 := by
  unfold k1_pay1
  simp only [shapeCast_self]
  rw [maximumf_apply, mulf_apply, subf_apply, broadcast_apply]
  rw [broadcastTo_1b_ab_apply, broadcastTo_1b_ab_apply]
  show max ((x0 (ix2 p q) - x1 (ix2 (0 : Fin 1) q)) * Ideal.rsqrt (x2 (ix2 (0 : Fin 1) q) + Ideal.ofBits .f32 0x3727C5AC#32)) (Ideal.ofBits .f32 0x00000000#32) = _
  rw [Ideal.ofBits_zero_f32]

/-- Entry (p, q) of the second normalise-and-clamp kernel's stored block. -/
theorem bn3_pay_apply (x0 : Vec Ideal S5000x128 .f32) (x1 x2 : Vec Ideal S1x128 .f32) (p : Fin 5000) (q : Fin 128) :
    k3_pay1 (F := Ideal) x0 x1 x2 (ix2 p q)
      = max ((x0 (ix2 p q) - x1 (ix2 (0 : Fin 1) q)) * Ideal.rsqrt (x2 (ix2 (0 : Fin 1) q) + Ideal.ofBits .f32 0x3727C5AC#32)) 0 := by
  unfold k3_pay1
  simp only [shapeCast_self]
  rw [maximumf_apply, mulf_apply, subf_apply, broadcast_apply]
  rw [broadcastTo_1b_ab_apply, broadcastTo_1b_ab_apply]
  show max ((x0 (ix2 p q) - x1 (ix2 (0 : Fin 1) q)) * Ideal.rsqrt (x2 (ix2 (0 : Fin 1) q) + Ideal.ofBits .f32 0x3727C5AC#32)) (Ideal.ofBits .f32 0x00000000#32) = _
  rw [Ideal.ofBits_zero_f32]

/-- One point of a normalise-and-clamp launch against the whole-array function: if the block entries read the arrays
    at the index e's coordinates (the table at (e₀, e₁), the two statistics rows at column e₁), the stored entry is the
    whole-array function at e. -/
theorem bn_point (A0 : (⟨2, ![100000, 128]⟩ : Shape).Idx → EReal) (A1 A2 : (⟨2, ![1, 128]⟩ : Shape).Idx → EReal)
    (v0 v1 v2 : EReal) (e : (⟨2, ![100000, 128]⟩ : Shape).Idx)
    (h0 : v0 = Cert.Spec.cur A0 (e 0) (e 1)) (h1 : v1 = A1 (ix2 (0 : Fin 1) (e 1))) (h2 : v2 = A2 (ix2 (0 : Fin 1) (e 1))) :
    max ((v0 - v1) * Ideal.rsqrt (v2 + Ideal.ofBits .f32 0x3727C5AC#32)) 0
      = Cert.Spec.unc (Cert.Spec.normRelu (Cert.Spec.cur A0) (fun q => A1 (ix2 (0 : Fin 1) q)) (fun q => A2 (ix2 (0 : Fin 1) q))) e := by
  rw [h0, h1, h2]; rfl

end Cert.KernelIdeal.KerValue

end
-- ==== Proof.KerBn1.lean ====
/-
  The first normalise-and-clamp launch, as one function of the arrays it finds.

  The launch runs over 20 grid points; point t reads rows 5000·t … 5000·t + 4999 of the table and the single rows of
  column means and variances, and writes back the same rows of the output. So the output array ends holding, at
  (i, q),  max ((o(i, q) − mean_q) · (var_q + ε)^(−1/2), 0):  every index lies in the block of point i / 5000, and what
  a point writes back is that block of this one function.
-/
import proofs.«176156_j23407571763695_2_alg».proof.Proof.Gen.KernelIdeal.Frame
import proofs.«176156_j23407571763695_2_alg».proof.Proof.KerBnPay
import proofs.«176156_j23407571763695_2_alg».proof.Proof.Spec

set_option maxRecDepth 16384
set_option pp.maxSteps 5000
set_option pp.deepTerms false

noncomputable section

namespace Cert.KernelIdeal.KerValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The output as one function of the table and the two statistics rows the launch finds. -/
def bnArr1 (c : Dev nD) : S100000x128.Idx → EReal :=
  Cert.Spec.unc (Cert.Spec.normRelu (Cert.Spec.cur (V c (Pipeline.arrRef spec1 0)))
    (fun q => V c (Pipeline.arrRef spec1 1) (ix2 (0 : Fin 1) q)) (fun q => V c (Pipeline.arrRef spec1 2) (ix2 (0 : Fin 1) q)))

/-- The index maps over the grid: the table's block moves with the output's, down the rows; the statistics rows stay. -/
theorem idx_facts1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 19 :=
  (by decide +kernel : ∀ t : Fin grid1.N, _)

/-- Every block of rows is some point's. -/
theorem idx_onto1 : ∀ q0 : Fin 20, ∃ t : Fin cfg1.N, win1_3.index t = ![q0.val, 0] :=
  (by decide +kernel : ∀ q0 : Fin 20, ∃ t : Fin grid1.N, win1_3.index t = ![q0.val, 0])

/-- What point t writes back is block t of the one function. -/
theorem flushed1_eq (c : Dev nD) (t : Fin cfg1.N) :
    (dat1 V c).flushed 3 t = ((cfg1.win 3).blk t).view.read (Elt Ideal) (bnArr1 V c) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1]
  obtain ⟨e0, e1, e2, e3, e4, e5, e6, e7⟩ := idx_facts1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q) = bnArr1 V c (((cfg1.win 3).blk t).view.emb (ix2 p q))
  refine (bn1_pay_apply (iblk1 V c 0 t) (iblk1 V c 1 t) (iblk1 V c 2 t) p q).trans ?_
  have h0 : ((cfg1.win 0).blk t).view.emb (ix2 p q)
      = ix2 ((((cfg1.win 3).blk t).view.emb (ix2 p q)) 0) ((((cfg1.win 3).blk t).view.emb (ix2 p q)) 1) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h1 : ((cfg1.win 1).blk t).view.emb (ix2 (0 : Fin 1) q) = ix2 (0 : Fin 1) ((((cfg1.win 3).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  exact bn_point (V c (Pipeline.arrRef spec1 0)) (V c (Pipeline.arrRef spec1 1)) (V c (Pipeline.arrRef spec1 2))
    (iblk1 V c 0 t (ix2 p q)) (iblk1 V c 1 t (ix2 (0 : Fin 1) q)) (iblk1 V c 2 t (ix2 (0 : Fin 1) q)) (((cfg1.win 3).blk t).view.emb (ix2 p q))
    (congrArg (V c (Pipeline.arrRef spec1 0)) h0) (congrArg (V c (Pipeline.arrRef spec1 1)) h1) (congrArg (V c (Pipeline.arrRef spec1 2)) h2)

/-- An index of the array is in point t's block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v34).slice (win1_3.rect t)).set ↔ _
  rw [View.set_slice_whole, Rect.mem_set_unit]
  exact Iff.rfl

/-- Every index is in the block of the point its row falls to. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the launch. -/
theorem arr1_3 (c : Dev nD) : (dat1 V c).arrAt 3 cfg1.N = bnArr1 V c :=
  (dat1 V c).arrAt_eq_of_cover 3 (bnArr1 V c) (fun t _ => flushed1_eq V c t) (cover1)

end Cert.KernelIdeal.KerValue

end
-- ==== Proof.KerKeepA.lean ====
/-
  The argument arrays at the segment boundaries where the program reads them.

  Between the launch and the boundary where a weight matrix, a bias vector or the edge list is read, no host operation
  writes it and no kernel launch has it as an output; so there it still holds what it held at the launch.
-/
import proofs.«176156_j23407571763695_2_alg».proof.Proof.Gen.KernelIdeal.Frame

set_option maxRecDepth 16384

noncomputable section

namespace Cert.KernelIdeal.KerValue

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- Argument 0 is as launched at boundary 1: no host operation and no launch up to there writes it. -/
theorem keep_arg0_W1 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 2 is as launched at boundary 1: no host operation and no launch up to there writes it. -/
theorem keep_arg2_W1 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 1 is as launched at boundary 4: no host operation and no launch up to there writes it. -/
theorem keep_arg1_W4 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 4 is as launched at boundary 5: no host operation and no launch up to there writes it. -/
theorem keep_arg4_W5 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 is as launched at boundary 4: no host operation and no launch up to there writes it. -/
theorem keep_arg5_W4 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

end Cert.KernelIdeal.KerValue

end
-- ==== Proof.KerKeepB.lean ====
/-
  The argument arrays at the segment boundaries where the program reads them.

  Between the launch and the boundary where a weight matrix, a bias vector or the edge list is read, no host operation
  writes it and no kernel launch has it as an output; so there it still holds what it held at the launch.
-/
import proofs.«176156_j23407571763695_2_alg».proof.Proof.Gen.KernelIdeal.Frame

set_option maxRecDepth 16384

noncomputable section

namespace Cert.KernelIdeal.KerValue

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- Argument 1 is as launched at boundary 8: no host operation and no launch up to there writes it. -/
theorem keep_arg1_W8 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 6 is as launched at boundary 9: no host operation and no launch up to there writes it. -/
theorem keep_arg6_W9 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Argument 7 is as launched at boundary 8: no host operation and no launch up to there writes it. -/
theorem keep_arg7_W8 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Argument 8 is as launched at boundary 11: no host operation and no launch up to there writes it. -/
theorem keep_arg8_W11 (c : Dev nD) : W11 m ρ c (Proc.devRef .tc main_arg8) = m ((c : Thread nD τ).loc main_arg8) :=
  calc W11 m ρ c (Proc.devRef .tc main_arg8)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Argument 9 is as launched at boundary 10: no host operation and no launch up to there writes it. -/
theorem keep_arg9_W10 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

end Cert.KernelIdeal.KerValue

end
-- ==== Proof.KerHostAggDef.lean ====
/-
  The neighbour aggregation as the host operations compute it from the edge list and a table.

  The edge list has two rows of 800000 entries. Row 1 gives, per edge, the row of the table to read (a negative
  entry counted from the end: 100000 is added to it); row 0 gives the row of the result the read row is added to.
  The aggregation gathers the table's rows by the fixed-up row 1 and scatter-adds them into a table of zeros by
  row 0.
-/
import Idealize.ShloMosaic.Lib.ValueIdx
import proofs.«176156_j23407571763695_2_alg».proof.Proof.Gen.KernelIdeal.Launch

noncomputable section

namespace Cert.KernelIdeal.KerValue

open Cert.KernelIdeal Cert.KernelIdeal.Gen Idealize.ShloMosaic Idealize.ShloMosaic.TcCoe Idealize.ShloMosaic.ValueIdx

/-- Row 1 of the edge list: per edge, the table row to read. -/
def srcRow (ei : IVec S2x800000 32) : IVec S800000 32 :=
  shapeCast S800000 (extractStridedSlice S1x800000 ![1, 0] ei slices_S2x800000_S1x800000_1_0) shapeCasts_S1x800000_S800000

/-- Row 0 of the edge list: per edge, the result row to add to. -/
def dstRow (ei : IVec S2x800000 32) : IVec S800000 32 :=
  shapeCast S800000 (extractStridedSlice S1x800000 ![0, 0] ei slices_S2x800000_S1x800000_0_0) shapeCasts_S1x800000_S800000

/-- The rows to read, a negative entry counted from the end of the 100000 rows. -/
def fixSrc (ei : IVec S2x800000 32) : IVec S800000 32 :=
  select (cmpi .slt (srcRow ei) (broadcastInDim S800000 ![] bcast_S_S800000 (constantI S_ 32 0#32)))
    (addi (srcRow ei) (broadcastInDim S800000 ![] bcast_S_S800000 (constantI S_ 32 100000#32)))
    (srcRow ei)

/-- Gather the table's rows by the fixed-up sources, scatter-add them into zeros by the destinations. -/
def aggK (ei : IVec S2x800000 32) (h : FVec Ideal S100000x128 .f32) : FVec Ideal S100000x128 .f32 :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 (dstRow ei))
    (Host.gather gather_S100000x128_S800000x1_S800000x128_1_0_n_n_0_1_1128 h
      (broadcastInDim S800000x1 ![0] bcast_S800000_S800000x1_0 (fixSrc ei)))

end Cert.KernelIdeal.KerValue

end
-- ==== Proof.KerHost0.lean ====
/-
  The first aggregation stretch of host operations, at any buffer contents: it leaves the aggregation of the
  table it reads, and the layer's bias viewed as one row, and does not touch the table or the layer's weights.
-/
import Idealize.ShloMosaic.Lib.ValueIdx
import proofs.«176156_j23407571763695_2_alg».proof.Proof.Gen.KernelIdeal.Launch
import proofs.«176156_j23407571763695_2_alg».proof.Proof.KerHostAggDef

noncomputable section

namespace Cert.KernelIdeal.KerValue

open Cert.KernelIdeal Cert.KernelIdeal.Gen Idealize.ShloMosaic Idealize.ShloMosaic.TcCoe Idealize.ShloMosaic.ValueIdx

variable (W : Valuation τ sig (Elt Ideal))

theorem hostOps0_agg :
    StableHlo.after (hostOps0 (F := Ideal)) W (Proc.devRef .tc main_v13)
      = aggK (W (Proc.devRef .tc main_arg1)) (W (Proc.devRef .tc main_arg0)) := by
  after_results
  rfl

theorem hostOps0_bias :
    StableHlo.after (hostOps0 (F := Ideal)) W (Proc.devRef .tc main_v14)
      = shapeCast S1x128 (W (Proc.devRef .tc main_arg3)) shapeCasts_S128_S1x128 := by
  after_results
  rfl

theorem hostOps0_tbl :
    StableHlo.after (hostOps0 (F := Ideal)) W (Proc.devRef .tc main_arg0) = W (Proc.devRef .tc main_arg0) := by
  after_results

theorem hostOps0_w :
    StableHlo.after (hostOps0 (F := Ideal)) W (Proc.devRef .tc main_arg2) = W (Proc.devRef .tc main_arg2) := by
  after_results

end Cert.KernelIdeal.KerValue

end
-- ==== Proof.KerHostStat.lean ====
/-
  The column statistics as the host operations compute them from the two arrays of tile sums.

  Each array has 160 rows: 8 rows per tile, all 8 holding the tile's partial sums. The operations view it as
  [20, 8, 128], keep row 0 of each group of 8, view that as [20, 128], add the 20 rows from the initial value 0.0,
  and divide by the word for 100000.0. The mean row is that quotient of the array of sums; the variance row is the
  quotient of the array of sums of squares, minus the squared mean, clamped below at the word 0.0. Both are
  finally viewed as [1, 128].
-/
import Idealize.ShloMosaic.Lib.ValueIdx
import proofs.«176156_j23407571763695_2_alg».proof.Proof.Gen.KernelIdeal.Launch

noncomputable section

namespace Cert.KernelIdeal.KerValue

open Cert.KernelIdeal Cert.KernelIdeal.Gen Idealize.ShloMosaic Idealize.ShloMosaic.TcCoe Idealize.ShloMosaic.ValueIdx

/-- Row 0 of each group of 8 rows: one row per tile. -/
def tileRows (X : FVec Ideal S160x128 .f32) : FVec Ideal S20x128 .f32 :=
  shapeCast S20x128
    (extractStridedSlice S20x1x128 ![0, 0, 0] (shapeCast S20x8x128 X shapeCasts_S160x128_S20x8x128)
      slices_S20x8x128_S20x1x128_0_0_0)
    shapeCasts_S20x1x128_S20x128

/-- The 20 tile rows added up, from 0.0. -/
def colSum (X : FVec Ideal S160x128 .f32) : FVec Ideal S128 .f32 :=
  Host.reduceAdd (F := Ideal) (tileRows X) (constant (F := Ideal) S_ .f32 0x00000000#32) reducesTo_S20x128_S128_d0 h_S_

/-- The count word 100000.0 at every column. -/
def cntVec : FVec Ideal S128 .f32 :=
  broadcastInDim S128 ![] bcast_S_S128 (constant (F := Ideal) S_ .f32 0x47C35000#32)

/-- The zero word at every column. -/
def zeroVec : FVec Ideal S128 .f32 :=
  broadcastInDim S128 ![] bcast_S_S128 (constant (F := Ideal) S_ .f32 0x00000000#32)

/-- The column sums divided by the count. -/
def avgVec (X : FVec Ideal S160x128 .f32) : FVec Ideal S128 .f32 :=
  Host.divf (F := Ideal) (colSum X) cntVec

/-- Mean of squares minus squared mean, clamped below at 0.0. -/
def varVec (X1 X2 : FVec Ideal S160x128 .f32) : FVec Ideal S128 .f32 :=
  maximumf (F := Ideal) (subf (F := Ideal) (avgVec X2) (mulf (F := Ideal) (avgVec X1) (avgVec X1))) zeroVec

/-- The mean row. -/
def meanArr (X1 : FVec Ideal S160x128 .f32) : FVec Ideal S1x128 .f32 :=
  shapeCast S1x128 (avgVec X1) shapeCasts_S128_S1x128

/-- The variance row. -/
def varArr (X1 X2 : FVec Ideal S160x128 .f32) : FVec Ideal S1x128 .f32 :=
  shapeCast S1x128 (varVec X1 X2) shapeCasts_S128_S1x128

end Cert.KernelIdeal.KerValue

end
-- ==== Proof.KerHost1.lean ====
/-
  The first statistics stretch of host operations, at any buffer contents: it leaves the mean row and the variance
  row of the two arrays of tile sums, and does not touch the third array the kernel before it wrote.
-/
import Idealize.ShloMosaic.Lib.ValueIdx
import proofs.«176156_j23407571763695_2_alg».proof.Proof.Gen.KernelIdeal.Launch
import proofs.«176156_j23407571763695_2_alg».proof.Proof.KerHostStat

noncomputable section

namespace Cert.KernelIdeal.KerValue

open Cert.KernelIdeal Cert.KernelIdeal.Gen Idealize.ShloMosaic Idealize.ShloMosaic.TcCoe Idealize.ShloMosaic.ValueIdx

variable (W : Valuation τ sig (Elt Ideal))

theorem hostOps1_mean :
    StableHlo.after (hostOps1 (F := Ideal)) W (Proc.devRef .tc main_v32)
      = meanArr (W (Proc.devRef .tc main_v15_1)) := by
  after_results
  rfl

theorem hostOps1_var :
    StableHlo.after (hostOps1 (F := Ideal)) W (Proc.devRef .tc main_v33)
      = varArr (W (Proc.devRef .tc main_v15_1)) (W (Proc.devRef .tc main_v15_2)) := by
  after_results
  rfl

theorem hostOps1_v15_0 :
    StableHlo.after (hostOps1 (F := Ideal)) W (Proc.devRef .tc main_v15_0) = W (Proc.devRef .tc main_v15_0) := by
  after_results

end Cert.KernelIdeal.KerValue

end
-- ==== Proof.KerHostStatRead.lean ====
/-
  The mean row and the variance row read at a column, against the specification.

  Row t of the [20, 128] view is row 8·t of the array of 160 rows; the reduction down the 20 rows is the sum over
  t : Fin 20 from the initial value 0; the divisor word is the specification's count word. When the array of
  160 rows holds, on every row of tile t, the tile's partial sum (resp. partial sum of squares) of a table G, the
  mean row is the specification's mean from tile sums and the variance row its clamped variance from tile sums.
-/
import Idealize.ShloMosaic.Lib.ValueIdx
import Idealize.ShloMosaic.Lib.ValueLayout
import Idealize.ShloMosaic.Lib.Pipeline.Value
import Idealize.ShloMosaic.PureOps.Ideal.Laws
import proofs.«176156_j23407571763695_2_alg».proof.Proof.Gen.KernelIdeal.Launch
import proofs.«176156_j23407571763695_2_alg».proof.Proof.Spec
import proofs.«176156_j23407571763695_2_alg».proof.Proof.KerLinPoint
import proofs.«176156_j23407571763695_2_alg».proof.Proof.KerHostStat

noncomputable section

open scoped BigOperators

namespace Cert.KernelIdeal.KerValue

open Cert.KernelIdeal Cert.KernelIdeal.Gen Idealize.ShloMosaic Idealize.ShloMosaic.TcCoe Idealize.ShloMosaic.ValueIdx

/-- Row t of the tile rows is row 8·t of the array. -/
theorem tileRows_apply (X : FVec Ideal S160x128 .f32) (t : Fin 20) (q : Fin 128) (r : Fin 160)
    (hr : r.val = 8 * t.val) : tileRows X (ix2 t q) = X (ix2 r q) := by
  unfold tileRows
  rw [shapeCast_apply _ _ (ix2 t q) (ix3 t (0 : Fin 1) q) (by
    rw [Shape.rowMajor_val_three, Shape.rowMajor_val_two]
    show (t.val * 1 + 0) * 128 + q.val = t.val * 128 + q.val
    omega)]
  rw [slice3_axis1_apply 0 _ _ t (0 : Fin 1) q (0 : Fin 8) rfl]
  exact shapeCast_apply _ _ (ix3 t (0 : Fin 8) q) (ix2 r q) (by
    rw [Shape.rowMajor_val_two, Shape.rowMajor_val_three]
    show r.val * 128 + q.val = (t.val * 8 + 0) * 128 + q.val
    omega)

/-- The column sum is the sum over the 20 tiles of row 8·t. -/
theorem colSum_apply (X : FVec Ideal S160x128 .f32) (q : Fin 128) :
    colSum X (ix1 q) = ∑ t : Fin 20, X (ix2 (⟨8 * t.val, by have := t.isLt; omega⟩ : Fin 160) q) := by
  have hR : S20x128.Reduces [0] S128 := by decide
  show Ideal.hostReduceAdd reducesTo_S20x128_S128_d0 (tileRows X) (Ideal.ofBits .f32 0x00000000#32) (ix1 q) = _
  rw [Ideal.hostReduceAdd_single _ hR, Ideal.ofBits_zero_f32, zero_add]
  show ∑ t : Fin 20, tileRows X (hR.lift (ix1 q) t) = _
  refine Finset.sum_congr rfl fun t _ => ?_
  have e : hR.lift (ix1 q) t = ix2 t q :=
    funext fun c => Fin.ext (by match c with | ⟨0, _⟩ => rfl | ⟨1, _⟩ => rfl)
  rw [e]
  exact tileRows_apply X t q _ rfl

theorem avgVec_apply (X : FVec Ideal S160x128 .f32) (q : Fin 128) :
    avgVec X (ix1 q) = Ideal.div (colSum X (ix1 q)) Cert.Spec.cnt := rfl

theorem varVec_apply (X1 X2 : FVec Ideal S160x128 .f32) (q : Fin 128) :
    varVec X1 X2 (ix1 q)
      = max (Ideal.div (colSum X2 (ix1 q)) Cert.Spec.cnt - avgVec X1 (ix1 q) * avgVec X1 (ix1 q))
          (Ideal.ofBits .f32 0x00000000#32) := rfl

theorem tileOf_eight (t : Fin 20) : tileOf (⟨8 * t.val, by have := t.isLt; omega⟩ : Fin 160) = t :=
  Fin.ext (by show 8 * t.val / 8 = t.val; omega)

/-- The mean row of the array of tile sums of G is the specification's mean from tile sums. -/
theorem avgVec_sumFn (G : Cert.Spec.Tab 100000 128) (q : Fin 128) :
    avgVec (Cert.Spec.unc (sumFn G)) (ix1 q) = Cert.Spec.meanT G q := by
  rw [avgVec_apply, colSum_apply]
  unfold Cert.Spec.meanT
  refine congrArg (fun s => Ideal.div s Cert.Spec.cnt) (Finset.sum_congr rfl fun t _ => ?_)
  show Cert.Spec.tileSum G (tileOf ⟨8 * t.val, _⟩) q = Cert.Spec.tileSum G t q
  rw [tileOf_eight]

theorem meanArr_spec (G : Cert.Spec.Tab 100000 128) (q : Fin 128) :
    meanArr (Cert.Spec.unc (sumFn G)) (ix2 (0 : Fin 1) q) = Cert.Spec.meanT G q := by
  unfold meanArr
  rw [shapeCast_a_1a_apply, avgVec_sumFn]

theorem varArr_spec (G : Cert.Spec.Tab 100000 128) (q : Fin 128) :
    varArr (Cert.Spec.unc (sumFn G)) (Cert.Spec.unc (sqFn G)) (ix2 (0 : Fin 1) q) = Cert.Spec.varT G q := by
  unfold varArr
  rw [shapeCast_a_1a_apply, varVec_apply, avgVec_sumFn, colSum_apply, Ideal.ofBits_zero_f32]
  unfold Cert.Spec.varT
  refine congrArg (fun s => max (Ideal.div s Cert.Spec.cnt - Cert.Spec.meanT G q * Cert.Spec.meanT G q) 0)
    (Finset.sum_congr rfl fun t _ => ?_)
  show Cert.Spec.tileSq G (tileOf ⟨8 * t.val, _⟩) q = Cert.Spec.tileSq G t q
  rw [tileOf_eight]

end Cert.KernelIdeal.KerValue

end
-- ==== Proof.KerGlue.lean ====
/-
  Gluing the launches' whole-array functions to the specification's layers.

  A layer launch finds the aggregated table, the table, the weights and the bias as a [1, 128] row; read in curried form
  that is the specification's `pre`. A normalise-and-clamp launch finds the affine output and the two statistics rows
  the host computed from the tile sums; that is the specification's `normRelu` at the tile-sum statistics. The last
  launch is the final affine map of such a normalised table. No program is in sight: the arrays are variables.
-/
import proofs.«176156_j23407571763695_2_alg».proof.Proof.KerLinPoint
import proofs.«176156_j23407571763695_2_alg».proof.Proof.KerHostStatRead
import Idealize.ShloMosaic.Lib.ValueLayout

noncomputable section

open scoped BigOperators

namespace Cert.KernelIdeal.KerValue

open Idealize.ShloMosaic Idealize.ShloMosaic.ValueIdx Cert.Spec
open Cert.KernelIdeal

/-- A layer launch's affine output is the specification's, with the aggregation read through the curried form. -/
theorem linFn_eq_pre (agg : ((⟨2, ![100000, 128]⟩ : Shape).Idx → EReal) → ((⟨2, ![100000, 128]⟩ : Shape).Idx → EReal))
    (h : Tab 100000 128) (W : (⟨2, ![128, 128]⟩ : Shape).Idx → EReal) (b : (⟨1, ![128]⟩ : Shape).Idx → EReal)
    (hS : (⟨1, ![128]⟩ : Shape).ShapeCasts ⟨2, ![1, 128]⟩) :
    linFn (agg (unc h)) (unc h) W (shapeCast ⟨2, ![1, 128]⟩ b hS) = pre (fun h' => cur (agg (unc h'))) h (cur W) (cur1 b) := by
  funext p q
  show (∑ r : Fin 128, (cur (agg (unc h)) p r + cur (unc h) p r) * cur W r q) + shapeCast ⟨2, ![1, 128]⟩ b hS (ix2 (0 : Fin 1) q)
      = (∑ r : Fin 128, (cur (agg (unc h)) p r + h p r) * cur W r q) + cur1 b q
  rw [shapeCast_a_1a_apply]
  rfl

/-- A normalise-and-clamp launch, fed the affine output and the host's statistics rows of its tile sums, computes the
    layer with tile-sum statistics. -/
theorem bn_eq_normRelu (o : Tab 100000 128) :
    normRelu (cur (unc o)) (fun q => meanArr (unc (sumFn o)) (ix2 (0 : Fin 1) q)) (fun q => varArr (unc (sumFn o)) (unc (sqFn o)) (ix2 (0 : Fin 1) q))
      = normRelu o (meanT o) (varT o) := by
  have e1 : (fun q => meanArr (unc (sumFn o)) (ix2 (0 : Fin 1) q)) = meanT o := funext fun q => meanArr_spec o q
  have e2 : (fun q => varArr (unc (sumFn o)) (unc (sqFn o)) (ix2 (0 : Fin 1) q)) = varT o := funext fun q => varArr_spec o q
  rw [e1, e2]
  rfl

/-- The last launch, fed the third affine output, the host's statistics rows, the output weights and the output bias as a
    [1, 40] row, computes the final affine map of the normalised, clamped table. -/
theorem finFn_eq (o : Tab 100000 128) (Wl : (⟨2, ![128, 40]⟩ : Shape).Idx → EReal) (bl : (⟨1, ![40]⟩ : Shape).Idx → EReal)
    (hS : (⟨1, ![40]⟩ : Shape).ShapeCasts ⟨2, ![1, 40]⟩) :
    finFn (unc o) (meanArr (unc (sumFn o))) (varArr (unc (sumFn o)) (unc (sqFn o))) Wl (shapeCast ⟨2, ![1, 40]⟩ bl hS)
      = lin (normRelu o (meanT o) (varT o)) (cur Wl) (cur1 bl) := by
  unfold finFn
  rw [bn_eq_normRelu o]
  funext p q
  show (∑ r : Fin 128, normRelu o (meanT o) (varT o) p r * cur Wl r q) + shapeCast ⟨2, ![1, 40]⟩ bl hS (ix2 (0 : Fin 1) q) = _
  rw [shapeCast_a_1a_apply]
  rfl

end Cert.KernelIdeal.KerValue

end
-- ==== Proof.KerAggT.lean ====
/-
  The aggregation as a map of curried tables, at the edge list a device was launched with.
-/
import proofs.«176156_j23407571763695_2_alg».proof.Proof.Gen.KernelIdeal.Frame
import proofs.«176156_j23407571763695_2_alg».proof.Proof.KerHost0
import proofs.«176156_j23407571763695_2_alg».proof.Proof.Spec

noncomputable section

namespace Cert.KernelIdeal.KerValue

open Idealize.ShloMosaic Idealize.ShloMosaic.TcCoe Idealize.SL.Sem
open Cert.KernelIdeal Cert.KernelIdeal.Gen

/-- Gather the sources' rows and add them into the destinations' rows, read through the curried form. -/
def aggT (m : (ℓ : Loc nD τ sig) → Buf (Elt Ideal) ℓ) (c : Dev nD) : Cert.Spec.Tab 100000 128 → Cert.Spec.Tab 100000 128 :=
  fun h => Cert.Spec.cur (aggK (m ((c : Thread nD τ).loc main_arg1)) (Cert.Spec.unc h))

end Cert.KernelIdeal.KerValue

end
-- ==== Proof.KerLayer0.lean ====
/-
  Layer 1 of the idealized kernel program, boundary to boundary.

  From the table the layer starts with, the host aggregates and reshapes the bias; the layer launch writes the affine
  output and its tile sums; the host reduces the tile sums to the mean and variance rows; the normalise-and-clamp launch writes the next table.
  Each step is read at the boundary contents the run folds; the result is the specification's layer with tile-sum statistics.
-/
import proofs.«176156_j23407571763695_2_alg».proof.Proof.Gen.KernelIdeal.Frame
import proofs.«176156_j23407571763695_2_alg».proof.Proof.KerLin0
import proofs.«176156_j23407571763695_2_alg».proof.Proof.KerBn1
import proofs.«176156_j23407571763695_2_alg».proof.Proof.KerKeepA
import proofs.«176156_j23407571763695_2_alg».proof.Proof.KerKeepB
import proofs.«176156_j23407571763695_2_alg».proof.Proof.KerHost0
import proofs.«176156_j23407571763695_2_alg».proof.Proof.KerHost1
import proofs.«176156_j23407571763695_2_alg».proof.Proof.KerGlue
import proofs.«176156_j23407571763695_2_alg».proof.Proof.KerAggT

set_option maxRecDepth 16384
set_option pp.maxSteps 5000
set_option pp.deepTerms false

noncomputable section

namespace Cert.KernelIdeal.KerValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- If the table at the layer's first boundary is `h`, the table at its last boundary is the layer of `h`. -/
theorem layer0 (c : Dev nD) (h : Cert.Spec.Tab 100000 128)
    (hH : W0 m ρ c (Proc.devRef .tc main_arg0) = Cert.Spec.unc h) :
    W4 m ρ c (Proc.devRef .tc main_v34) = Cert.Spec.unc (Cert.Spec.layerT (aggT m c) h (Cert.Spec.cur (m ((c : Thread nD τ).loc main_arg2))) (Cert.Spec.cur1 (m ((c : Thread nD τ).loc main_arg3)))) := by
  -- the aggregated table, the table, the weights and the bias row as the layer launch finds them
  have a0 : W1 m ρ c (Proc.devRef .tc main_v13) = aggK (m ((c : Thread nD τ).loc main_arg1)) (Cert.Spec.unc h) :=
    (hostOps0_agg (W0 m ρ c)).trans (by rw [(rfl : W0 m ρ c (Proc.devRef .tc main_arg1) = m ((c : Thread nD τ).loc main_arg1)), hH])
  have a1 : W1 m ρ c (Proc.devRef .tc main_arg0) = Cert.Spec.unc h := (hostOps0_tbl (W0 m ρ c)).trans hH
  have a2 : W1 m ρ c (Proc.devRef .tc main_arg2) = (m ((c : Thread nD τ).loc main_arg2)) := keep_arg2_W1 m ρ c
  have a3 : W1 m ρ c (Proc.devRef .tc main_v14) = shapeCast S1x128 (m ((c : Thread nD τ).loc main_arg3)) shapeCasts_S128_S1x128 :=
    (hostOps0_bias (W0 m ρ c)).trans (by rw [(rfl : W0 m ρ c (Proc.devRef .tc main_arg3) = m ((c : Thread nD τ).loc main_arg3))])
  -- the affine output
  have hT : linTab0 (V1 m ρ) c = Cert.Spec.pre (aggT m c) h (Cert.Spec.cur (m ((c : Thread nD τ).loc main_arg2))) (Cert.Spec.cur1 (m ((c : Thread nD τ).loc main_arg3))) := by
    unfold linTab0
    show linFn (W1 m ρ c (Proc.devRef .tc main_v13)) (W1 m ρ c (Proc.devRef .tc main_arg0)) (W1 m ρ c (Proc.devRef .tc main_arg2)) (W1 m ρ c (Proc.devRef .tc main_v14)) = _
    rw [a0, a1, a2, a3]
    exact linFn_eq_pre (aggK (m ((c : Thread nD τ).loc main_arg1))) h (m ((c : Thread nD τ).loc main_arg2)) (m ((c : Thread nD τ).loc main_arg3)) _
  unfold Cert.Spec.layerT
  generalize Cert.Spec.pre (aggT m c) h (Cert.Spec.cur (m ((c : Thread nD τ).loc main_arg2))) (Cert.Spec.cur1 (m ((c : Thread nD τ).loc main_arg3))) = o at hT ⊢
  -- the three arrays the layer launch leaves
  have s0 : W2 m ρ c (Proc.devRef .tc main_v15_0) = Cert.Spec.unc o := (W2_arr m ρ c 4).trans ((arr0_4 (V1 m ρ) c).trans (by rw [hT]))
  have s1 : W2 m ρ c (Proc.devRef .tc main_v15_1) = Cert.Spec.unc (sumFn o) := (W2_arr m ρ c 5).trans ((arr0_5 (V1 m ρ) c).trans (by rw [hT]))
  have s2 : W2 m ρ c (Proc.devRef .tc main_v15_2) = Cert.Spec.unc (sqFn o) := (W2_arr m ρ c 6).trans ((arr0_6 (V1 m ρ) c).trans (by rw [hT]))
  -- the host's statistics rows
  have t0 : W3 m ρ c (Proc.devRef .tc main_v15_0) = Cert.Spec.unc o := (hostOps1_v15_0 (W2 m ρ c)).trans s0
  have t1 : W3 m ρ c (Proc.devRef .tc main_v32) = meanArr (Cert.Spec.unc (sumFn o)) := (hostOps1_mean (W2 m ρ c)).trans (by rw [s1])
  have t2 : W3 m ρ c (Proc.devRef .tc main_v33) = varArr (Cert.Spec.unc (sumFn o)) (Cert.Spec.unc (sqFn o)) := (hostOps1_var (W2 m ρ c)).trans (by rw [s1, s2])
  have u : bnArr1 (V3 m ρ) c = Cert.Spec.unc (Cert.Spec.normRelu o (Cert.Spec.meanT o) (Cert.Spec.varT o)) := by
    unfold bnArr1
    show Cert.Spec.unc (Cert.Spec.normRelu (Cert.Spec.cur (W3 m ρ c (Proc.devRef .tc main_v15_0)))
        (fun q => W3 m ρ c (Proc.devRef .tc main_v32) (ix2 (0 : Fin 1) q)) (fun q => W3 m ρ c (Proc.devRef .tc main_v33) (ix2 (0 : Fin 1) q))) = _
    rw [t0, t1, t2, bn_eq_normRelu]
  exact (W4_arr m ρ c 3).trans ((arr1_3 (V3 m ρ) c).trans u)

end Cert.KernelIdeal.KerValue

end
-- ==== Proof.KerLin2.lean ====
/-
  Layer launch 2, as functions of the arrays it finds.

  Point t of 20 reads rows 5000·t … 5000·t + 4999 of the aggregated table and of the table, the whole weight matrix and the
  bias row; it writes back the same rows of the affine output, and rows 8·t … 8·t + 7 of the two arrays of tile sums. So
  after the launch the affine output array holds (agg + h)·W + b everywhere, and row i of each small array holds tile
  (i / 8)'s column sums (of the affine output, and of its squares): every index lies in exactly the block of the
  point its row falls to, and what a point writes back is that block of these functions.
-/
import proofs.«176156_j23407571763695_2_alg».proof.Proof.Gen.KernelIdeal.Frame
import proofs.«176156_j23407571763695_2_alg».proof.Proof.KerLinPay
import proofs.«176156_j23407571763695_2_alg».proof.Proof.KerLinPoint

set_option maxRecDepth 16384
set_option pp.maxSteps 5000
set_option pp.deepTerms false

noncomputable section

namespace Cert.KernelIdeal.KerValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hzL2 : (![0, 0] : Fin 2 → Nat) = fun _ => 0 := funext fun a => by fin_cases a <;> rfl

/-- The affine output, in curried form, of the arrays the launch finds. -/
def linTab2 (c : Dev nD) : Cert.Spec.Tab 100000 128 :=
  linFn (V c (Pipeline.arrRef spec2 0)) (V c (Pipeline.arrRef spec2 1)) (V c (Pipeline.arrRef spec2 2)) (V c (Pipeline.arrRef spec2 3))

/-- The index maps over the grid: the two tables' blocks and the three outputs' blocks all sit at the point's own
    block row; the weights and the bias row stay. -/
theorem idx_factsL2 : ∀ t : Fin cfg2.N, win2_0.index t (0 : Fin 2) = win2_4.index t (0 : Fin 2)
    ∧ win2_1.index t (0 : Fin 2) = win2_4.index t (0 : Fin 2)
    ∧ win2_5.index t (0 : Fin 2) = win2_4.index t (0 : Fin 2)
    ∧ win2_6.index t (0 : Fin 2) = win2_4.index t (0 : Fin 2)
    ∧ win2_0.index t (1 : Fin 2) = 0 ∧ win2_1.index t (1 : Fin 2) = 0 ∧ win2_4.index t (1 : Fin 2) = 0
    ∧ win2_5.index t (1 : Fin 2) = 0 ∧ win2_6.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) ≤ 19 :=
  (by decide +kernel : ∀ t : Fin grid2.N, _)

theorem idx_ontoL2_4 : ∀ q0 : Fin 20, ∃ t : Fin cfg2.N, win2_4.index t = ![q0.val, 0] :=
  (by decide +kernel : ∀ q0 : Fin 20, ∃ t : Fin grid2.N, win2_4.index t = ![q0.val, 0])
theorem idx_ontoL2_5 : ∀ q0 : Fin 20, ∃ t : Fin cfg2.N, win2_5.index t = ![q0.val, 0] :=
  (by decide +kernel : ∀ q0 : Fin 20, ∃ t : Fin grid2.N, win2_5.index t = ![q0.val, 0])
theorem idx_ontoL2_6 : ∀ q0 : Fin 20, ∃ t : Fin cfg2.N, win2_6.index t = ![q0.val, 0] :=
  (by decide +kernel : ∀ q0 : Fin 20, ∃ t : Fin grid2.N, win2_6.index t = ![q0.val, 0])

/-- Entry (p, q) of the affine block point t computes is the affine output at the array index that entry is written to. -/
theorem blk2_entry (c : Dev nD) (t : Fin cfg2.N) (p : Fin 5000) (q : Fin 128) :
    k2_pay1 (F := Ideal) (iblk2 V c 0 t) (iblk2 V c 1 t) (iblk2 V c 2 t) (iblk2 V c 3 t) (ix2 p q)
      = Cert.Spec.unc (linTab2 V c) (((cfg2.win 4).blk t).view.emb (ix2 p q)) := by
  obtain ⟨e0, e1, e2, e3, e4, e5, e6, e7, e8, e9, e10, e11, e12, e13⟩ := idx_factsL2 t
  refine (lin2_pay1_apply (iblk2 V c 0 t) (iblk2 V c 1 t) (iblk2 V c 2 t) (iblk2 V c 3 t) p q).trans ?_
  have h0 : ∀ r : Fin 128, ((cfg2.win 0).blk t).view.emb (ix2 p r) = ix2 ((((cfg2.win 4).blk t).view.emb (ix2 p q)) 0) r := fun r => by
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 128 + 1 * r.val = r.val; omega
  have h1 : ∀ r : Fin 128, ((cfg2.win 1).blk t).view.emb (ix2 p r) = ix2 ((((cfg2.win 4).blk t).view.emb (ix2 p q)) 0) r := fun r => by
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 128 + 1 * r.val = r.val; omega
  have h2 : ∀ r : Fin 128, ((cfg2.win 2).blk t).view.emb (ix2 r q) = ix2 r ((((cfg2.win 4).blk t).view.emb (ix2 p q)) 1) := fun r => by
    funext a; apply Fin.ext
    match a with
    | ⟨0, _⟩ => show win2_2.index t (0 : Fin 2) * 128 + 1 * r.val = r.val; omega
    | ⟨1, _⟩ => show win2_2.index t (1 : Fin 2) * 128 + 1 * q.val = win2_4.index t (1 : Fin 2) * 128 + 1 * q.val; omega
  have h3 : ((cfg2.win 3).blk t).view.emb (ix2 (0 : Fin 1) q) = ix2 (0 : Fin 1) ((((cfg2.win 4).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega
  exact lin_point (V c (Pipeline.arrRef spec2 0)) (V c (Pipeline.arrRef spec2 1)) (V c (Pipeline.arrRef spec2 2)) (V c (Pipeline.arrRef spec2 3))
    (fun r => iblk2 V c 0 t (ix2 p r)) (fun r => iblk2 V c 1 t (ix2 p r)) (fun r => iblk2 V c 2 t (ix2 r q)) (iblk2 V c 3 t (ix2 (0 : Fin 1) q))
    (((cfg2.win 4).blk t).view.emb (ix2 p q))
    (fun r => congrArg (V c (Pipeline.arrRef spec2 0)) (h0 r)) (fun r => congrArg (V c (Pipeline.arrRef spec2 1)) (h1 r))
    (fun r => congrArg (V c (Pipeline.arrRef spec2 2)) (h2 r)) (congrArg (V c (Pipeline.arrRef spec2 3)) h3)

/-- What point t writes back to the affine output is block t of the affine output. -/
theorem flushed2_4_eq (c : Dev nD) (t : Fin cfg2.N) :
    (dat2 V c).flushed 4 t = ((cfg2.win 4).blk t).view.read (Elt Ideal) (Cert.Spec.unc (linTab2 V c)) := by
  show (cfg2.win 4).cut (grid2.coords t) ((dat2 V c).after 4 t) = _
  rw [after2_4]
  unfold out2_4
  rw [View.canon_unit_zero hzL2]
  simp only [View.ld_unit_zero (S := S5000x128) hzL2, View.ld_unit_zero (S := S1x128) hzL2, View.ld_unit_zero (S := S128x128) hzL2]
  funext j
  obtain ⟨p, q, rfl⟩ : ∃ (p : Fin 5000) (q : Fin 128), j = ix2 p q := ⟨j 0, j 1, eq_ix2 j⟩
  exact blk2_entry V c t p q

/-- The row of the affine output that row p of point t's block is: row p of the tile the point's block row names. -/
theorem row2_of (t : Fin cfg2.N) (p : Fin 5000) (q : Fin 128) (r : Fin 8) (w : Fin 2) (hw : w = 0 ∨ w = 1) (tl : Fin 20)
    (htl : tl.val = win2_4.index t (0 : Fin 2)) :
    (((cfg2.win 4).blk t).view.emb (ix2 p q)) = ix2 (Cert.Spec.tileRow tl p) q := by
  obtain ⟨e0, e1, e2, e3, e4, e5, e6, e7, e8, e9, e10, e11, e12, e13⟩ := idx_factsL2 t
  funext a; apply Fin.ext
  match a with
  | ⟨0, _⟩ => show win2_4.index t (0 : Fin 2) * 5000 + 1 * p.val = 5000 * tl.val + p.val; omega
  | ⟨1, _⟩ => show win2_4.index t (1 : Fin 2) * 128 + 1 * q.val = q.val; omega

/-- What point t writes back to the array of tile sums is block t of the tile sums of the affine output. -/
theorem flushed2_5_eq (c : Dev nD) (t : Fin cfg2.N) :
    (dat2 V c).flushed 5 t = ((cfg2.win 5).blk t).view.read (Elt Ideal) (Cert.Spec.unc (sumFn (linTab2 V c))) := by
  show (cfg2.win 5).cut (grid2.coords t) ((dat2 V c).after 5 t) = _
  rw [after2_5]
  unfold out2_5
  rw [View.canon_unit_zero hzL2]
  simp only [View.ld_unit_zero (S := S5000x128) hzL2, View.ld_unit_zero (S := S1x128) hzL2, View.ld_unit_zero (S := S128x128) hzL2]
  obtain ⟨e0, e1, e2, e3, e4, e5, e6, e7, e8, e9, e10, e11, e12, e13⟩ := idx_factsL2 t
  funext j
  obtain ⟨r, q, rfl⟩ : ∃ (r : Fin 8) (q : Fin 128), j = ix2 r q := ⟨j 0, j 1, eq_ix2 j⟩
  show k2_pay2 (F := Ideal) (iblk2 V c 0 t) (iblk2 V c 1 t) (iblk2 V c 2 t) (iblk2 V c 3 t) (ix2 r q)
      = Cert.Spec.unc (sumFn (linTab2 V c)) (((cfg2.win 5).blk t).view.emb (ix2 r q))
  refine (lin2_pay2_apply (iblk2 V c 0 t) (iblk2 V c 1 t) (iblk2 V c 2 t) (iblk2 V c 3 t) r q).trans ?_
  have hv0 : ((((cfg2.win 5).blk t).view.emb (ix2 r q)) 0).val = win2_5.index t (0 : Fin 2) * 8 + 1 * r.val := rfl
  have hv1 : ((((cfg2.win 5).blk t).view.emb (ix2 r q)) 1).val = win2_5.index t (1 : Fin 2) * 128 + 1 * q.val := rfl
  have hq : ((((cfg2.win 5).blk t).view.emb (ix2 r q)) 1) = q := Fin.ext (by rw [hv1]; omega)
  refine sum_point (linTab2 V c) _ ⟨win2_4.index t (0 : Fin 2), by omega⟩ _ (Fin.ext ?_) fun p => ?_
  · show ((((cfg2.win 5).blk t).view.emb (ix2 r q)) 0).val / 8 = win2_4.index t (0 : Fin 2)
    rw [hv0]; have := r.isLt; omega
  · rw [blk2_entry V c t p q, row2_of t p q r 0 (Or.inl rfl) ⟨win2_4.index t (0 : Fin 2), by omega⟩ rfl, hq]
    rfl

/-- What point t writes back to the array of tile sums of squares is block t of the tile sums of squares. -/
theorem flushed2_6_eq (c : Dev nD) (t : Fin cfg2.N) :
    (dat2 V c).flushed 6 t = ((cfg2.win 6).blk t).view.read (Elt Ideal) (Cert.Spec.unc (sqFn (linTab2 V c))) := by
  show (cfg2.win 6).cut (grid2.coords t) ((dat2 V c).after 6 t) = _
  rw [after2_6]
  unfold out2_6
  rw [View.canon_unit_zero hzL2]
  simp only [View.ld_unit_zero (S := S5000x128) hzL2, View.ld_unit_zero (S := S1x128) hzL2, View.ld_unit_zero (S := S128x128) hzL2]
  obtain ⟨e0, e1, e2, e3, e4, e5, e6, e7, e8, e9, e10, e11, e12, e13⟩ := idx_factsL2 t
  funext j
  obtain ⟨r, q, rfl⟩ : ∃ (r : Fin 8) (q : Fin 128), j = ix2 r q := ⟨j 0, j 1, eq_ix2 j⟩
  show k2_pay3 (F := Ideal) (iblk2 V c 0 t) (iblk2 V c 1 t) (iblk2 V c 2 t) (iblk2 V c 3 t) (ix2 r q)
      = Cert.Spec.unc (sqFn (linTab2 V c)) (((cfg2.win 6).blk t).view.emb (ix2 r q))
  refine (lin2_pay3_apply (iblk2 V c 0 t) (iblk2 V c 1 t) (iblk2 V c 2 t) (iblk2 V c 3 t) r q).trans ?_
  have hv0 : ((((cfg2.win 6).blk t).view.emb (ix2 r q)) 0).val = win2_6.index t (0 : Fin 2) * 8 + 1 * r.val := rfl
  have hv1 : ((((cfg2.win 6).blk t).view.emb (ix2 r q)) 1).val = win2_6.index t (1 : Fin 2) * 128 + 1 * q.val := rfl
  have hq : ((((cfg2.win 6).blk t).view.emb (ix2 r q)) 1) = q := Fin.ext (by rw [hv1]; omega)
  refine sq_point (linTab2 V c) _ ⟨win2_4.index t (0 : Fin 2), by omega⟩ _ (Fin.ext ?_) fun p => ?_
  · show ((((cfg2.win 6).blk t).view.emb (ix2 r q)) 0).val / 8 = win2_4.index t (0 : Fin 2)
    rw [hv0]; have := r.isLt; omega
  · rw [blk2_entry V c t p q, row2_of t p q r 0 (Or.inl rfl) ⟨win2_4.index t (0 : Fin 2), by omega⟩ rfl, hq]
    rfl

theorem mem_blk2_4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v50_0).slice (win2_4.rect t)).set ↔ _
  rw [View.set_slice_whole, Rect.mem_set_unit]
  exact Iff.rfl
theorem mem_blk2_5 (t : Fin cfg2.N) (i : S160x128.Idx) :
    i ∈ ((cfg2.win 5).blk t).view.set ↔ ∀ a : Fin 2, win2_5.index t a * S8x128.size a ≤ (i a).val ∧ (i a).val < win2_5.index t a * S8x128.size a + S8x128.size a := by
  show i ∈ ((View.whole main_v50_1).slice (win2_5.rect t)).set ↔ _
  rw [View.set_slice_whole, Rect.mem_set_unit]
  exact Iff.rfl
theorem mem_blk2_6 (t : Fin cfg2.N) (i : S160x128.Idx) :
    i ∈ ((cfg2.win 6).blk t).view.set ↔ ∀ a : Fin 2, win2_6.index t a * S8x128.size a ≤ (i a).val ∧ (i a).val < win2_6.index t a * S8x128.size a + S8x128.size a := by
  show i ∈ ((View.whole main_v50_2).slice (win2_6.rect t)).set ↔ _
  rw [View.set_slice_whole, Rect.mem_set_unit]
  exact Iff.rfl

theorem cover2_4 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := idx_ontoL2_4 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega
theorem cover2_5 (i : S160x128.Idx) : ∃ t : Fin cfg2.N, (cfg2.win 5).flush t = true ∧ i ∈ ((cfg2.win 5).blk t).view.set := by
  have hi0 : (i 0).val < 160 := (i 0).isLt
  have hi1 : (i 1).val < 128 := (i 1).isLt
  obtain ⟨t, ht⟩ := idx_ontoL2_5 ⟨(i 0).val / 8, by omega⟩
  have q0 : win2_5.index t (0 : Fin 2) = (i 0).val / 8 := congrFun ht 0
  have q1 : win2_5.index t (1 : Fin 2) = 0 := congrFun ht 1
  refine ⟨t, flush2_5 t, ?_⟩
  rw [mem_blk2_5]
  intro a
  match a with
  | ⟨0, _⟩ => show win2_5.index t (0 : Fin 2) * 8 ≤ (i 0).val ∧ (i 0).val < win2_5.index t (0 : Fin 2) * 8 + 8; omega
  | ⟨1, _⟩ => show win2_5.index t (1 : Fin 2) * 128 ≤ (i 1).val ∧ (i 1).val < win2_5.index t (1 : Fin 2) * 128 + 128; omega
theorem cover2_6 (i : S160x128.Idx) : ∃ t : Fin cfg2.N, (cfg2.win 6).flush t = true ∧ i ∈ ((cfg2.win 6).blk t).view.set := by
  have hi0 : (i 0).val < 160 := (i 0).isLt
  have hi1 : (i 1).val < 128 := (i 1).isLt
  obtain ⟨t, ht⟩ := idx_ontoL2_6 ⟨(i 0).val / 8, by omega⟩
  have q0 : win2_6.index t (0 : Fin 2) = (i 0).val / 8 := congrFun ht 0
  have q1 : win2_6.index t (1 : Fin 2) = 0 := congrFun ht 1
  refine ⟨t, flush2_6 t, ?_⟩
  rw [mem_blk2_6]
  intro a
  match a with
  | ⟨0, _⟩ => show win2_6.index t (0 : Fin 2) * 8 ≤ (i 0).val ∧ (i 0).val < win2_6.index t (0 : Fin 2) * 8 + 8; omega
  | ⟨1, _⟩ => show win2_6.index t (1 : Fin 2) * 128 ≤ (i 1).val ∧ (i 1).val < win2_6.index t (1 : Fin 2) * 128 + 128; omega

/-- The three output arrays after the launch. -/
theorem arr2_4 (c : Dev nD) : (dat2 V c).arrAt 4 cfg2.N = Cert.Spec.unc (linTab2 V c) :=
  (dat2 V c).arrAt_eq_of_cover 4 (Cert.Spec.unc (linTab2 V c)) (fun t _ => flushed2_4_eq V c t) (cover2_4)
theorem arr2_5 (c : Dev nD) : (dat2 V c).arrAt 5 cfg2.N = Cert.Spec.unc (sumFn (linTab2 V c)) :=
  (dat2 V c).arrAt_eq_of_cover 5 (Cert.Spec.unc (sumFn (linTab2 V c))) (fun t _ => flushed2_5_eq V c t) (cover2_5)
theorem arr2_6 (c : Dev nD) : (dat2 V c).arrAt 6 cfg2.N = Cert.Spec.unc (sqFn (linTab2 V c)) :=
  (dat2 V c).arrAt_eq_of_cover 6 (Cert.Spec.unc (sqFn (linTab2 V c))) (fun t _ => flushed2_6_eq V c t) (cover2_6)

end Cert.KernelIdeal.KerValue

end
-- ==== Proof.KerBn3.lean ====
/-
  The second normalise-and-clamp launch, as one function of the arrays it finds.

  The launch runs over 20 grid points; point t reads rows 5000·t … 5000·t + 4999 of the table and the single rows of
  column means and variances, and writes back the same rows of the output. So the output array ends holding, at
  (i, q),  max ((o(i, q) − mean_q) · (var_q + ε)^(−1/2), 0):  every index lies in the block of point i / 5000, and what
  a point writes back is that block of this one function.
-/
import proofs.«176156_j23407571763695_2_alg».proof.Proof.Gen.KernelIdeal.Frame
import proofs.«176156_j23407571763695_2_alg».proof.Proof.KerBnPay
import proofs.«176156_j23407571763695_2_alg».proof.Proof.Spec

set_option maxRecDepth 16384
set_option pp.maxSteps 5000
set_option pp.deepTerms false

noncomputable section

namespace Cert.KernelIdeal.KerValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-- The output as one function of the table and the two statistics rows the launch finds. -/
def bnArr3 (c : Dev nD) : S100000x128.Idx → EReal :=
  Cert.Spec.unc (Cert.Spec.normRelu (Cert.Spec.cur (V c (Pipeline.arrRef spec3 0)))
    (fun q => V c (Pipeline.arrRef spec3 1) (ix2 (0 : Fin 1) q)) (fun q => V c (Pipeline.arrRef spec3 2) (ix2 (0 : Fin 1) q)))

/-- The index maps over the grid: the table's block moves with the output's, down the rows; the statistics rows stay. -/
theorem idx_facts3 : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 19 :=
  (by decide +kernel : ∀ t : Fin grid3.N, _)

/-- Every block of rows is some point's. -/
theorem idx_onto3 : ∀ q0 : Fin 20, ∃ t : Fin cfg3.N, win3_3.index t = ![q0.val, 0] :=
  (by decide +kernel : ∀ q0 : Fin 20, ∃ t : Fin grid3.N, win3_3.index t = ![q0.val, 0])

/-- What point t writes back is block t of the one function. -/
theorem flushed3_eq (c : Dev nD) (t : Fin cfg3.N) :
    (dat3 V c).flushed 3 t = ((cfg3.win 3).blk t).view.read (Elt Ideal) (bnArr3 V c) := by
  show (cfg3.win 3).cut (grid3.coords t) ((dat3 V c).after 3 t) = _
  rw [after3_3]
  unfold out3_3
  rw [View.canon_unit_zero hz3]
  simp only [View.ld_unit_zero (S := S5000x128) hz3, View.ld_unit_zero (S := S1x128) hz3]
  obtain ⟨e0, e1, e2, e3, e4, e5, e6, e7⟩ := idx_facts3 t
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (ix2 p q) = bnArr3 V c (((cfg3.win 3).blk t).view.emb (ix2 p q))
  refine (bn3_pay_apply (iblk3 V c 0 t) (iblk3 V c 1 t) (iblk3 V c 2 t) p q).trans ?_
  have h0 : ((cfg3.win 0).blk t).view.emb (ix2 p q)
      = ix2 ((((cfg3.win 3).blk t).view.emb (ix2 p q)) 0) ((((cfg3.win 3).blk t).view.emb (ix2 p q)) 1) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * q.val = win3_3.index t (1 : Fin 2) * 128 + 1 * q.val; omega
  have h1 : ((cfg3.win 1).blk t).view.emb (ix2 (0 : Fin 1) q) = ix2 (0 : Fin 1) ((((cfg3.win 3).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_3.index t (1 : Fin 2) * 128 + 1 * q.val; omega
  have h2 : ((cfg3.win 2).blk t).view.emb (ix2 (0 : Fin 1) q) = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  exact bn_point (V c (Pipeline.arrRef spec3 0)) (V c (Pipeline.arrRef spec3 1)) (V c (Pipeline.arrRef spec3 2))
    (iblk3 V c 0 t (ix2 p q)) (iblk3 V c 1 t (ix2 (0 : Fin 1) q)) (iblk3 V c 2 t (ix2 (0 : Fin 1) q)) (((cfg3.win 3).blk t).view.emb (ix2 p q))
    (congrArg (V c (Pipeline.arrRef spec3 0)) h0) (congrArg (V c (Pipeline.arrRef spec3 1)) h1) (congrArg (V c (Pipeline.arrRef spec3 2)) h2)

/-- An index of the array is in point t's block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v69).slice (win3_3.rect t)).set ↔ _
  rw [View.set_slice_whole, Rect.mem_set_unit]
  exact Iff.rfl

/-- Every index is in the block of the point its row falls to. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the launch. -/
theorem arr3_3 (c : Dev nD) : (dat3 V c).arrAt 3 cfg3.N = bnArr3 V c :=
  (dat3 V c).arrAt_eq_of_cover 3 (bnArr3 V c) (fun t _ => flushed3_eq V c t) (cover3)

end Cert.KernelIdeal.KerValue

end
-- ==== Proof.KerHost2.lean ====
/-
  The second aggregation stretch of host operations, at any buffer contents: it leaves the aggregation of the
  table it reads, and the layer's bias viewed as one row, and does not touch the table or the layer's weights.
-/
import Idealize.ShloMosaic.Lib.ValueIdx
import proofs.«176156_j23407571763695_2_alg».proof.Proof.Gen.KernelIdeal.Launch
import proofs.«176156_j23407571763695_2_alg».proof.Proof.KerHostAggDef

noncomputable section

namespace Cert.KernelIdeal.KerValue

open Cert.KernelIdeal Cert.KernelIdeal.Gen Idealize.ShloMosaic Idealize.ShloMosaic.TcCoe Idealize.ShloMosaic.ValueIdx

variable (W : Valuation τ sig (Elt Ideal))

theorem hostOps2_agg :
    StableHlo.after (hostOps2 (F := Ideal)) W (Proc.devRef .tc main_v48)
      = aggK (W (Proc.devRef .tc main_arg1)) (W (Proc.devRef .tc main_v34)) := by
  after_results_simp
  rfl

theorem hostOps2_bias :
    StableHlo.after (hostOps2 (F := Ideal)) W (Proc.devRef .tc main_v49)
      = shapeCast S1x128 (W (Proc.devRef .tc main_arg5)) shapeCasts_S128_S1x128 := by
  after_results
  rfl

theorem hostOps2_tbl :
    StableHlo.after (hostOps2 (F := Ideal)) W (Proc.devRef .tc main_v34) = W (Proc.devRef .tc main_v34) := by
  after_results

theorem hostOps2_w :
    StableHlo.after (hostOps2 (F := Ideal)) W (Proc.devRef .tc main_arg4) = W (Proc.devRef .tc main_arg4) := by
  after_results

end Cert.KernelIdeal.KerValue

end
-- ==== Proof.KerHost3.lean ====
/-
  The second statistics stretch of host operations, at any buffer contents: it leaves the mean row and the variance
  row of the two arrays of tile sums, and does not touch the third array the kernel before it wrote.
-/
import Idealize.ShloMosaic.Lib.ValueIdx
import proofs.«176156_j23407571763695_2_alg».proof.Proof.Gen.KernelIdeal.Launch
import proofs.«176156_j23407571763695_2_alg».proof.Proof.KerHostStat

noncomputable section

namespace Cert.KernelIdeal.KerValue

open Cert.KernelIdeal Cert.KernelIdeal.Gen Idealize.ShloMosaic Idealize.ShloMosaic.TcCoe Idealize.ShloMosaic.ValueIdx

variable (W : Valuation τ sig (Elt Ideal))

theorem hostOps3_mean :
    StableHlo.after (hostOps3 (F := Ideal)) W (Proc.devRef .tc main_v67)
      = meanArr (W (Proc.devRef .tc main_v50_1)) := by
  after_results
  rfl

theorem hostOps3_var :
    StableHlo.after (hostOps3 (F := Ideal)) W (Proc.devRef .tc main_v68)
      = varArr (W (Proc.devRef .tc main_v50_1)) (W (Proc.devRef .tc main_v50_2)) := by
  after_results_simp
  rfl

theorem hostOps3_tbl :
    StableHlo.after (hostOps3 (F := Ideal)) W (Proc.devRef .tc main_v50_0) = W (Proc.devRef .tc main_v50_0) := by
  after_results

end Cert.KernelIdeal.KerValue

end
-- ==== Proof.KerLayer1.lean ====
/-
  Layer 2 of the idealized kernel program, boundary to boundary.

  From the table the layer starts with, the host aggregates and reshapes the bias; the layer launch writes the affine
  output and its tile sums; the host reduces the tile sums to the mean and variance rows; the normalise-and-clamp launch writes the next table.
  Each step is read at the boundary contents the run folds; the result is the specification's layer with tile-sum statistics.
-/
import proofs.«176156_j23407571763695_2_alg».proof.Proof.Gen.KernelIdeal.Frame
import proofs.«176156_j23407571763695_2_alg».proof.Proof.KerLin2
import proofs.«176156_j23407571763695_2_alg».proof.Proof.KerBn3
import proofs.«176156_j23407571763695_2_alg».proof.Proof.KerKeepA
import proofs.«176156_j23407571763695_2_alg».proof.Proof.KerKeepB
import proofs.«176156_j23407571763695_2_alg».proof.Proof.KerHost2
import proofs.«176156_j23407571763695_2_alg».proof.Proof.KerHost3
import proofs.«176156_j23407571763695_2_alg».proof.Proof.KerGlue
import proofs.«176156_j23407571763695_2_alg».proof.Proof.KerAggT

set_option maxRecDepth 16384
set_option pp.maxSteps 5000
set_option pp.deepTerms false

noncomputable section

namespace Cert.KernelIdeal.KerValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- If the table at the layer's first boundary is `h`, the table at its last boundary is the layer of `h`. -/
theorem layer1 (c : Dev nD) (h : Cert.Spec.Tab 100000 128)
    (hH : W4 m ρ c (Proc.devRef .tc main_v34) = Cert.Spec.unc h) :
    W8 m ρ c (Proc.devRef .tc main_v69) = Cert.Spec.unc (Cert.Spec.layerT (aggT m c) h (Cert.Spec.cur (m ((c : Thread nD τ).loc main_arg4))) (Cert.Spec.cur1 (m ((c : Thread nD τ).loc main_arg5)))) := by
  -- the aggregated table, the table, the weights and the bias row as the layer launch finds them
  have a0 : W5 m ρ c (Proc.devRef .tc main_v48) = aggK (m ((c : Thread nD τ).loc main_arg1)) (Cert.Spec.unc h) :=
    (hostOps2_agg (W4 m ρ c)).trans (by rw [(keep_arg1_W4 m ρ c), hH])
  have a1 : W5 m ρ c (Proc.devRef .tc main_v34) = Cert.Spec.unc h := (hostOps2_tbl (W4 m ρ c)).trans hH
  have a2 : W5 m ρ c (Proc.devRef .tc main_arg4) = (m ((c : Thread nD τ).loc main_arg4)) := keep_arg4_W5 m ρ c
  have a3 : W5 m ρ c (Proc.devRef .tc main_v49) = shapeCast S1x128 (m ((c : Thread nD τ).loc main_arg5)) shapeCasts_S128_S1x128 :=
    (hostOps2_bias (W4 m ρ c)).trans (by rw [(keep_arg5_W4 m ρ c)])
  -- the affine output
  have hT : linTab2 (V5 m ρ) c = Cert.Spec.pre (aggT m c) h (Cert.Spec.cur (m ((c : Thread nD τ).loc main_arg4))) (Cert.Spec.cur1 (m ((c : Thread nD τ).loc main_arg5))) := by
    unfold linTab2
    show linFn (W5 m ρ c (Proc.devRef .tc main_v48)) (W5 m ρ c (Proc.devRef .tc main_v34)) (W5 m ρ c (Proc.devRef .tc main_arg4)) (W5 m ρ c (Proc.devRef .tc main_v49)) = _
    rw [a0, a1, a2, a3]
    exact linFn_eq_pre (aggK (m ((c : Thread nD τ).loc main_arg1))) h (m ((c : Thread nD τ).loc main_arg4)) (m ((c : Thread nD τ).loc main_arg5)) _
  unfold Cert.Spec.layerT
  generalize Cert.Spec.pre (aggT m c) h (Cert.Spec.cur (m ((c : Thread nD τ).loc main_arg4))) (Cert.Spec.cur1 (m ((c : Thread nD τ).loc main_arg5))) = o at hT ⊢
  -- the three arrays the layer launch leaves
  have s0 : W6 m ρ c (Proc.devRef .tc main_v50_0) = Cert.Spec.unc o := (W6_arr m ρ c 4).trans ((arr2_4 (V5 m ρ) c).trans (by rw [hT]))
  have s1 : W6 m ρ c (Proc.devRef .tc main_v50_1) = Cert.Spec.unc (sumFn o) := (W6_arr m ρ c 5).trans ((arr2_5 (V5 m ρ) c).trans (by rw [hT]))
  have s2 : W6 m ρ c (Proc.devRef .tc main_v50_2) = Cert.Spec.unc (sqFn o) := (W6_arr m ρ c 6).trans ((arr2_6 (V5 m ρ) c).trans (by rw [hT]))
  -- the host's statistics rows
  have t0 : W7 m ρ c (Proc.devRef .tc main_v50_0) = Cert.Spec.unc o := (hostOps3_tbl (W6 m ρ c)).trans s0
  have t1 : W7 m ρ c (Proc.devRef .tc main_v67) = meanArr (Cert.Spec.unc (sumFn o)) := (hostOps3_mean (W6 m ρ c)).trans (by rw [s1])
  have t2 : W7 m ρ c (Proc.devRef .tc main_v68) = varArr (Cert.Spec.unc (sumFn o)) (Cert.Spec.unc (sqFn o)) := (hostOps3_var (W6 m ρ c)).trans (by rw [s1, s2])
  have u : bnArr3 (V7 m ρ) c = Cert.Spec.unc (Cert.Spec.normRelu o (Cert.Spec.meanT o) (Cert.Spec.varT o)) := by
    unfold bnArr3
    show Cert.Spec.unc (Cert.Spec.normRelu (Cert.Spec.cur (W7 m ρ c (Proc.devRef .tc main_v50_0)))
        (fun q => W7 m ρ c (Proc.devRef .tc main_v67) (ix2 (0 : Fin 1) q)) (fun q => W7 m ρ c (Proc.devRef .tc main_v68) (ix2 (0 : Fin 1) q))) = _
    rw [t0, t1, t2, bn_eq_normRelu]
  exact (W8_arr m ρ c 3).trans ((arr3_3 (V7 m ρ) c).trans u)

end Cert.KernelIdeal.KerValue

end
-- ==== Proof.KerLin4.lean ====
/-
  Layer launch 4, as functions of the arrays it finds.

  Point t of 20 reads rows 5000·t … 5000·t + 4999 of the aggregated table and of the table, the whole weight matrix and the
  bias row; it writes back the same rows of the affine output, and rows 8·t … 8·t + 7 of the two arrays of tile sums. So
  after the launch the affine output array holds (agg + h)·W + b everywhere, and row i of each small array holds tile
  (i / 8)'s column sums (of the affine output, and of its squares): every index lies in exactly the block of the
  point its row falls to, and what a point writes back is that block of these functions.
-/
import proofs.«176156_j23407571763695_2_alg».proof.Proof.Gen.KernelIdeal.Frame
import proofs.«176156_j23407571763695_2_alg».proof.Proof.KerLinPay
import proofs.«176156_j23407571763695_2_alg».proof.Proof.KerLinPoint

set_option maxRecDepth 16384
set_option pp.maxSteps 5000
set_option pp.deepTerms false

noncomputable section

namespace Cert.KernelIdeal.KerValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hzL4 : (![0, 0] : Fin 2 → Nat) = fun _ => 0 := funext fun a => by fin_cases a <;> rfl

/-- The affine output, in curried form, of the arrays the launch finds. -/
def linTab4 (c : Dev nD) : Cert.Spec.Tab 100000 128 :=
  linFn (V c (Pipeline.arrRef spec4 0)) (V c (Pipeline.arrRef spec4 1)) (V c (Pipeline.arrRef spec4 2)) (V c (Pipeline.arrRef spec4 3))

/-- The index maps over the grid: the two tables' blocks and the three outputs' blocks all sit at the point's own
    block row; the weights and the bias row stay. -/
theorem idx_factsL4 : ∀ t : Fin cfg4.N, win4_0.index t (0 : Fin 2) = win4_4.index t (0 : Fin 2)
    ∧ win4_1.index t (0 : Fin 2) = win4_4.index t (0 : Fin 2)
    ∧ win4_5.index t (0 : Fin 2) = win4_4.index t (0 : Fin 2)
    ∧ win4_6.index t (0 : Fin 2) = win4_4.index t (0 : Fin 2)
    ∧ win4_0.index t (1 : Fin 2) = 0 ∧ win4_1.index t (1 : Fin 2) = 0 ∧ win4_4.index t (1 : Fin 2) = 0
    ∧ win4_5.index t (1 : Fin 2) = 0 ∧ win4_6.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) ≤ 19 :=
  (by decide +kernel : ∀ t : Fin grid4.N, _)

theorem idx_ontoL4_4 : ∀ q0 : Fin 20, ∃ t : Fin cfg4.N, win4_4.index t = ![q0.val, 0] :=
  (by decide +kernel : ∀ q0 : Fin 20, ∃ t : Fin grid4.N, win4_4.index t = ![q0.val, 0])
theorem idx_ontoL4_5 : ∀ q0 : Fin 20, ∃ t : Fin cfg4.N, win4_5.index t = ![q0.val, 0] :=
  (by decide +kernel : ∀ q0 : Fin 20, ∃ t : Fin grid4.N, win4_5.index t = ![q0.val, 0])
theorem idx_ontoL4_6 : ∀ q0 : Fin 20, ∃ t : Fin cfg4.N, win4_6.index t = ![q0.val, 0] :=
  (by decide +kernel : ∀ q0 : Fin 20, ∃ t : Fin grid4.N, win4_6.index t = ![q0.val, 0])

/-- Entry (p, q) of the affine block point t computes is the affine output at the array index that entry is written to. -/
theorem blk4_entry (c : Dev nD) (t : Fin cfg4.N) (p : Fin 5000) (q : Fin 128) :
    k4_pay1 (F := Ideal) (iblk4 V c 0 t) (iblk4 V c 1 t) (iblk4 V c 2 t) (iblk4 V c 3 t) (ix2 p q)
      = Cert.Spec.unc (linTab4 V c) (((cfg4.win 4).blk t).view.emb (ix2 p q)) := by
  obtain ⟨e0, e1, e2, e3, e4, e5, e6, e7, e8, e9, e10, e11, e12, e13⟩ := idx_factsL4 t
  refine (lin4_pay1_apply (iblk4 V c 0 t) (iblk4 V c 1 t) (iblk4 V c 2 t) (iblk4 V c 3 t) p q).trans ?_
  have h0 : ∀ r : Fin 128, ((cfg4.win 0).blk t).view.emb (ix2 p r) = ix2 ((((cfg4.win 4).blk t).view.emb (ix2 p q)) 0) r := fun r => by
    funext a; apply Fin.ext
    match a with
    | ⟨0, _⟩ => show win4_0.index t (0 : Fin 2) * 5000 + 1 * p.val = win4_4.index t (0 : Fin 2) * 5000 + 1 * p.val; omega
    | ⟨1, _⟩ => show win4_0.index t (1 : Fin 2) * 128 + 1 * r.val = r.val; omega
  have h1 : ∀ r : Fin 128, ((cfg4.win 1).blk t).view.emb (ix2 p r) = ix2 ((((cfg4.win 4).blk t).view.emb (ix2 p q)) 0) r := fun r => by
    funext a; apply Fin.ext
    match a with
    | ⟨0, _⟩ => show win4_1.index t (0 : Fin 2) * 5000 + 1 * p.val = win4_4.index t (0 : Fin 2) * 5000 + 1 * p.val; omega
    | ⟨1, _⟩ => show win4_1.index t (1 : Fin 2) * 128 + 1 * r.val = r.val; omega
  have h2 : ∀ r : Fin 128, ((cfg4.win 2).blk t).view.emb (ix2 r q) = ix2 r ((((cfg4.win 4).blk t).view.emb (ix2 p q)) 1) := fun r => by
    funext a; apply Fin.ext
    match a with
    | ⟨0, _⟩ => show win4_2.index t (0 : Fin 2) * 128 + 1 * r.val = r.val; omega
    | ⟨1, _⟩ => show win4_2.index t (1 : Fin 2) * 128 + 1 * q.val = win4_4.index t (1 : Fin 2) * 128 + 1 * q.val; omega
  have h3 : ((cfg4.win 3).blk t).view.emb (ix2 (0 : Fin 1) q) = ix2 (0 : Fin 1) ((((cfg4.win 4).blk t).view.emb (ix2 p q)) 1) := by
    funext a; apply Fin.ext
    match a with
    | ⟨0, _⟩ => show win4_3.index t (0 : Fin 2) * 1 + 1 * 0 = 0; omega
    | ⟨1, _⟩ => show win4_3.index t (1 : Fin 2) * 128 + 1 * q.val = win4_4.index t (1 : Fin 2) * 128 + 1 * q.val; omega
  exact lin_point (V c (Pipeline.arrRef spec4 0)) (V c (Pipeline.arrRef spec4 1)) (V c (Pipeline.arrRef spec4 2)) (V c (Pipeline.arrRef spec4 3))
    (fun r => iblk4 V c 0 t (ix2 p r)) (fun r => iblk4 V c 1 t (ix2 p r)) (fun r => iblk4 V c 2 t (ix2 r q)) (iblk4 V c 3 t (ix2 (0 : Fin 1) q))
    (((cfg4.win 4).blk t).view.emb (ix2 p q))
    (fun r => congrArg (V c (Pipeline.arrRef spec4 0)) (h0 r)) (fun r => congrArg (V c (Pipeline.arrRef spec4 1)) (h1 r))
    (fun r => congrArg (V c (Pipeline.arrRef spec4 2)) (h2 r)) (congrArg (V c (Pipeline.arrRef spec4 3)) h3)

/-- What point t writes back to the affine output is block t of the affine output. -/
theorem flushed4_4_eq (c : Dev nD) (t : Fin cfg4.N) :
    (dat4 V c).flushed 4 t = ((cfg4.win 4).blk t).view.read (Elt Ideal) (Cert.Spec.unc (linTab4 V c)) := by
  show (cfg4.win 4).cut (grid4.coords t) ((dat4 V c).after 4 t) = _
  rw [after4_4]
  unfold out4_4
  rw [View.canon_unit_zero hzL4]
  simp only [View.ld_unit_zero (S := S5000x128) hzL4, View.ld_unit_zero (S := S1x128) hzL4, View.ld_unit_zero (S := S128x128) hzL4]
  funext j
  obtain ⟨p, q, rfl⟩ : ∃ (p : Fin 5000) (q : Fin 128), j = ix2 p q := ⟨j 0, j 1, eq_ix2 j⟩
  exact blk4_entry V c t p q

/-- The row of the affine output that row p of point t's block is: row p of the tile the point's block row names. -/
theorem row4_of (t : Fin cfg4.N) (p : Fin 5000) (q : Fin 128) (r : Fin 8) (w : Fin 2) (hw : w = 0 ∨ w = 1) (tl : Fin 20)
    (htl : tl.val = win4_4.index t (0 : Fin 2)) :
    (((cfg4.win 4).blk t).view.emb (ix2 p q)) = ix2 (Cert.Spec.tileRow tl p) q := by
  obtain ⟨e0, e1, e2, e3, e4, e5, e6, e7, e8, e9, e10, e11, e12, e13⟩ := idx_factsL4 t
  funext a; apply Fin.ext
  match a with
  | ⟨0, _⟩ => show win4_4.index t (0 : Fin 2) * 5000 + 1 * p.val = 5000 * tl.val + p.val; omega
  | ⟨1, _⟩ => show win4_4.index t (1 : Fin 2) * 128 + 1 * q.val = q.val; omega

/-- What point t writes back to the array of tile sums is block t of the tile sums of the affine output. -/
theorem flushed4_5_eq (c : Dev nD) (t : Fin cfg4.N) :
    (dat4 V c).flushed 5 t = ((cfg4.win 5).blk t).view.read (Elt Ideal) (Cert.Spec.unc (sumFn (linTab4 V c))) := by
  show (cfg4.win 5).cut (grid4.coords t) ((dat4 V c).after 5 t) = _
  rw [after4_5]
  unfold out4_5
  rw [View.canon_unit_zero hzL4]
  simp only [View.ld_unit_zero (S := S5000x128) hzL4, View.ld_unit_zero (S := S1x128) hzL4, View.ld_unit_zero (S := S128x128) hzL4]
  obtain ⟨e0, e1, e2, e3, e4, e5, e6, e7, e8, e9, e10, e11, e12, e13⟩ := idx_factsL4 t
  funext j
  obtain ⟨r, q, rfl⟩ : ∃ (r : Fin 8) (q : Fin 128), j = ix2 r q := ⟨j 0, j 1, eq_ix2 j⟩
  show k4_pay2 (F := Ideal) (iblk4 V c 0 t) (iblk4 V c 1 t) (iblk4 V c 2 t) (iblk4 V c 3 t) (ix2 r q)
      = Cert.Spec.unc (sumFn (linTab4 V c)) (((cfg4.win 5).blk t).view.emb (ix2 r q))
  refine (lin4_pay2_apply (iblk4 V c 0 t) (iblk4 V c 1 t) (iblk4 V c 2 t) (iblk4 V c 3 t) r q).trans ?_
  have hv0 : ((((cfg4.win 5).blk t).view.emb (ix2 r q)) 0).val = win4_5.index t (0 : Fin 2) * 8 + 1 * r.val := rfl
  have hv1 : ((((cfg4.win 5).blk t).view.emb (ix2 r q)) 1).val = win4_5.index t (1 : Fin 2) * 128 + 1 * q.val := rfl
  have hq : ((((cfg4.win 5).blk t).view.emb (ix2 r q)) 1) = q := Fin.ext (by rw [hv1]; omega)
  refine sum_point (linTab4 V c) _ ⟨win4_4.index t (0 : Fin 2), by omega⟩ _ (Fin.ext ?_) fun p => ?_
  · show ((((cfg4.win 5).blk t).view.emb (ix2 r q)) 0).val / 8 = win4_4.index t (0 : Fin 2)
    rw [hv0]; have := r.isLt; omega
  · rw [blk4_entry V c t p q, row4_of t p q r 0 (Or.inl rfl) ⟨win4_4.index t (0 : Fin 2), by omega⟩ rfl, hq]
    rfl

/-- What point t writes back to the array of tile sums of squares is block t of the tile sums of squares. -/
theorem flushed4_6_eq (c : Dev nD) (t : Fin cfg4.N) :
    (dat4 V c).flushed 6 t = ((cfg4.win 6).blk t).view.read (Elt Ideal) (Cert.Spec.unc (sqFn (linTab4 V c))) := by
  show (cfg4.win 6).cut (grid4.coords t) ((dat4 V c).after 6 t) = _
  rw [after4_6]
  unfold out4_6
  rw [View.canon_unit_zero hzL4]
  simp only [View.ld_unit_zero (S := S5000x128) hzL4, View.ld_unit_zero (S := S1x128) hzL4, View.ld_unit_zero (S := S128x128) hzL4]
  obtain ⟨e0, e1, e2, e3, e4, e5, e6, e7, e8, e9, e10, e11, e12, e13⟩ := idx_factsL4 t
  funext j
  obtain ⟨r, q, rfl⟩ : ∃ (r : Fin 8) (q : Fin 128), j = ix2 r q := ⟨j 0, j 1, eq_ix2 j⟩
  show k4_pay3 (F := Ideal) (iblk4 V c 0 t) (iblk4 V c 1 t) (iblk4 V c 2 t) (iblk4 V c 3 t) (ix2 r q)
      = Cert.Spec.unc (sqFn (linTab4 V c)) (((cfg4.win 6).blk t).view.emb (ix2 r q))
  refine (lin4_pay3_apply (iblk4 V c 0 t) (iblk4 V c 1 t) (iblk4 V c 2 t) (iblk4 V c 3 t) r q).trans ?_
  have hv0 : ((((cfg4.win 6).blk t).view.emb (ix2 r q)) 0).val = win4_6.index t (0 : Fin 2) * 8 + 1 * r.val := rfl
  have hv1 : ((((cfg4.win 6).blk t).view.emb (ix2 r q)) 1).val = win4_6.index t (1 : Fin 2) * 128 + 1 * q.val := rfl
  have hq : ((((cfg4.win 6).blk t).view.emb (ix2 r q)) 1) = q := Fin.ext (by rw [hv1]; omega)
  refine sq_point (linTab4 V c) _ ⟨win4_4.index t (0 : Fin 2), by omega⟩ _ (Fin.ext ?_) fun p => ?_
  · show ((((cfg4.win 6).blk t).view.emb (ix2 r q)) 0).val / 8 = win4_4.index t (0 : Fin 2)
    rw [hv0]; have := r.isLt; omega
  · rw [blk4_entry V c t p q, row4_of t p q r 0 (Or.inl rfl) ⟨win4_4.index t (0 : Fin 2), by omega⟩ rfl, hq]
    rfl

theorem mem_blk4_4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v85_0).slice (win4_4.rect t)).set ↔ _
  rw [View.set_slice_whole, Rect.mem_set_unit]
  exact Iff.rfl
theorem mem_blk4_5 (t : Fin cfg4.N) (i : S160x128.Idx) :
    i ∈ ((cfg4.win 5).blk t).view.set ↔ ∀ a : Fin 2, win4_5.index t a * S8x128.size a ≤ (i a).val ∧ (i a).val < win4_5.index t a * S8x128.size a + S8x128.size a := by
  show i ∈ ((View.whole main_v85_1).slice (win4_5.rect t)).set ↔ _
  rw [View.set_slice_whole, Rect.mem_set_unit]
  exact Iff.rfl
theorem mem_blk4_6 (t : Fin cfg4.N) (i : S160x128.Idx) :
    i ∈ ((cfg4.win 6).blk t).view.set ↔ ∀ a : Fin 2, win4_6.index t a * S8x128.size a ≤ (i a).val ∧ (i a).val < win4_6.index t a * S8x128.size a + S8x128.size a := by
  show i ∈ ((View.whole main_v85_2).slice (win4_6.rect t)).set ↔ _
  rw [View.set_slice_whole, Rect.mem_set_unit]
  exact Iff.rfl

theorem cover4_4 (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  obtain ⟨t, ht⟩ := idx_ontoL4_4 ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega
theorem cover4_5 (i : S160x128.Idx) : ∃ t : Fin cfg4.N, (cfg4.win 5).flush t = true ∧ i ∈ ((cfg4.win 5).blk t).view.set := by
  have hi0 : (i 0).val < 160 := (i 0).isLt
  have hi1 : (i 1).val < 128 := (i 1).isLt
  obtain ⟨t, ht⟩ := idx_ontoL4_5 ⟨(i 0).val / 8, by omega⟩
  have q0 : win4_5.index t (0 : Fin 2) = (i 0).val / 8 := congrFun ht 0
  have q1 : win4_5.index t (1 : Fin 2) = 0 := congrFun ht 1
  refine ⟨t, flush4_5 t, ?_⟩
  rw [mem_blk4_5]
  intro a
  match a with
  | ⟨0, _⟩ => show win4_5.index t (0 : Fin 2) * 8 ≤ (i 0).val ∧ (i 0).val < win4_5.index t (0 : Fin 2) * 8 + 8; omega
  | ⟨1, _⟩ => show win4_5.index t (1 : Fin 2) * 128 ≤ (i 1).val ∧ (i 1).val < win4_5.index t (1 : Fin 2) * 128 + 128; omega
theorem cover4_6 (i : S160x128.Idx) : ∃ t : Fin cfg4.N, (cfg4.win 6).flush t = true ∧ i ∈ ((cfg4.win 6).blk t).view.set := by
  have hi0 : (i 0).val < 160 := (i 0).isLt
  have hi1 : (i 1).val < 128 := (i 1).isLt
  obtain ⟨t, ht⟩ := idx_ontoL4_6 ⟨(i 0).val / 8, by omega⟩
  have q0 : win4_6.index t (0 : Fin 2) = (i 0).val / 8 := congrFun ht 0
  have q1 : win4_6.index t (1 : Fin 2) = 0 := congrFun ht 1
  refine ⟨t, flush4_6 t, ?_⟩
  rw [mem_blk4_6]
  intro a
  match a with
  | ⟨0, _⟩ => show win4_6.index t (0 : Fin 2) * 8 ≤ (i 0).val ∧ (i 0).val < win4_6.index t (0 : Fin 2) * 8 + 8; omega
  | ⟨1, _⟩ => show win4_6.index t (1 : Fin 2) * 128 ≤ (i 1).val ∧ (i 1).val < win4_6.index t (1 : Fin 2) * 128 + 128; omega

/-- The three output arrays after the launch. -/
theorem arr4_4 (c : Dev nD) : (dat4 V c).arrAt 4 cfg4.N = Cert.Spec.unc (linTab4 V c) :=
  (dat4 V c).arrAt_eq_of_cover 4 (Cert.Spec.unc (linTab4 V c)) (fun t _ => flushed4_4_eq V c t) (cover4_4)
theorem arr4_5 (c : Dev nD) : (dat4 V c).arrAt 5 cfg4.N = Cert.Spec.unc (sumFn (linTab4 V c)) :=
  (dat4 V c).arrAt_eq_of_cover 5 (Cert.Spec.unc (sumFn (linTab4 V c))) (fun t _ => flushed4_5_eq V c t) (cover4_5)
theorem arr4_6 (c : Dev nD) : (dat4 V c).arrAt 6 cfg4.N = Cert.Spec.unc (sqFn (linTab4 V c)) :=
  (dat4 V c).arrAt_eq_of_cover 6 (Cert.Spec.unc (sqFn (linTab4 V c))) (fun t _ => flushed4_6_eq V c t) (cover4_6)

end Cert.KernelIdeal.KerValue

end
-- ==== Proof.KerFin5.lean ====
/-
  The last launch, as one function of the arrays it finds.

  Point t of 20 reads rows 5000·t … 5000·t + 4999 of the third affine output, the mean and variance rows, the whole output
  weight matrix and the output bias row, and writes back the same rows of the network's output. So the output array ends
  holding, at (i, q), the sum over the 128 features r of  max ((o(i, r) − mean_r)·(var_r + ε)^(−1/2), 0) · Wl(r, q), plus bl_q.
-/
import proofs.«176156_j23407571763695_2_alg».proof.Proof.Gen.KernelIdeal.Frame
import proofs.«176156_j23407571763695_2_alg».proof.Proof.KerLinPay
import proofs.«176156_j23407571763695_2_alg».proof.Proof.KerLinPoint

set_option maxRecDepth 16384
set_option pp.maxSteps 5000
set_option pp.deepTerms false

noncomputable section

namespace Cert.KernelIdeal.KerValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hzF : (![0, 0] : Fin 2 → Nat) = fun _ => 0 := funext fun a => by fin_cases a <;> rfl

/-- The network's output, in curried form, of the arrays the launch finds. -/
def finTab (c : Dev nD) : Cert.Spec.Tab 100000 40 :=
  finFn (V c (Pipeline.arrRef spec5 0)) (V c (Pipeline.arrRef spec5 1)) (V c (Pipeline.arrRef spec5 2)) (V c (Pipeline.arrRef spec5 3)) (V c (Pipeline.arrRef spec5 4))

theorem idx_factsF : ∀ t : Fin cfg5.N, win5_0.index t (0 : Fin 2) = win5_5.index t (0 : Fin 2)
    ∧ win5_0.index t (1 : Fin 2) = 0 ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 19 :=
  (by decide +kernel : ∀ t : Fin grid5.N, _)

theorem idx_ontoF : ∀ q0 : Fin 20, ∃ t : Fin cfg5.N, win5_5.index t = ![q0.val, 0] :=
  (by decide +kernel : ∀ q0 : Fin 20, ∃ t : Fin grid5.N, win5_5.index t = ![q0.val, 0])

/-- What point t writes back is block t of the one function. -/
theorem flushed5_eq (c : Dev nD) (t : Fin cfg5.N) :
    (dat5 V c).flushed 5 t = ((cfg5.win 5).blk t).view.read (Elt Ideal) (Cert.Spec.unc (finTab V c)) := by
  show (cfg5.win 5).cut (grid5.coords t) ((dat5 V c).after 5 t) = _
  rw [after5_5]
  unfold out5_5
  rw [View.canon_unit_zero hzF]
  simp only [View.ld_unit_zero (S := S5000x128) hzF, View.ld_unit_zero (S := S1x128) hzF, View.ld_unit_zero (S := S128x40) hzF,
    View.ld_unit_zero (S := S1x40) hzF]
  obtain ⟨e0, e1, e2, e3, e4, e5, e6, e7, e8, e9, e10, e11⟩ := idx_factsF t
  funext j
  obtain ⟨p, q, rfl⟩ : ∃ (p : Fin 5000) (q : Fin 40), j = ix2 p q := ⟨j 0, j 1, eq_ix2 j⟩
  show k5_pay1 (F := Ideal) (iblk5 V c 0 t) (iblk5 V c 1 t) (iblk5 V c 2 t) (iblk5 V c 3 t) (iblk5 V c 4 t) (ix2 p q)
      = Cert.Spec.unc (finTab V c) (((cfg5.win 5).blk t).view.emb (ix2 p q))
  refine (fin5_pay_apply (iblk5 V c 0 t) (iblk5 V c 1 t) (iblk5 V c 2 t) (iblk5 V c 3 t) (iblk5 V c 4 t) p q).trans ?_
  have h0 : ∀ r : Fin 128, ((cfg5.win 0).blk t).view.emb (ix2 p r) = ix2 ((((cfg5.win 5).blk t).view.emb (ix2 p q)) 0) r := fun r => by
    funext a; apply Fin.ext
    match a with
    | ⟨0, _⟩ => show win5_0.index t (0 : Fin 2) * 5000 + 1 * p.val = win5_5.index t (0 : Fin 2) * 5000 + 1 * p.val; omega
    | ⟨1, _⟩ => show win5_0.index t (1 : Fin 2) * 128 + 1 * r.val = r.val; omega
  have h1 : ∀ r : Fin 128, ((cfg5.win 1).blk t).view.emb (ix2 (0 : Fin 1) r) = ix2 (0 : Fin 1) r := fun r => by
    funext a; apply Fin.ext
    match a with
    | ⟨0, _⟩ => show win5_1.index t (0 : Fin 2) * 1 + 1 * 0 = 0; omega
    | ⟨1, _⟩ => show win5_1.index t (1 : Fin 2) * 128 + 1 * r.val = r.val; omega
  have h2 : ∀ r : Fin 128, ((cfg5.win 2).blk t).view.emb (ix2 (0 : Fin 1) r) = ix2 (0 : Fin 1) r := fun r => by
    funext a; apply Fin.ext
    match a with
    | ⟨0, _⟩ => show win5_2.index t (0 : Fin 2) * 1 + 1 * 0 = 0; omega
    | ⟨1, _⟩ => show win5_2.index t (1 : Fin 2) * 128 + 1 * r.val = r.val; omega
  have h3 : ∀ r : Fin 128, ((cfg5.win 3).blk t).view.emb (ix2 r q) = ix2 r ((((cfg5.win 5).blk t).view.emb (ix2 p q)) 1) := fun r => by
    funext a; apply Fin.ext
    match a with
    | ⟨0, _⟩ => show win5_3.index t (0 : Fin 2) * 128 + 1 * r.val = r.val; omega
    | ⟨1, _⟩ => show win5_3.index t (1 : Fin 2) * 40 + 1 * q.val = win5_5.index t (1 : Fin 2) * 40 + 1 * q.val; omega
  have h4 : ((cfg5.win 4).blk t).view.emb (ix2 (0 : Fin 1) q) = ix2 (0 : Fin 1) ((((cfg5.win 5).blk t).view.emb (ix2 p q)) 1) := by
    funext a; apply Fin.ext
    match a with
    | ⟨0, _⟩ => show win5_4.index t (0 : Fin 2) * 1 + 1 * 0 = 0; omega
    | ⟨1, _⟩ => show win5_4.index t (1 : Fin 2) * 40 + 1 * q.val = win5_5.index t (1 : Fin 2) * 40 + 1 * q.val; omega
  exact fin_point (V c (Pipeline.arrRef spec5 0)) (V c (Pipeline.arrRef spec5 1)) (V c (Pipeline.arrRef spec5 2)) (V c (Pipeline.arrRef spec5 3)) (V c (Pipeline.arrRef spec5 4))
    (fun r => iblk5 V c 0 t (ix2 p r)) (fun r => iblk5 V c 1 t (ix2 (0 : Fin 1) r)) (fun r => iblk5 V c 2 t (ix2 (0 : Fin 1) r))
    (fun r => iblk5 V c 3 t (ix2 r q)) (iblk5 V c 4 t (ix2 (0 : Fin 1) q)) (((cfg5.win 5).blk t).view.emb (ix2 p q))
    (fun r => congrArg (V c (Pipeline.arrRef spec5 0)) (h0 r)) (fun r => congrArg (V c (Pipeline.arrRef spec5 1)) (h1 r))
    (fun r => congrArg (V c (Pipeline.arrRef spec5 2)) (h2 r)) (fun r => congrArg (V c (Pipeline.arrRef spec5 3)) (h3 r))
    (congrArg (V c (Pipeline.arrRef spec5 4)) h4)

theorem mem_blkF (t : Fin cfg5.N) (i : S100000x40.Idx) :
    i ∈ ((cfg5.win 5).blk t).view.set ↔ ∀ a : Fin 2, win5_5.index t a * S5000x40.size a ≤ (i a).val ∧ (i a).val < win5_5.index t a * S5000x40.size a + S5000x40.size a := by
  show i ∈ ((View.whole main_v105).slice (win5_5.rect t)).set ↔ _
  rw [View.set_slice_whole, Rect.mem_set_unit]
  exact Iff.rfl

theorem coverF (i : S100000x40.Idx) : ∃ t : Fin cfg5.N, (cfg5.win 5).flush t = true ∧ i ∈ ((cfg5.win 5).blk t).view.set := by
  have hi0 : (i 0).val < 100000 := (i 0).isLt
  have hi1 : (i 1).val < 40 := (i 1).isLt
  obtain ⟨t, ht⟩ := idx_ontoF ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blkF]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 40 ≤ (i 1).val ∧ (i 1).val < win5_5.index t (1 : Fin 2) * 40 + 40; omega

/-- The output array after the launch. -/
theorem arr5_5 (c : Dev nD) : (dat5 V c).arrAt 5 cfg5.N = Cert.Spec.unc (finTab V c) :=
  (dat5 V c).arrAt_eq_of_cover 5 (Cert.Spec.unc (finTab V c)) (fun t _ => flushed5_eq V c t) (coverF)

end Cert.KernelIdeal.KerValue

end
-- ==== Proof.KerHost4.lean ====
/-
  The third aggregation stretch of host operations, at any buffer contents: it leaves the aggregation of the
  table it reads, and the layer's bias viewed as one row, and does not touch the table or the layer's weights.
-/
import Idealize.ShloMosaic.Lib.ValueIdx
import proofs.«176156_j23407571763695_2_alg».proof.Proof.Gen.KernelIdeal.Launch
import proofs.«176156_j23407571763695_2_alg».proof.Proof.KerHostAggDef

noncomputable section

namespace Cert.KernelIdeal.KerValue

open Cert.KernelIdeal Cert.KernelIdeal.Gen Idealize.ShloMosaic Idealize.ShloMosaic.TcCoe Idealize.ShloMosaic.ValueIdx

variable (W : Valuation τ sig (Elt Ideal))

attribute [local irreducible] Host.gather Host.scatterAdd in
theorem hostOps4_agg :
    StableHlo.after (hostOps4 (F := Ideal)) W (Proc.devRef .tc main_v83)
      = aggK (W (Proc.devRef .tc main_arg1)) (W (Proc.devRef .tc main_v69)) := by
  after_results_simp
  rfl

theorem hostOps4_bias :
    StableHlo.after (hostOps4 (F := Ideal)) W (Proc.devRef .tc main_v84)
      = shapeCast S1x128 (W (Proc.devRef .tc main_arg7)) shapeCasts_S128_S1x128 := by
  after_results
  rfl

theorem hostOps4_tbl :
    StableHlo.after (hostOps4 (F := Ideal)) W (Proc.devRef .tc main_v69) = W (Proc.devRef .tc main_v69) := by
  after_results

theorem hostOps4_w :
    StableHlo.after (hostOps4 (F := Ideal)) W (Proc.devRef .tc main_arg6) = W (Proc.devRef .tc main_arg6) := by
  after_results

end Cert.KernelIdeal.KerValue

end
-- ==== Proof.KerHost5.lean ====
/-
  The third statistics stretch of host operations, at any buffer contents: it leaves the mean row and the variance
  row of the two arrays of tile sums, and does not touch the third array the kernel before it wrote.
-/
import Idealize.ShloMosaic.Lib.ValueIdx
import proofs.«176156_j23407571763695_2_alg».proof.Proof.Gen.KernelIdeal.Launch
import proofs.«176156_j23407571763695_2_alg».proof.Proof.KerHostStat

noncomputable section

namespace Cert.KernelIdeal.KerValue

open Cert.KernelIdeal Cert.KernelIdeal.Gen Idealize.ShloMosaic Idealize.ShloMosaic.TcCoe Idealize.ShloMosaic.ValueIdx

variable (W : Valuation τ sig (Elt Ideal))

theorem hostOps5_mean :
    StableHlo.after (hostOps5 (F := Ideal)) W (Proc.devRef .tc main_v102)
      = meanArr (W (Proc.devRef .tc main_v85_1)) := by
  after_results
  rfl

attribute [local irreducible] Host.reduceAdd in
theorem hostOps5_var :
    StableHlo.after (hostOps5 (F := Ideal)) W (Proc.devRef .tc main_v103)
      = varArr (W (Proc.devRef .tc main_v85_1)) (W (Proc.devRef .tc main_v85_2)) := by
  after_results_simp
  rfl

theorem hostOps5_tbl :
    StableHlo.after (hostOps5 (F := Ideal)) W (Proc.devRef .tc main_v85_0) = W (Proc.devRef .tc main_v85_0) := by
  after_results

theorem hostOps5_w :
    StableHlo.after (hostOps5 (F := Ideal)) W (Proc.devRef .tc main_arg8) = W (Proc.devRef .tc main_arg8) := by
  after_results

theorem hostOps5_bias :
    StableHlo.after (hostOps5 (F := Ideal)) W (Proc.devRef .tc main_v104)
      = shapeCast S1x40 (W (Proc.devRef .tc main_arg9)) shapeCasts_S40_S1x40 := by
  after_results
  rfl

end Cert.KernelIdeal.KerValue

end
-- ==== Proof.KerLayer2.lean ====
/-
  Layer 3 of the idealized kernel program, boundary to boundary.

  From the table the layer starts with, the host aggregates and reshapes the bias; the layer launch writes the affine
  output and its tile sums; the host reduces the tile sums to the mean and variance rows; the last launch normalises, clamps and applies the output affine map.
  Each step is read at the boundary contents the run folds; the result is the specification's layer with tile-sum statistics, under the final affine map.
-/
import proofs.«176156_j23407571763695_2_alg».proof.Proof.Gen.KernelIdeal.Frame
import proofs.«176156_j23407571763695_2_alg».proof.Proof.KerLin4
import proofs.«176156_j23407571763695_2_alg».proof.Proof.KerFin5
import proofs.«176156_j23407571763695_2_alg».proof.Proof.KerKeepA
import proofs.«176156_j23407571763695_2_alg».proof.Proof.KerKeepB
import proofs.«176156_j23407571763695_2_alg».proof.Proof.KerHost4
import proofs.«176156_j23407571763695_2_alg».proof.Proof.KerHost5
import proofs.«176156_j23407571763695_2_alg».proof.Proof.KerGlue
import proofs.«176156_j23407571763695_2_alg».proof.Proof.KerAggT

set_option maxRecDepth 16384
set_option pp.maxSteps 5000
set_option pp.deepTerms false

noncomputable section

namespace Cert.KernelIdeal.KerValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- If the table at the layer's first boundary is `h`, the result at its last boundary is the layer of `h`. -/
theorem layer2 (c : Dev nD) (h : Cert.Spec.Tab 100000 128)
    (hH : W8 m ρ c (Proc.devRef .tc main_v69) = Cert.Spec.unc h) :
    W12 m ρ c (Proc.devRef .tc main_v105) = Cert.Spec.unc (Cert.Spec.lin (Cert.Spec.layerT (aggT m c) h (Cert.Spec.cur (m ((c : Thread nD τ).loc main_arg6))) (Cert.Spec.cur1 (m ((c : Thread nD τ).loc main_arg7)))) (Cert.Spec.cur (m ((c : Thread nD τ).loc main_arg8))) (Cert.Spec.cur1 (m ((c : Thread nD τ).loc main_arg9)))) := by
  -- the aggregated table, the table, the weights and the bias row as the layer launch finds them
  have a0 : W9 m ρ c (Proc.devRef .tc main_v83) = aggK (m ((c : Thread nD τ).loc main_arg1)) (Cert.Spec.unc h) :=
    (hostOps4_agg (W8 m ρ c)).trans (by rw [(keep_arg1_W8 m ρ c), hH])
  have a1 : W9 m ρ c (Proc.devRef .tc main_v69) = Cert.Spec.unc h := (hostOps4_tbl (W8 m ρ c)).trans hH
  have a2 : W9 m ρ c (Proc.devRef .tc main_arg6) = (m ((c : Thread nD τ).loc main_arg6)) := keep_arg6_W9 m ρ c
  have a3 : W9 m ρ c (Proc.devRef .tc main_v84) = shapeCast S1x128 (m ((c : Thread nD τ).loc main_arg7)) shapeCasts_S128_S1x128 :=
    (hostOps4_bias (W8 m ρ c)).trans (by rw [(keep_arg7_W8 m ρ c)])
  -- the affine output
  have hT : linTab4 (V9 m ρ) c = Cert.Spec.pre (aggT m c) h (Cert.Spec.cur (m ((c : Thread nD τ).loc main_arg6))) (Cert.Spec.cur1 (m ((c : Thread nD τ).loc main_arg7))) := by
    unfold linTab4
    show linFn (W9 m ρ c (Proc.devRef .tc main_v83)) (W9 m ρ c (Proc.devRef .tc main_v69)) (W9 m ρ c (Proc.devRef .tc main_arg6)) (W9 m ρ c (Proc.devRef .tc main_v84)) = _
    rw [a0, a1, a2, a3]
    exact linFn_eq_pre (aggK (m ((c : Thread nD τ).loc main_arg1))) h (m ((c : Thread nD τ).loc main_arg6)) (m ((c : Thread nD τ).loc main_arg7)) _
  unfold Cert.Spec.layerT
  generalize Cert.Spec.pre (aggT m c) h (Cert.Spec.cur (m ((c : Thread nD τ).loc main_arg6))) (Cert.Spec.cur1 (m ((c : Thread nD τ).loc main_arg7))) = o at hT ⊢
  -- the three arrays the layer launch leaves
  have s0 : W10 m ρ c (Proc.devRef .tc main_v85_0) = Cert.Spec.unc o := (W10_arr m ρ c 4).trans ((arr4_4 (V9 m ρ) c).trans (by rw [hT]))
  have s1 : W10 m ρ c (Proc.devRef .tc main_v85_1) = Cert.Spec.unc (sumFn o) := (W10_arr m ρ c 5).trans ((arr4_5 (V9 m ρ) c).trans (by rw [hT]))
  have s2 : W10 m ρ c (Proc.devRef .tc main_v85_2) = Cert.Spec.unc (sqFn o) := (W10_arr m ρ c 6).trans ((arr4_6 (V9 m ρ) c).trans (by rw [hT]))
  -- the host's statistics rows
  have t0 : W11 m ρ c (Proc.devRef .tc main_v85_0) = Cert.Spec.unc o := (hostOps5_tbl (W10 m ρ c)).trans s0
  have t1 : W11 m ρ c (Proc.devRef .tc main_v102) = meanArr (Cert.Spec.unc (sumFn o)) := (hostOps5_mean (W10 m ρ c)).trans (by rw [s1])
  have t2 : W11 m ρ c (Proc.devRef .tc main_v103) = varArr (Cert.Spec.unc (sumFn o)) (Cert.Spec.unc (sqFn o)) := (hostOps5_var (W10 m ρ c)).trans (by rw [s1, s2])
  have t3 : W11 m ρ c (Proc.devRef .tc main_arg8) = (m ((c : Thread nD τ).loc main_arg8)) := keep_arg8_W11 m ρ c
  have t4 : W11 m ρ c (Proc.devRef .tc main_v104) = shapeCast S1x40 (m ((c : Thread nD τ).loc main_arg9)) shapeCasts_S40_S1x40 :=
    (hostOps5_bias (W10 m ρ c)).trans (by rw [keep_arg9_W10 m ρ c])
  have u : finTab (V11 m ρ) c = Cert.Spec.lin (Cert.Spec.normRelu o (Cert.Spec.meanT o) (Cert.Spec.varT o)) (Cert.Spec.cur (m ((c : Thread nD τ).loc main_arg8))) (Cert.Spec.cur1 (m ((c : Thread nD τ).loc main_arg9))) := by
    unfold finTab
    show finFn (W11 m ρ c (Proc.devRef .tc main_v85_0)) (W11 m ρ c (Proc.devRef .tc main_v102)) (W11 m ρ c (Proc.devRef .tc main_v103))
        (W11 m ρ c (Proc.devRef .tc main_arg8)) (W11 m ρ c (Proc.devRef .tc main_v104)) = _
    rw [t0, t1, t2, t3, t4]
    exact finFn_eq o (m ((c : Thread nD τ).loc main_arg8)) (m ((c : Thread nD τ).loc main_arg9)) _
  exact (W12_arr m ρ c 5).trans ((arr5_5 (V11 m ρ) c).trans (congrArg Cert.Spec.unc u))

end Cert.KernelIdeal.KerValue

end
-- ==== Proof.KerMain.lean ====
/-
  The idealized kernel program's run and value.

  Every weakly fair execution terminates; the result array then holds three layers with tile-sum statistics and the final
  affine map — the specification's `outT` — of the argument arrays as launched, the aggregation being the program's own
  gather and scatter-add chain over the edge list; and the arguments are unchanged. The value is the fold of the segment
  boundaries read layer by layer.
-/
import proofs.«176156_j23407571763695_2_alg».proof.Proof.KerRun
import proofs.«176156_j23407571763695_2_alg».proof.Proof.KerLayer0
import proofs.«176156_j23407571763695_2_alg».proof.Proof.KerLayer1
import proofs.«176156_j23407571763695_2_alg».proof.Proof.KerLayer2

set_option maxRecDepth 16384

noncomputable section

namespace Cert.KernelIdeal.KerValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The last boundary's contents of the result buffer. -/
theorem value (c : Dev nD) :
    W12 m ρ c (Proc.devRef .tc main_v105)
      = Cert.Spec.unc (Cert.Spec.outT (aggT m c) (Cert.Spec.cur (m ((c.tc : Thread nD τ).loc main_arg0))) (Cert.Spec.cur (m ((c.tc : Thread nD τ).loc main_arg2))) (Cert.Spec.cur1 (m ((c.tc : Thread nD τ).loc main_arg3))) (Cert.Spec.cur (m ((c.tc : Thread nD τ).loc main_arg4))) (Cert.Spec.cur1 (m ((c.tc : Thread nD τ).loc main_arg5))) (Cert.Spec.cur (m ((c.tc : Thread nD τ).loc main_arg6))) (Cert.Spec.cur1 (m ((c.tc : Thread nD τ).loc main_arg7))) (Cert.Spec.cur (m ((c.tc : Thread nD τ).loc main_arg8))) (Cert.Spec.cur1 (m ((c.tc : Thread nD τ).loc main_arg9)))) := by
  have h0 : W0 m ρ c (Proc.devRef .tc main_arg0) = Cert.Spec.unc (Cert.Spec.cur (m ((c.tc : Thread nD τ).loc main_arg0))) :=
    (Cert.Spec.unc_cur _).symm
  exact layer2 m ρ c _ (layer1 m ρ c _ (layer0 m ρ c _ h0))

/-- The run, read. -/
theorem run : θ_run (defs (F := Ideal)) (onTc (τ := τ) (main (F := Ideal))) ⟨m, fun _ => 0, ρ⟩ (fun r => ∀ c : Dev nD,
      r.2.mem ((c.tc : Thread nD τ).loc main_v105)
        = Cert.Spec.unc (Cert.Spec.outT (aggT m c) (Cert.Spec.cur (m ((c.tc : Thread nD τ).loc main_arg0))) (Cert.Spec.cur (m ((c.tc : Thread nD τ).loc main_arg2))) (Cert.Spec.cur1 (m ((c.tc : Thread nD τ).loc main_arg3))) (Cert.Spec.cur (m ((c.tc : Thread nD τ).loc main_arg4))) (Cert.Spec.cur1 (m ((c.tc : Thread nD τ).loc main_arg5))) (Cert.Spec.cur (m ((c.tc : Thread nD τ).loc main_arg6))) (Cert.Spec.cur1 (m ((c.tc : Thread nD τ).loc main_arg7))) (Cert.Spec.cur (m ((c.tc : Thread nD τ).loc main_arg8))) (Cert.Spec.cur1 (m ((c.tc : Thread nD τ).loc main_arg9))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value m ρ c), (h c).2⟩) (run_named m ρ)

end Cert.KernelIdeal.KerValue

end
-- ==== Proof.RefOps.lean ====
/-
  The reference program as a straight line: @main's statements in order, each call of an outlined
  function replaced by that function's statements over the call's own buffers (the variance function with
  its nested selection, and the clamp at zero).  The line is given whole (`ops`) and cut at the points
  where a layer's aggregation ends and where a layer ends.
-/
import proofs.«176156_j23407571763695_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The whole line: 193 operations. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v3 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v3 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v1 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v13 main_arg0 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v18 : TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v18 : TRef sig ⟨S100000x128, .f32⟩) main_call0.v4 main_call0.v5 subf,
    StableHlo.TRef.binary main_call0.v5 main_call0.v5 main_call0.v6 mulf,
    StableHlo.TRef.unary (.of main_c_3 : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v24 main_v25 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v30 main_v31 (mulf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v31 : TRef sig ⟨S100000x128, .f32⟩) main_call1.v0 main_call1.v1 maximumf,
    StableHlo.unary main_arg1 main_v33 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v33 main_v34 rfl shapeCasts_S1x800000_S800000,
    StableHlo.unary main_arg1 main_v35 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v35 main_v36 rfl shapeCasts_S1x800000_S800000,
    StableHlo.nullary main_c_5 (constantI S_ 32 0#32),
    StableHlo.unary main_c_5 main_v37 (broadcastInDim S800000 ![] bcast_S_S800000 : (⟨S_, .i32⟩ : BufTy).Contents (Elt F) → (⟨S800000, .i32⟩ : BufTy).Contents (Elt F)),
    StableHlo.binary main_v36 main_v37 main_v38 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 100000#32),
    StableHlo.unary main_c_6 main_v39 (broadcastInDim S800000 ![] bcast_S_S800000 : (⟨S_, .i32⟩ : BufTy).Contents (Elt F) → (⟨S800000, .i32⟩ : BufTy).Contents (Elt F)),
    StableHlo.binary main_v36 main_v39 main_v40 (addi : (⟨S800000, .i32⟩ : BufTy).Contents (Elt F) → (⟨S800000, .i32⟩ : BufTy).Contents (Elt F) → (⟨S800000, .i32⟩ : BufTy).Contents (Elt F)),
    StableHlo.ternary main_v38 main_v40 main_v36 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v41 main_v42 (broadcastInDim S800000x1 ![0] bcast_S800000_S800000x1_0 : (⟨S800000, .i32⟩ : BufTy).Contents (Elt F) → (⟨S800000x1, .i32⟩ : BufTy).Contents (Elt F)),
    StableHlo.binary main_v32 main_v42 main_v43 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v44 (broadcastInDim S100000x128 ![] bcast_S_S100000x128 : (⟨S_, .f32⟩ : BufTy).Contents (Elt F) → (⟨S100000x128, .f32⟩ : BufTy).Contents (Elt F)),
    StableHlo.unary main_v34 main_v45 (broadcastInDim S800000x1 ![0] bcast_S800000_S800000x1_0 : (⟨S800000, .i32⟩ : BufTy).Contents (Elt F) → (⟨S800000x1, .i32⟩ : BufTy).Contents (Elt F)),
    StableHlo.ternary main_v44 main_v45 main_v43 main_v46 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v46 main_v32 main_v47 (addf : (⟨S100000x128, .f32⟩ : BufTy).Contents (Elt F) → (⟨S100000x128, .f32⟩ : BufTy).Contents (Elt F) → (⟨S100000x128, .f32⟩ : BufTy).Contents (Elt F)),
    StableHlo.binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.binary main_v51 main_cst_8 main_v52 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v53 (broadcastInDim S128 ![] bcast_S_S128 : (⟨S_, .f32⟩ : BufTy).Contents (Elt F) → (⟨S128, .f32⟩ : BufTy).Contents (Elt F)),
    StableHlo.binary main_v52 main_v53 main_v54 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (.of main_v51 : TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v51 : TRef sig ⟨S100000x128, .f32⟩) main_call2.v4 main_call2.v5 subf,
    StableHlo.TRef.binary main_call2.v5 main_call2.v5 main_call2.v6 mulf,
    StableHlo.TRef.unary (.of main_c_10 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v54 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v51 main_v57 main_v58 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v59 (broadcastInDim S128 ![] bcast_S_S128 : (⟨S_, .f32⟩ : BufTy).Contents (Elt F) → (⟨S128, .f32⟩ : BufTy).Contents (Elt F)),
    StableHlo.binary main_v55 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v63 main_v64 (mulf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v64 : TRef sig ⟨S100000x128, .f32⟩) main_call3.v0 main_call3.v1 maximumf,
    StableHlo.unary main_arg1 main_v66 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v66 main_v67 rfl shapeCasts_S1x800000_S800000,
    StableHlo.unary main_arg1 main_v68 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v68 main_v69 rfl shapeCasts_S1x800000_S800000,
    StableHlo.nullary main_c_12 (constantI S_ 32 0#32),
    StableHlo.unary main_c_12 main_v70 (broadcastInDim S800000 ![] bcast_S_S800000 : (⟨S_, .i32⟩ : BufTy).Contents (Elt F) → (⟨S800000, .i32⟩ : BufTy).Contents (Elt F)),
    StableHlo.binary main_v69 main_v70 main_v71 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 100000#32),
    StableHlo.unary main_c_13 main_v72 (broadcastInDim S800000 ![] bcast_S_S800000 : (⟨S_, .i32⟩ : BufTy).Contents (Elt F) → (⟨S800000, .i32⟩ : BufTy).Contents (Elt F)),
    StableHlo.binary main_v69 main_v72 main_v73 (addi : (⟨S800000, .i32⟩ : BufTy).Contents (Elt F) → (⟨S800000, .i32⟩ : BufTy).Contents (Elt F) → (⟨S800000, .i32⟩ : BufTy).Contents (Elt F)),
    StableHlo.ternary main_v71 main_v73 main_v69 main_v74 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v74 main_v75 (broadcastInDim S800000x1 ![0] bcast_S800000_S800000x1_0 : (⟨S800000, .i32⟩ : BufTy).Contents (Elt F) → (⟨S800000x1, .i32⟩ : BufTy).Contents (Elt F)),
    StableHlo.binary main_v65 main_v75 main_v76 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_14 (constant S_ .f32 0x00000000#32),
    StableHlo.unary main_cst_14 main_v77 (broadcastInDim S100000x128 ![] bcast_S_S100000x128 : (⟨S_, .f32⟩ : BufTy).Contents (Elt F) → (⟨S100000x128, .f32⟩ : BufTy).Contents (Elt F)),
    StableHlo.unary main_v67 main_v78 (broadcastInDim S800000x1 ![0] bcast_S800000_S800000x1_0 : (⟨S800000, .i32⟩ : BufTy).Contents (Elt F) → (⟨S800000x1, .i32⟩ : BufTy).Contents (Elt F)),
    StableHlo.ternary main_v77 main_v78 main_v76 main_v79 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.binary main_v79 main_v65 main_v80 (addf : (⟨S100000x128, .f32⟩ : BufTy).Contents (Elt F) → (⟨S100000x128, .f32⟩ : BufTy).Contents (Elt F) → (⟨S100000x128, .f32⟩ : BufTy).Contents (Elt F)),
    StableHlo.binary main_v80 main_arg6 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v81 main_v83 main_v84 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.binary main_v84 main_cst_15 main_v85 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call4.cst (constant S_ .f32 0x00000000#32),
    StableHlo.TRef.binary (.of main_v84 : TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v84 : TRef sig ⟨S100000x128, .f32⟩) main_call4.v4 main_call4.v5 subf,
    StableHlo.TRef.binary main_call4.v5 main_call4.v5 main_call4.v6 mulf,
    StableHlo.TRef.unary (.of main_c_17 : TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v90 main_v91 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v92 (broadcastInDim S128 ![] bcast_S_S128 : (⟨S_, .f32⟩ : BufTy).Contents (Elt F) → (⟨S128, .f32⟩ : BufTy).Contents (Elt F)),
    StableHlo.binary main_v88 main_v92 main_v93 (addf : (⟨S128, .f32⟩ : BufTy).Contents (Elt F) → (⟨S128, .f32⟩ : BufTy).Contents (Elt F) → (⟨S128, .f32⟩ : BufTy).Contents (Elt F)),
    StableHlo.unary main_v93 main_v94 (Host.rsqrt : (⟨S128, .f32⟩ : BufTy).Contents (Elt F) → (⟨S128, .f32⟩ : BufTy).Contents (Elt F)),
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v96 main_v97 (mulf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v97 : TRef sig ⟨S100000x128, .f32⟩) main_call5.v0 main_call5.v1 maximumf,
    StableHlo.binary main_v98 main_arg8 main_v99 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg9 main_v100 (broadcastInDim S1x40 ![1] bcast_S40_S1x40_1 : (⟨S40, .f32⟩ : BufTy).Contents (Elt F) → (⟨S1x40, .f32⟩ : BufTy).Contents (Elt F)),
    StableHlo.unary main_v100 main_v101 (broadcastInDim S100000x40 ![0, 1] bcast_S1x40_S100000x40_0_1 : (⟨S1x40, .f32⟩ : BufTy).Contents (Elt F) → (⟨S100000x40, .f32⟩ : BufTy).Contents (Elt F)),
    StableHlo.binary main_v99 main_v101 main_v102 (addf : (⟨S100000x40, .f32⟩ : BufTy).Contents (Elt F) → (⟨S100000x40, .f32⟩ : BufTy).Contents (Elt F) → (⟨S100000x40, .f32⟩ : BufTy).Contents (Elt F)) ]

/-- Layer 1: the aggregation, then the affine map, the statistics, the normalisation and the clamp. -/
abbrev opsA0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v3 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v3 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v1 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) ]

abbrev opsB0 : List (HloOp τ sig (Elt F)) :=
  [ StableHlo.binary main_v13 main_arg0 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v18 : TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v18 : TRef sig ⟨S100000x128, .f32⟩) main_call0.v4 main_call0.v5 subf,
    StableHlo.TRef.binary main_call0.v5 main_call0.v5 main_call0.v6 mulf,
    StableHlo.TRef.unary (.of main_c_3 : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v24 main_v25 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v30 main_v31 (mulf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v31 : TRef sig ⟨S100000x128, .f32⟩) main_call1.v0 main_call1.v1 maximumf ]

/-- Layer 2. -/
abbrev opsA1 : List (HloOp τ sig (Elt F)) :=
  [ StableHlo.unary main_arg1 main_v33 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v33 main_v34 rfl shapeCasts_S1x800000_S800000,
    StableHlo.unary main_arg1 main_v35 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v35 main_v36 rfl shapeCasts_S1x800000_S800000,
    StableHlo.nullary main_c_5 (constantI S_ 32 0#32),
    StableHlo.unary main_c_5 main_v37 (broadcastInDim S800000 ![] bcast_S_S800000 : (⟨S_, .i32⟩ : BufTy).Contents (Elt F) → (⟨S800000, .i32⟩ : BufTy).Contents (Elt F)),
    StableHlo.binary main_v36 main_v37 main_v38 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 100000#32),
    StableHlo.unary main_c_6 main_v39 (broadcastInDim S800000 ![] bcast_S_S800000 : (⟨S_, .i32⟩ : BufTy).Contents (Elt F) → (⟨S800000, .i32⟩ : BufTy).Contents (Elt F)),
    StableHlo.binary main_v36 main_v39 main_v40 (addi : (⟨S800000, .i32⟩ : BufTy).Contents (Elt F) → (⟨S800000, .i32⟩ : BufTy).Contents (Elt F) → (⟨S800000, .i32⟩ : BufTy).Contents (Elt F)),
    StableHlo.ternary main_v38 main_v40 main_v36 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v41 main_v42 (broadcastInDim S800000x1 ![0] bcast_S800000_S800000x1_0 : (⟨S800000, .i32⟩ : BufTy).Contents (Elt F) → (⟨S800000x1, .i32⟩ : BufTy).Contents (Elt F)),
    StableHlo.binary main_v32 main_v42 main_v43 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v44 (broadcastInDim S100000x128 ![] bcast_S_S100000x128 : (⟨S_, .f32⟩ : BufTy).Contents (Elt F) → (⟨S100000x128, .f32⟩ : BufTy).Contents (Elt F)),
    StableHlo.unary main_v34 main_v45 (broadcastInDim S800000x1 ![0] bcast_S800000_S800000x1_0 : (⟨S800000, .i32⟩ : BufTy).Contents (Elt F) → (⟨S800000x1, .i32⟩ : BufTy).Contents (Elt F)),
    StableHlo.ternary main_v44 main_v45 main_v43 main_v46 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) ]

abbrev opsB1 : List (HloOp τ sig (Elt F)) :=
  [ StableHlo.binary main_v46 main_v32 main_v47 (addf : (⟨S100000x128, .f32⟩ : BufTy).Contents (Elt F) → (⟨S100000x128, .f32⟩ : BufTy).Contents (Elt F) → (⟨S100000x128, .f32⟩ : BufTy).Contents (Elt F)),
    StableHlo.binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.binary main_v51 main_cst_8 main_v52 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v53 (broadcastInDim S128 ![] bcast_S_S128 : (⟨S_, .f32⟩ : BufTy).Contents (Elt F) → (⟨S128, .f32⟩ : BufTy).Contents (Elt F)),
    StableHlo.binary main_v52 main_v53 main_v54 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (.of main_v51 : TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v51 : TRef sig ⟨S100000x128, .f32⟩) main_call2.v4 main_call2.v5 subf,
    StableHlo.TRef.binary main_call2.v5 main_call2.v5 main_call2.v6 mulf,
    StableHlo.TRef.unary (.of main_c_10 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v54 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v51 main_v57 main_v58 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v59 (broadcastInDim S128 ![] bcast_S_S128 : (⟨S_, .f32⟩ : BufTy).Contents (Elt F) → (⟨S128, .f32⟩ : BufTy).Contents (Elt F)),
    StableHlo.binary main_v55 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v63 main_v64 (mulf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v64 : TRef sig ⟨S100000x128, .f32⟩) main_call3.v0 main_call3.v1 maximumf ]

/-- Layer 3. -/
abbrev opsA2 : List (HloOp τ sig (Elt F)) :=
  [ StableHlo.unary main_arg1 main_v66 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v66 main_v67 rfl shapeCasts_S1x800000_S800000,
    StableHlo.unary main_arg1 main_v68 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v68 main_v69 rfl shapeCasts_S1x800000_S800000,
    StableHlo.nullary main_c_12 (constantI S_ 32 0#32),
    StableHlo.unary main_c_12 main_v70 (broadcastInDim S800000 ![] bcast_S_S800000 : (⟨S_, .i32⟩ : BufTy).Contents (Elt F) → (⟨S800000, .i32⟩ : BufTy).Contents (Elt F)),
    StableHlo.binary main_v69 main_v70 main_v71 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 100000#32),
    StableHlo.unary main_c_13 main_v72 (broadcastInDim S800000 ![] bcast_S_S800000 : (⟨S_, .i32⟩ : BufTy).Contents (Elt F) → (⟨S800000, .i32⟩ : BufTy).Contents (Elt F)),
    StableHlo.binary main_v69 main_v72 main_v73 (addi : (⟨S800000, .i32⟩ : BufTy).Contents (Elt F) → (⟨S800000, .i32⟩ : BufTy).Contents (Elt F) → (⟨S800000, .i32⟩ : BufTy).Contents (Elt F)),
    StableHlo.ternary main_v71 main_v73 main_v69 main_v74 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v74 main_v75 (broadcastInDim S800000x1 ![0] bcast_S800000_S800000x1_0 : (⟨S800000, .i32⟩ : BufTy).Contents (Elt F) → (⟨S800000x1, .i32⟩ : BufTy).Contents (Elt F)),
    StableHlo.binary main_v65 main_v75 main_v76 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_14 (constant S_ .f32 0x00000000#32),
    StableHlo.unary main_cst_14 main_v77 (broadcastInDim S100000x128 ![] bcast_S_S100000x128 : (⟨S_, .f32⟩ : BufTy).Contents (Elt F) → (⟨S100000x128, .f32⟩ : BufTy).Contents (Elt F)),
    StableHlo.unary main_v67 main_v78 (broadcastInDim S800000x1 ![0] bcast_S800000_S800000x1_0 : (⟨S800000, .i32⟩ : BufTy).Contents (Elt F) → (⟨S800000x1, .i32⟩ : BufTy).Contents (Elt F)),
    StableHlo.ternary main_v77 main_v78 main_v76 main_v79 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) ]

abbrev opsB2 : List (HloOp τ sig (Elt F)) :=
  [ StableHlo.binary main_v79 main_v65 main_v80 (addf : (⟨S100000x128, .f32⟩ : BufTy).Contents (Elt F) → (⟨S100000x128, .f32⟩ : BufTy).Contents (Elt F) → (⟨S100000x128, .f32⟩ : BufTy).Contents (Elt F)),
    StableHlo.binary main_v80 main_arg6 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v81 main_v83 main_v84 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.binary main_v84 main_cst_15 main_v85 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call4.cst (constant S_ .f32 0x00000000#32),
    StableHlo.TRef.binary (.of main_v84 : TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v84 : TRef sig ⟨S100000x128, .f32⟩) main_call4.v4 main_call4.v5 subf,
    StableHlo.TRef.binary main_call4.v5 main_call4.v5 main_call4.v6 mulf,
    StableHlo.TRef.unary (.of main_c_17 : TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v90 main_v91 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v92 (broadcastInDim S128 ![] bcast_S_S128 : (⟨S_, .f32⟩ : BufTy).Contents (Elt F) → (⟨S128, .f32⟩ : BufTy).Contents (Elt F)),
    StableHlo.binary main_v88 main_v92 main_v93 (addf : (⟨S128, .f32⟩ : BufTy).Contents (Elt F) → (⟨S128, .f32⟩ : BufTy).Contents (Elt F) → (⟨S128, .f32⟩ : BufTy).Contents (Elt F)),
    StableHlo.unary main_v93 main_v94 (Host.rsqrt : (⟨S128, .f32⟩ : BufTy).Contents (Elt F) → (⟨S128, .f32⟩ : BufTy).Contents (Elt F)),
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v96 main_v97 (mulf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v97 : TRef sig ⟨S100000x128, .f32⟩) main_call5.v0 main_call5.v1 maximumf ]

/-- The final affine map. -/
abbrev opsF : List (HloOp τ sig (Elt F)) :=
  [ StableHlo.binary main_v98 main_arg8 main_v99 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg9 main_v100 (broadcastInDim S1x40 ![1] bcast_S40_S1x40_1 : (⟨S40, .f32⟩ : BufTy).Contents (Elt F) → (⟨S1x40, .f32⟩ : BufTy).Contents (Elt F)),
    StableHlo.unary main_v100 main_v101 (broadcastInDim S100000x40 ![0, 1] bcast_S1x40_S100000x40_0_1 : (⟨S1x40, .f32⟩ : BufTy).Contents (Elt F) → (⟨S100000x40, .f32⟩ : BufTy).Contents (Elt F)),
    StableHlo.binary main_v99 main_v101 main_v102 (addf : (⟨S100000x40, .f32⟩ : BufTy).Contents (Elt F) → (⟨S100000x40, .f32⟩ : BufTy).Contents (Elt F) → (⟨S100000x40, .f32⟩ : BufTy).Contents (Elt F)) ]

/-- The line is its pieces in order. -/
theorem ops_eq : (ops : List (HloOp τ sig (Elt F))) = opsA0 ++ (opsB0 ++ (opsA1 ++ (opsB1 ++ (opsA2 ++ (opsB2 ++ opsF))))) := rfl

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefValue

end
-- ==== Proof.RefMainEq.lean ====
/-
  The reference's @main is the straight line `ops`: the three windows of @main and the outlined functions
  unfolded at their calls are one chain of host steps once sequencing is reassociated.
-/
import proofs.«176156_j23407571763695_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- @main is that straight line. -/
theorem main_eq (c : Dev nD) : main (F := F) c = seq ops := by
  simp only [main, main_part0, main_part1, main_part2, fn_var.body, fn_where.body, fn_relu.body, seq, bind_assoc, pure_bind]

end Cert.ReferenceIdeal.RefValue

end
-- ==== Proof.RefTerm.lean ====
/-
  The reference program's value, as a composition of its printed array operations.

  One layer of the network takes the node table h to
      o  = (agg h + h) · W + b            (`preT`: aggregate over the edge list, add h, affine map)
      h' = max ((o − μ) · rsqrt (σ² + ε), 0)   (`normT`: μ, σ² the column mean and variance of o)
  where the variance is taken as jnp.var takes it: the column mean by sum / 100000.0, the deviations
  from it, their squares, the sum of the squares divided by (100000.0 − 0), and a final selection
  `where (100000.0 − 0 > 0, value, NaN)`.  The aggregation is a gather along the edge sources followed by
  a scatter-add at the edge destinations into a zero table; it is the same chain in every layer and is
  kept as one function `agg` that is never opened.

  These definitions only fix the terms; that a layer's term is the specification's `layerDev` is
  proved index by index in the module that reads them.
-/
import proofs.«176156_j23407571763695_2_alg».proof.Proof.Gen.ReferenceIdeal
import proofs.«176156_j23407571763695_2_alg».proof.Proof.Spec

noncomputable section

namespace Cert.ReferenceIdeal.RefValue

open Cert.ReferenceIdeal Cert.ReferenceIdeal.Gen Idealize.ShloMosaic

variable {F : FTy → Type} [FloatOps F]

/-- The edge sources (row 1 of the edge list), a negative one wrapped by +100000. -/
def srcIdx (ei : IVec S2x800000 32) : IVec S800000 32 :=
  select
    (cmpi .slt (shapeCast S800000 (extractStridedSlice S1x800000 ![1, 0] ei slices_S2x800000_S1x800000_1_0) shapeCasts_S1x800000_S800000)
      (broadcastInDim S800000 ![] bcast_S_S800000 (constantI S_ 32 0#32)))
    (addi (shapeCast S800000 (extractStridedSlice S1x800000 ![1, 0] ei slices_S2x800000_S1x800000_1_0) shapeCasts_S1x800000_S800000)
      (broadcastInDim S800000 ![] bcast_S_S800000 (constantI S_ 32 100000#32)))
    (shapeCast S800000 (extractStridedSlice S1x800000 ![1, 0] ei slices_S2x800000_S1x800000_1_0) shapeCasts_S1x800000_S800000)

/-- The neighbour aggregation: gather the rows of `h` at the edge sources, add each into a zero table at
    its edge's destination (row 0 of the edge list). -/
def agg (ei : IVec S2x800000 32) (h : FVec F S100000x128 .f32) : FVec F S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0
      (shapeCast S800000 (extractStridedSlice S1x800000 ![0, 0] ei slices_S2x800000_S1x800000_0_0) shapeCasts_S1x800000_S800000))
    (Host.gather gather_S100000x128_S800000x1_S800000x128_1_0_n_n_0_1_1128 h
      (broadcastInDim S800000x1 ![0] bcast_S800000_S800000x1_0 (srcIdx ei)))

/-- A vector of 128 entries laid along each of the 100000 rows. -/
def rows128 (b : FVec F S128 .f32) : FVec F S100000x128 .f32 :=
  broadcastInDim S100000x128 ![0, 1] bcast_S1x128_S100000x128_0_1 (broadcastInDim S1x128 ![1] bcast_S128_S1x128_1 b)

/-- (a + h) · W + b. -/
def preT (a h : FVec F S100000x128 .f32) (W : FVec F S128x128 .f32) (b : FVec F S128 .f32) : FVec F S100000x128 .f32 :=
  addf (Host.dotGeneral dot_S100000x128_S128x128_S100000x128_1_0_0_1_n_n none (addf a h) W) (rows128 b)

/-- The column sums, from zero. -/
def colSum (o : FVec F S100000x128 .f32) : FVec F S128 .f32 :=
  Host.reduceAdd o (constant S_ .f32 0x00000000#32) reducesTo_S100000x128_S128_d0 h_S_

/-- The column mean: the column sum over 100000.0. -/
def meanT (o : FVec F S100000x128 .f32) : FVec F S128 .f32 :=
  Host.divf (colSum o) (broadcastInDim S128 ![] bcast_S_S128 (constant S_ .f32 0x47C35000#32))

/-- The deviations from the column mean, as the variance function takes them. -/
def devT (o : FVec F S100000x128 .f32) : FVec F S100000x128 .f32 :=
  subf o (broadcastInDim S100000x128 ![0, 1] bcast_S1x128_S100000x128_0_1
    (Host.divf (broadcastInDim S1x128 ![1] bcast_S128_S1x128_1 (colSum o))
      (broadcastInDim S1x128 ![] bcast_S_S1x128 (constant S_ .f32 0x47C35000#32))))

/-- The divisor of the variance: 100000.0 minus the converted integer zero. -/
def normK : FVec F S_ .f32 :=
  subf (constant S_ .f32 0x47C35000#32) (sitofp .f32 (constantI S_ 32 0#32))

/-- The column variance: the sum of the squared deviations over the divisor, selected against NaN by
    whether the divisor is positive. -/
def varT (o : FVec F S100000x128 .f32) : FVec F S128 .f32 :=
  select (broadcastInDim S128 ![] bcast_S_S128 (cmpf .ogt (normK (F := F)) (constant S_ .f32 0x00000000#32)))
    (Host.divf (colSum (mulf (devT o) (devT o))) (broadcastInDim S128 ![] bcast_S_S128 normK))
    (broadcastInDim S128 ![] bcast_S_S128 (id (constant S_ .f32 0x7FC00000#32)))

/-- Normalise by the column statistics and clamp below at zero. -/
def normT (o : FVec F S100000x128 .f32) : FVec F S100000x128 .f32 :=
  maximumf
    (mulf (subf o (rows128 (meanT o)))
      (rows128 (Host.rsqrt (addf (varT o) (broadcastInDim S128 ![] bcast_S_S128 (constant S_ .f32 0x3727C5AC#32))))))
    (broadcastInDim S100000x128 ![] bcast_S_S100000x128 (constant S_ .f32 0x00000000#32))

/-- One layer after its aggregation `a`. -/
def restTerm (a h : FVec F S100000x128 .f32) (W : FVec F S128x128 .f32) (b : FVec F S128 .f32) : FVec F S100000x128 .f32 :=
  normT (preT a h W b)

/-- One layer. -/
def layerTerm (ei : IVec S2x800000 32) (h : FVec F S100000x128 .f32) (W : FVec F S128x128 .f32) (b : FVec F S128 .f32) :
    FVec F S100000x128 .f32 :=
  restTerm (agg ei h) h W b

/-- The final affine map, to 40 columns. -/
def finalTerm (h : FVec F S100000x128 .f32) (Wl : FVec F S128x40 .f32) (bl : FVec F S40 .f32) : FVec F S100000x40 .f32 :=
  addf (Host.dotGeneral dot_S100000x128_S128x40_S100000x40_1_0_0_1_n_n none h Wl)
    (broadcastInDim S100000x40 ![0, 1] bcast_S1x40_S100000x40_0_1 (broadcastInDim S1x40 ![1] bcast_S40_S1x40_1 bl))

end Cert.ReferenceIdeal.RefValue

end
-- ==== Proof.RefRunA.lean ====
/-
  The aggregation's operations, run: in each layer the seventeen operations from the edge list's two rows to
  the scatter-add leave, in the scatter's buffer, the aggregation of the layer's input table, and leave the
  program's arguments and the layer's input as they were.
-/
import proofs.«176156_j23407571763695_2_alg».proof.Proof.RefOps
import proofs.«176156_j23407571763695_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd in
/-- Layer 1's aggregation: its seventeen operations leave the aggregation of the layer's input. -/
theorem A0_val (V : Valuation τ sig (Elt F)) :
    after opsA0 V (Proc.devRef .tc main_v13) = agg (V (Proc.devRef .tc main_arg1)) (V (Proc.devRef .tc main_arg0)) := by
  after_results_simp
  rfl
theorem A0_main_arg0 (V : Valuation τ sig (Elt F)) : after opsA0 V (Proc.devRef .tc main_arg0) = V (Proc.devRef .tc main_arg0) := by after_results_simp
theorem A0_main_arg1 (V : Valuation τ sig (Elt F)) : after opsA0 V (Proc.devRef .tc main_arg1) = V (Proc.devRef .tc main_arg1) := by after_results_simp
theorem A0_main_arg2 (V : Valuation τ sig (Elt F)) : after opsA0 V (Proc.devRef .tc main_arg2) = V (Proc.devRef .tc main_arg2) := by after_results_simp
theorem A0_main_arg3 (V : Valuation τ sig (Elt F)) : after opsA0 V (Proc.devRef .tc main_arg3) = V (Proc.devRef .tc main_arg3) := by after_results_simp
theorem A0_main_arg4 (V : Valuation τ sig (Elt F)) : after opsA0 V (Proc.devRef .tc main_arg4) = V (Proc.devRef .tc main_arg4) := by after_results_simp
theorem A0_main_arg5 (V : Valuation τ sig (Elt F)) : after opsA0 V (Proc.devRef .tc main_arg5) = V (Proc.devRef .tc main_arg5) := by after_results_simp
theorem A0_main_arg6 (V : Valuation τ sig (Elt F)) : after opsA0 V (Proc.devRef .tc main_arg6) = V (Proc.devRef .tc main_arg6) := by after_results_simp
theorem A0_main_arg7 (V : Valuation τ sig (Elt F)) : after opsA0 V (Proc.devRef .tc main_arg7) = V (Proc.devRef .tc main_arg7) := by after_results_simp
theorem A0_main_arg8 (V : Valuation τ sig (Elt F)) : after opsA0 V (Proc.devRef .tc main_arg8) = V (Proc.devRef .tc main_arg8) := by after_results_simp
theorem A0_main_arg9 (V : Valuation τ sig (Elt F)) : after opsA0 V (Proc.devRef .tc main_arg9) = V (Proc.devRef .tc main_arg9) := by after_results_simp

attribute [local irreducible] Host.gather Host.scatterAdd in
/-- Layer 2's aggregation: its seventeen operations leave the aggregation of the layer's input. -/
theorem A1_val (V : Valuation τ sig (Elt F)) :
    after opsA1 V (Proc.devRef .tc main_v46) = agg (V (Proc.devRef .tc main_arg1)) (V (Proc.devRef .tc main_v32)) := by
  after_results_simp
  rfl
theorem A1_main_arg0 (V : Valuation τ sig (Elt F)) : after opsA1 V (Proc.devRef .tc main_arg0) = V (Proc.devRef .tc main_arg0) := by after_results_simp
theorem A1_main_arg1 (V : Valuation τ sig (Elt F)) : after opsA1 V (Proc.devRef .tc main_arg1) = V (Proc.devRef .tc main_arg1) := by after_results_simp
theorem A1_main_arg2 (V : Valuation τ sig (Elt F)) : after opsA1 V (Proc.devRef .tc main_arg2) = V (Proc.devRef .tc main_arg2) := by after_results_simp
theorem A1_main_arg3 (V : Valuation τ sig (Elt F)) : after opsA1 V (Proc.devRef .tc main_arg3) = V (Proc.devRef .tc main_arg3) := by after_results_simp
theorem A1_main_arg4 (V : Valuation τ sig (Elt F)) : after opsA1 V (Proc.devRef .tc main_arg4) = V (Proc.devRef .tc main_arg4) := by after_results_simp
theorem A1_main_arg5 (V : Valuation τ sig (Elt F)) : after opsA1 V (Proc.devRef .tc main_arg5) = V (Proc.devRef .tc main_arg5) := by after_results_simp
theorem A1_main_arg6 (V : Valuation τ sig (Elt F)) : after opsA1 V (Proc.devRef .tc main_arg6) = V (Proc.devRef .tc main_arg6) := by after_results_simp
theorem A1_main_arg7 (V : Valuation τ sig (Elt F)) : after opsA1 V (Proc.devRef .tc main_arg7) = V (Proc.devRef .tc main_arg7) := by after_results_simp
theorem A1_main_arg8 (V : Valuation τ sig (Elt F)) : after opsA1 V (Proc.devRef .tc main_arg8) = V (Proc.devRef .tc main_arg8) := by after_results_simp
theorem A1_main_arg9 (V : Valuation τ sig (Elt F)) : after opsA1 V (Proc.devRef .tc main_arg9) = V (Proc.devRef .tc main_arg9) := by after_results_simp
theorem A1_main_v32 (V : Valuation τ sig (Elt F)) : after opsA1 V (Proc.devRef .tc main_v32) = V (Proc.devRef .tc main_v32) := by after_results_simp

attribute [local irreducible] Host.gather Host.scatterAdd in
/-- Layer 3's aggregation: its seventeen operations leave the aggregation of the layer's input. -/
theorem A2_val (V : Valuation τ sig (Elt F)) :
    after opsA2 V (Proc.devRef .tc main_v79) = agg (V (Proc.devRef .tc main_arg1)) (V (Proc.devRef .tc main_v65)) := by
  after_results_simp
  rfl
theorem A2_main_arg0 (V : Valuation τ sig (Elt F)) : after opsA2 V (Proc.devRef .tc main_arg0) = V (Proc.devRef .tc main_arg0) := by after_results_simp
theorem A2_main_arg1 (V : Valuation τ sig (Elt F)) : after opsA2 V (Proc.devRef .tc main_arg1) = V (Proc.devRef .tc main_arg1) := by after_results_simp
theorem A2_main_arg2 (V : Valuation τ sig (Elt F)) : after opsA2 V (Proc.devRef .tc main_arg2) = V (Proc.devRef .tc main_arg2) := by after_results_simp
theorem A2_main_arg3 (V : Valuation τ sig (Elt F)) : after opsA2 V (Proc.devRef .tc main_arg3) = V (Proc.devRef .tc main_arg3) := by after_results_simp
theorem A2_main_arg4 (V : Valuation τ sig (Elt F)) : after opsA2 V (Proc.devRef .tc main_arg4) = V (Proc.devRef .tc main_arg4) := by after_results_simp
theorem A2_main_arg5 (V : Valuation τ sig (Elt F)) : after opsA2 V (Proc.devRef .tc main_arg5) = V (Proc.devRef .tc main_arg5) := by after_results_simp
theorem A2_main_arg6 (V : Valuation τ sig (Elt F)) : after opsA2 V (Proc.devRef .tc main_arg6) = V (Proc.devRef .tc main_arg6) := by after_results_simp
theorem A2_main_arg7 (V : Valuation τ sig (Elt F)) : after opsA2 V (Proc.devRef .tc main_arg7) = V (Proc.devRef .tc main_arg7) := by after_results_simp
theorem A2_main_arg8 (V : Valuation τ sig (Elt F)) : after opsA2 V (Proc.devRef .tc main_arg8) = V (Proc.devRef .tc main_arg8) := by after_results_simp
theorem A2_main_arg9 (V : Valuation τ sig (Elt F)) : after opsA2 V (Proc.devRef .tc main_arg9) = V (Proc.devRef .tc main_arg9) := by after_results_simp
theorem A2_main_v65 (V : Valuation τ sig (Elt F)) : after opsA2 V (Proc.devRef .tc main_v65) = V (Proc.devRef .tc main_v65) := by after_results_simp

end Cert.ReferenceIdeal.RefValue

end
-- ==== Proof.RefRunB0.lean ====
/-
  Layer 1 after its aggregation, run: the operations from the sum of the aggregation with the input table
  through the affine map, the column statistics (the mean, and the variance function's own statements
  in its own buffers), the normalisation and the clamp leave the layer's result at the composed term, and
  leave the program's arguments as they were.
-/
import proofs.«176156_j23407571763695_2_alg».proof.Proof.RefOps
import proofs.«176156_j23407571763695_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd in
/-- Layer 1 after its aggregation: the forty-six operations from the sum with the input table to the clamp
    leave the layer's result, as the term of the aggregation, the input, the weights and the bias. -/
theorem B0_val (V : Valuation τ sig (Elt F)) :
    after opsB0 V (Proc.devRef .tc main_v32)
      = restTerm (V (Proc.devRef .tc main_v13)) (V (Proc.devRef .tc main_arg0)) (V (Proc.devRef .tc main_arg2)) (V (Proc.devRef .tc main_arg3)) := by
  after_results_simp
  rfl
theorem B0_main_arg0 (V : Valuation τ sig (Elt F)) : after opsB0 V (Proc.devRef .tc main_arg0) = V (Proc.devRef .tc main_arg0) := by after_results_simp
theorem B0_main_arg1 (V : Valuation τ sig (Elt F)) : after opsB0 V (Proc.devRef .tc main_arg1) = V (Proc.devRef .tc main_arg1) := by after_results_simp
theorem B0_main_arg2 (V : Valuation τ sig (Elt F)) : after opsB0 V (Proc.devRef .tc main_arg2) = V (Proc.devRef .tc main_arg2) := by after_results_simp
theorem B0_main_arg3 (V : Valuation τ sig (Elt F)) : after opsB0 V (Proc.devRef .tc main_arg3) = V (Proc.devRef .tc main_arg3) := by after_results_simp
theorem B0_main_arg4 (V : Valuation τ sig (Elt F)) : after opsB0 V (Proc.devRef .tc main_arg4) = V (Proc.devRef .tc main_arg4) := by after_results_simp
theorem B0_main_arg5 (V : Valuation τ sig (Elt F)) : after opsB0 V (Proc.devRef .tc main_arg5) = V (Proc.devRef .tc main_arg5) := by after_results_simp
theorem B0_main_arg6 (V : Valuation τ sig (Elt F)) : after opsB0 V (Proc.devRef .tc main_arg6) = V (Proc.devRef .tc main_arg6) := by after_results_simp
theorem B0_main_arg7 (V : Valuation τ sig (Elt F)) : after opsB0 V (Proc.devRef .tc main_arg7) = V (Proc.devRef .tc main_arg7) := by after_results_simp
theorem B0_main_arg8 (V : Valuation τ sig (Elt F)) : after opsB0 V (Proc.devRef .tc main_arg8) = V (Proc.devRef .tc main_arg8) := by after_results_simp
theorem B0_main_arg9 (V : Valuation τ sig (Elt F)) : after opsB0 V (Proc.devRef .tc main_arg9) = V (Proc.devRef .tc main_arg9) := by after_results_simp

end Cert.ReferenceIdeal.RefValue

end
-- ==== Proof.RefRunB1.lean ====
/-
  Layer 2 after its aggregation, run: the operations from the sum of the aggregation with the input table
  through the affine map, the column statistics (the mean, and the variance function's own statements
  in its own buffers), the normalisation and the clamp leave the layer's result at the composed term, and
  leave the program's arguments as they were.
-/
import proofs.«176156_j23407571763695_2_alg».proof.Proof.RefOps
import proofs.«176156_j23407571763695_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd in
/-- Layer 2 after its aggregation: the forty-six operations from the sum with the input table to the clamp
    leave the layer's result, as the term of the aggregation, the input, the weights and the bias. -/
theorem B1_val (V : Valuation τ sig (Elt F)) :
    after opsB1 V (Proc.devRef .tc main_v65)
      = restTerm (V (Proc.devRef .tc main_v46)) (V (Proc.devRef .tc main_v32)) (V (Proc.devRef .tc main_arg4)) (V (Proc.devRef .tc main_arg5)) := by
  after_results_simp
  rfl
theorem B1_main_arg0 (V : Valuation τ sig (Elt F)) : after opsB1 V (Proc.devRef .tc main_arg0) = V (Proc.devRef .tc main_arg0) := by after_results_simp
theorem B1_main_arg1 (V : Valuation τ sig (Elt F)) : after opsB1 V (Proc.devRef .tc main_arg1) = V (Proc.devRef .tc main_arg1) := by after_results_simp
theorem B1_main_arg2 (V : Valuation τ sig (Elt F)) : after opsB1 V (Proc.devRef .tc main_arg2) = V (Proc.devRef .tc main_arg2) := by after_results_simp
theorem B1_main_arg3 (V : Valuation τ sig (Elt F)) : after opsB1 V (Proc.devRef .tc main_arg3) = V (Proc.devRef .tc main_arg3) := by after_results_simp
theorem B1_main_arg4 (V : Valuation τ sig (Elt F)) : after opsB1 V (Proc.devRef .tc main_arg4) = V (Proc.devRef .tc main_arg4) := by after_results_simp
theorem B1_main_arg5 (V : Valuation τ sig (Elt F)) : after opsB1 V (Proc.devRef .tc main_arg5) = V (Proc.devRef .tc main_arg5) := by after_results_simp
theorem B1_main_arg6 (V : Valuation τ sig (Elt F)) : after opsB1 V (Proc.devRef .tc main_arg6) = V (Proc.devRef .tc main_arg6) := by after_results_simp
theorem B1_main_arg7 (V : Valuation τ sig (Elt F)) : after opsB1 V (Proc.devRef .tc main_arg7) = V (Proc.devRef .tc main_arg7) := by after_results_simp
theorem B1_main_arg8 (V : Valuation τ sig (Elt F)) : after opsB1 V (Proc.devRef .tc main_arg8) = V (Proc.devRef .tc main_arg8) := by after_results_simp
theorem B1_main_arg9 (V : Valuation τ sig (Elt F)) : after opsB1 V (Proc.devRef .tc main_arg9) = V (Proc.devRef .tc main_arg9) := by after_results_simp

end Cert.ReferenceIdeal.RefValue

end
-- ==== Proof.RefRunB2.lean ====
/-
  Layer 3 after its aggregation, run: the operations from the sum of the aggregation with the input table
  through the affine map, the column statistics (the mean, and the variance function's own statements
  in its own buffers), the normalisation and the clamp leave the layer's result at the composed term, and
  leave the program's arguments as they were.
-/
import proofs.«176156_j23407571763695_2_alg».proof.Proof.RefOps
import proofs.«176156_j23407571763695_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd in
/-- Layer 3 after its aggregation: the forty-six operations from the sum with the input table to the clamp
    leave the layer's result, as the term of the aggregation, the input, the weights and the bias. -/
theorem B2_val (V : Valuation τ sig (Elt F)) :
    after opsB2 V (Proc.devRef .tc main_v98)
      = restTerm (V (Proc.devRef .tc main_v79)) (V (Proc.devRef .tc main_v65)) (V (Proc.devRef .tc main_arg6)) (V (Proc.devRef .tc main_arg7)) := by
  after_results_simp
  rfl
theorem B2_main_arg0 (V : Valuation τ sig (Elt F)) : after opsB2 V (Proc.devRef .tc main_arg0) = V (Proc.devRef .tc main_arg0) := by after_results_simp
theorem B2_main_arg1 (V : Valuation τ sig (Elt F)) : after opsB2 V (Proc.devRef .tc main_arg1) = V (Proc.devRef .tc main_arg1) := by after_results_simp
theorem B2_main_arg2 (V : Valuation τ sig (Elt F)) : after opsB2 V (Proc.devRef .tc main_arg2) = V (Proc.devRef .tc main_arg2) := by after_results_simp
theorem B2_main_arg3 (V : Valuation τ sig (Elt F)) : after opsB2 V (Proc.devRef .tc main_arg3) = V (Proc.devRef .tc main_arg3) := by after_results_simp
theorem B2_main_arg4 (V : Valuation τ sig (Elt F)) : after opsB2 V (Proc.devRef .tc main_arg4) = V (Proc.devRef .tc main_arg4) := by after_results_simp
theorem B2_main_arg5 (V : Valuation τ sig (Elt F)) : after opsB2 V (Proc.devRef .tc main_arg5) = V (Proc.devRef .tc main_arg5) := by after_results_simp
theorem B2_main_arg6 (V : Valuation τ sig (Elt F)) : after opsB2 V (Proc.devRef .tc main_arg6) = V (Proc.devRef .tc main_arg6) := by after_results_simp
theorem B2_main_arg7 (V : Valuation τ sig (Elt F)) : after opsB2 V (Proc.devRef .tc main_arg7) = V (Proc.devRef .tc main_arg7) := by after_results_simp
theorem B2_main_arg8 (V : Valuation τ sig (Elt F)) : after opsB2 V (Proc.devRef .tc main_arg8) = V (Proc.devRef .tc main_arg8) := by after_results_simp
theorem B2_main_arg9 (V : Valuation τ sig (Elt F)) : after opsB2 V (Proc.devRef .tc main_arg9) = V (Proc.devRef .tc main_arg9) := by after_results_simp

end Cert.ReferenceIdeal.RefValue

end
-- ==== Proof.RefRun.lean ====
/-
  The whole line's result.  The line is its pieces in order, so the contents after it are the pieces' effects
  composed: each layer's aggregation piece and rest piece give the layer's term of the contents before the
  layer, every piece leaves the program's arguments alone, and the last piece is the final affine map.
-/
import proofs.«176156_j23407571763695_2_alg».proof.Proof.RefRunA
import proofs.«176156_j23407571763695_2_alg».proof.Proof.RefRunB0
import proofs.«176156_j23407571763695_2_alg».proof.Proof.RefRunB1
import proofs.«176156_j23407571763695_2_alg».proof.Proof.RefRunB2

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents after two lines in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The line, grouped by layer. -/
theorem ops_eq' : (ops : List (HloOp τ sig (Elt F)))
    = (opsA0 ++ opsB0) ++ ((opsA1 ++ opsB1) ++ ((opsA2 ++ opsB2) ++ opsF)) := rfl

/-- The final affine map's four operations. -/
theorem F_val (V : Valuation τ sig (Elt F)) :
    after opsF V (Proc.devRef .tc main_v102) = finalTerm (V (Proc.devRef .tc main_v98)) (V (Proc.devRef .tc main_arg8)) (V (Proc.devRef .tc main_arg9)) := by
  after_results_simp
  rfl
theorem F_main_arg0 (V : Valuation τ sig (Elt F)) : after opsF V (Proc.devRef .tc main_arg0) = V (Proc.devRef .tc main_arg0) := by after_results_simp
theorem F_main_arg1 (V : Valuation τ sig (Elt F)) : after opsF V (Proc.devRef .tc main_arg1) = V (Proc.devRef .tc main_arg1) := by after_results_simp
theorem F_main_arg2 (V : Valuation τ sig (Elt F)) : after opsF V (Proc.devRef .tc main_arg2) = V (Proc.devRef .tc main_arg2) := by after_results_simp
theorem F_main_arg3 (V : Valuation τ sig (Elt F)) : after opsF V (Proc.devRef .tc main_arg3) = V (Proc.devRef .tc main_arg3) := by after_results_simp
theorem F_main_arg4 (V : Valuation τ sig (Elt F)) : after opsF V (Proc.devRef .tc main_arg4) = V (Proc.devRef .tc main_arg4) := by after_results_simp
theorem F_main_arg5 (V : Valuation τ sig (Elt F)) : after opsF V (Proc.devRef .tc main_arg5) = V (Proc.devRef .tc main_arg5) := by after_results_simp
theorem F_main_arg6 (V : Valuation τ sig (Elt F)) : after opsF V (Proc.devRef .tc main_arg6) = V (Proc.devRef .tc main_arg6) := by after_results_simp
theorem F_main_arg7 (V : Valuation τ sig (Elt F)) : after opsF V (Proc.devRef .tc main_arg7) = V (Proc.devRef .tc main_arg7) := by after_results_simp
theorem F_main_arg8 (V : Valuation τ sig (Elt F)) : after opsF V (Proc.devRef .tc main_arg8) = V (Proc.devRef .tc main_arg8) := by after_results_simp
theorem F_main_arg9 (V : Valuation τ sig (Elt F)) : after opsF V (Proc.devRef .tc main_arg9) = V (Proc.devRef .tc main_arg9) := by after_results_simp

/-- Layer 1: its two pieces give the layer's term of the contents before it. -/
theorem L0_val (V : Valuation τ sig (Elt F)) :
    after (opsA0 ++ opsB0) V (Proc.devRef .tc main_v32)
      = layerTerm (V (Proc.devRef .tc main_arg1)) (V (Proc.devRef .tc main_arg0)) (V (Proc.devRef .tc main_arg2)) (V (Proc.devRef .tc main_arg3)) := by
  rw [after_append, B0_val, A0_val, A0_main_arg0, A0_main_arg2, A0_main_arg3]
  rfl
theorem L0_main_arg0 (V : Valuation τ sig (Elt F)) : after (opsA0 ++ opsB0) V (Proc.devRef .tc main_arg0) = V (Proc.devRef .tc main_arg0) := by
  rw [after_append, B0_main_arg0, A0_main_arg0]
theorem L0_main_arg1 (V : Valuation τ sig (Elt F)) : after (opsA0 ++ opsB0) V (Proc.devRef .tc main_arg1) = V (Proc.devRef .tc main_arg1) := by
  rw [after_append, B0_main_arg1, A0_main_arg1]
theorem L0_main_arg2 (V : Valuation τ sig (Elt F)) : after (opsA0 ++ opsB0) V (Proc.devRef .tc main_arg2) = V (Proc.devRef .tc main_arg2) := by
  rw [after_append, B0_main_arg2, A0_main_arg2]
theorem L0_main_arg3 (V : Valuation τ sig (Elt F)) : after (opsA0 ++ opsB0) V (Proc.devRef .tc main_arg3) = V (Proc.devRef .tc main_arg3) := by
  rw [after_append, B0_main_arg3, A0_main_arg3]
theorem L0_main_arg4 (V : Valuation τ sig (Elt F)) : after (opsA0 ++ opsB0) V (Proc.devRef .tc main_arg4) = V (Proc.devRef .tc main_arg4) := by
  rw [after_append, B0_main_arg4, A0_main_arg4]
theorem L0_main_arg5 (V : Valuation τ sig (Elt F)) : after (opsA0 ++ opsB0) V (Proc.devRef .tc main_arg5) = V (Proc.devRef .tc main_arg5) := by
  rw [after_append, B0_main_arg5, A0_main_arg5]
theorem L0_main_arg6 (V : Valuation τ sig (Elt F)) : after (opsA0 ++ opsB0) V (Proc.devRef .tc main_arg6) = V (Proc.devRef .tc main_arg6) := by
  rw [after_append, B0_main_arg6, A0_main_arg6]
theorem L0_main_arg7 (V : Valuation τ sig (Elt F)) : after (opsA0 ++ opsB0) V (Proc.devRef .tc main_arg7) = V (Proc.devRef .tc main_arg7) := by
  rw [after_append, B0_main_arg7, A0_main_arg7]
theorem L0_main_arg8 (V : Valuation τ sig (Elt F)) : after (opsA0 ++ opsB0) V (Proc.devRef .tc main_arg8) = V (Proc.devRef .tc main_arg8) := by
  rw [after_append, B0_main_arg8, A0_main_arg8]
theorem L0_main_arg9 (V : Valuation τ sig (Elt F)) : after (opsA0 ++ opsB0) V (Proc.devRef .tc main_arg9) = V (Proc.devRef .tc main_arg9) := by
  rw [after_append, B0_main_arg9, A0_main_arg9]

/-- Layer 2: its two pieces give the layer's term of the contents before it. -/
theorem L1_val (V : Valuation τ sig (Elt F)) :
    after (opsA1 ++ opsB1) V (Proc.devRef .tc main_v65)
      = layerTerm (V (Proc.devRef .tc main_arg1)) (V (Proc.devRef .tc main_v32)) (V (Proc.devRef .tc main_arg4)) (V (Proc.devRef .tc main_arg5)) := by
  rw [after_append, B1_val, A1_val, A1_main_v32, A1_main_arg4, A1_main_arg5]
  rfl
theorem L1_main_arg0 (V : Valuation τ sig (Elt F)) : after (opsA1 ++ opsB1) V (Proc.devRef .tc main_arg0) = V (Proc.devRef .tc main_arg0) := by
  rw [after_append, B1_main_arg0, A1_main_arg0]
theorem L1_main_arg1 (V : Valuation τ sig (Elt F)) : after (opsA1 ++ opsB1) V (Proc.devRef .tc main_arg1) = V (Proc.devRef .tc main_arg1) := by
  rw [after_append, B1_main_arg1, A1_main_arg1]
theorem L1_main_arg2 (V : Valuation τ sig (Elt F)) : after (opsA1 ++ opsB1) V (Proc.devRef .tc main_arg2) = V (Proc.devRef .tc main_arg2) := by
  rw [after_append, B1_main_arg2, A1_main_arg2]
theorem L1_main_arg3 (V : Valuation τ sig (Elt F)) : after (opsA1 ++ opsB1) V (Proc.devRef .tc main_arg3) = V (Proc.devRef .tc main_arg3) := by
  rw [after_append, B1_main_arg3, A1_main_arg3]
theorem L1_main_arg4 (V : Valuation τ sig (Elt F)) : after (opsA1 ++ opsB1) V (Proc.devRef .tc main_arg4) = V (Proc.devRef .tc main_arg4) := by
  rw [after_append, B1_main_arg4, A1_main_arg4]
theorem L1_main_arg5 (V : Valuation τ sig (Elt F)) : after (opsA1 ++ opsB1) V (Proc.devRef .tc main_arg5) = V (Proc.devRef .tc main_arg5) := by
  rw [after_append, B1_main_arg5, A1_main_arg5]
theorem L1_main_arg6 (V : Valuation τ sig (Elt F)) : after (opsA1 ++ opsB1) V (Proc.devRef .tc main_arg6) = V (Proc.devRef .tc main_arg6) := by
  rw [after_append, B1_main_arg6, A1_main_arg6]
theorem L1_main_arg7 (V : Valuation τ sig (Elt F)) : after (opsA1 ++ opsB1) V (Proc.devRef .tc main_arg7) = V (Proc.devRef .tc main_arg7) := by
  rw [after_append, B1_main_arg7, A1_main_arg7]
theorem L1_main_arg8 (V : Valuation τ sig (Elt F)) : after (opsA1 ++ opsB1) V (Proc.devRef .tc main_arg8) = V (Proc.devRef .tc main_arg8) := by
  rw [after_append, B1_main_arg8, A1_main_arg8]
theorem L1_main_arg9 (V : Valuation τ sig (Elt F)) : after (opsA1 ++ opsB1) V (Proc.devRef .tc main_arg9) = V (Proc.devRef .tc main_arg9) := by
  rw [after_append, B1_main_arg9, A1_main_arg9]

/-- Layer 3: its two pieces give the layer's term of the contents before it. -/
theorem L2_val (V : Valuation τ sig (Elt F)) :
    after (opsA2 ++ opsB2) V (Proc.devRef .tc main_v98)
      = layerTerm (V (Proc.devRef .tc main_arg1)) (V (Proc.devRef .tc main_v65)) (V (Proc.devRef .tc main_arg6)) (V (Proc.devRef .tc main_arg7)) := by
  rw [after_append, B2_val, A2_val, A2_main_v65, A2_main_arg6, A2_main_arg7]
  rfl
theorem L2_main_arg0 (V : Valuation τ sig (Elt F)) : after (opsA2 ++ opsB2) V (Proc.devRef .tc main_arg0) = V (Proc.devRef .tc main_arg0) := by
  rw [after_append, B2_main_arg0, A2_main_arg0]
theorem L2_main_arg1 (V : Valuation τ sig (Elt F)) : after (opsA2 ++ opsB2) V (Proc.devRef .tc main_arg1) = V (Proc.devRef .tc main_arg1) := by
  rw [after_append, B2_main_arg1, A2_main_arg1]
theorem L2_main_arg2 (V : Valuation τ sig (Elt F)) : after (opsA2 ++ opsB2) V (Proc.devRef .tc main_arg2) = V (Proc.devRef .tc main_arg2) := by
  rw [after_append, B2_main_arg2, A2_main_arg2]
theorem L2_main_arg3 (V : Valuation τ sig (Elt F)) : after (opsA2 ++ opsB2) V (Proc.devRef .tc main_arg3) = V (Proc.devRef .tc main_arg3) := by
  rw [after_append, B2_main_arg3, A2_main_arg3]
theorem L2_main_arg4 (V : Valuation τ sig (Elt F)) : after (opsA2 ++ opsB2) V (Proc.devRef .tc main_arg4) = V (Proc.devRef .tc main_arg4) := by
  rw [after_append, B2_main_arg4, A2_main_arg4]
theorem L2_main_arg5 (V : Valuation τ sig (Elt F)) : after (opsA2 ++ opsB2) V (Proc.devRef .tc main_arg5) = V (Proc.devRef .tc main_arg5) := by
  rw [after_append, B2_main_arg5, A2_main_arg5]
theorem L2_main_arg6 (V : Valuation τ sig (Elt F)) : after (opsA2 ++ opsB2) V (Proc.devRef .tc main_arg6) = V (Proc.devRef .tc main_arg6) := by
  rw [after_append, B2_main_arg6, A2_main_arg6]
theorem L2_main_arg7 (V : Valuation τ sig (Elt F)) : after (opsA2 ++ opsB2) V (Proc.devRef .tc main_arg7) = V (Proc.devRef .tc main_arg7) := by
  rw [after_append, B2_main_arg7, A2_main_arg7]
theorem L2_main_arg8 (V : Valuation τ sig (Elt F)) : after (opsA2 ++ opsB2) V (Proc.devRef .tc main_arg8) = V (Proc.devRef .tc main_arg8) := by
  rw [after_append, B2_main_arg8, A2_main_arg8]
theorem L2_main_arg9 (V : Valuation τ sig (Elt F)) : after (opsA2 ++ opsB2) V (Proc.devRef .tc main_arg9) = V (Proc.devRef .tc main_arg9) := by
  rw [after_append, B2_main_arg9, A2_main_arg9]

/-- The result buffer after the whole line: three layers and the final map, of the arguments' contents. -/
theorem ops_val (V : Valuation τ sig (Elt F)) :
    after ops V (Proc.devRef .tc main_v102)
      = finalTerm
          (layerTerm (V (Proc.devRef .tc main_arg1))
            (layerTerm (V (Proc.devRef .tc main_arg1))
              (layerTerm (V (Proc.devRef .tc main_arg1)) (V (Proc.devRef .tc main_arg0)) (V (Proc.devRef .tc main_arg2)) (V (Proc.devRef .tc main_arg3)))
              (V (Proc.devRef .tc main_arg4)) (V (Proc.devRef .tc main_arg5)))
            (V (Proc.devRef .tc main_arg6)) (V (Proc.devRef .tc main_arg7)))
          (V (Proc.devRef .tc main_arg8)) (V (Proc.devRef .tc main_arg9)) := by
  rw [ops_eq', after_append (opsA0 ++ opsB0), after_append (opsA1 ++ opsB1), after_append (opsA2 ++ opsB2), F_val, L2_val, L2_main_arg8, L2_main_arg9,
    L1_val, L1_main_arg1, L1_main_arg6, L1_main_arg7, L1_main_arg8, L1_main_arg9,
    L0_val, L0_main_arg1, L0_main_arg4, L0_main_arg5, L0_main_arg6, L0_main_arg7, L0_main_arg8, L0_main_arg9]
theorem ops_main_arg0 (V : Valuation τ sig (Elt F)) : after ops V (Proc.devRef .tc main_arg0) = V (Proc.devRef .tc main_arg0) := by
  rw [ops_eq', after_append (opsA0 ++ opsB0), after_append (opsA1 ++ opsB1), after_append (opsA2 ++ opsB2), F_main_arg0, L2_main_arg0, L1_main_arg0, L0_main_arg0]
theorem ops_main_arg1 (V : Valuation τ sig (Elt F)) : after ops V (Proc.devRef .tc main_arg1) = V (Proc.devRef .tc main_arg1) := by
  rw [ops_eq', after_append (opsA0 ++ opsB0), after_append (opsA1 ++ opsB1), after_append (opsA2 ++ opsB2), F_main_arg1, L2_main_arg1, L1_main_arg1, L0_main_arg1]
theorem ops_main_arg2 (V : Valuation τ sig (Elt F)) : after ops V (Proc.devRef .tc main_arg2) = V (Proc.devRef .tc main_arg2) := by
  rw [ops_eq', after_append (opsA0 ++ opsB0), after_append (opsA1 ++ opsB1), after_append (opsA2 ++ opsB2), F_main_arg2, L2_main_arg2, L1_main_arg2, L0_main_arg2]
theorem ops_main_arg3 (V : Valuation τ sig (Elt F)) : after ops V (Proc.devRef .tc main_arg3) = V (Proc.devRef .tc main_arg3) := by
  rw [ops_eq', after_append (opsA0 ++ opsB0), after_append (opsA1 ++ opsB1), after_append (opsA2 ++ opsB2), F_main_arg3, L2_main_arg3, L1_main_arg3, L0_main_arg3]
theorem ops_main_arg4 (V : Valuation τ sig (Elt F)) : after ops V (Proc.devRef .tc main_arg4) = V (Proc.devRef .tc main_arg4) := by
  rw [ops_eq', after_append (opsA0 ++ opsB0), after_append (opsA1 ++ opsB1), after_append (opsA2 ++ opsB2), F_main_arg4, L2_main_arg4, L1_main_arg4, L0_main_arg4]
theorem ops_main_arg5 (V : Valuation τ sig (Elt F)) : after ops V (Proc.devRef .tc main_arg5) = V (Proc.devRef .tc main_arg5) := by
  rw [ops_eq', after_append (opsA0 ++ opsB0), after_append (opsA1 ++ opsB1), after_append (opsA2 ++ opsB2), F_main_arg5, L2_main_arg5, L1_main_arg5, L0_main_arg5]
theorem ops_main_arg6 (V : Valuation τ sig (Elt F)) : after ops V (Proc.devRef .tc main_arg6) = V (Proc.devRef .tc main_arg6) := by
  rw [ops_eq', after_append (opsA0 ++ opsB0), after_append (opsA1 ++ opsB1), after_append (opsA2 ++ opsB2), F_main_arg6, L2_main_arg6, L1_main_arg6, L0_main_arg6]
theorem ops_main_arg7 (V : Valuation τ sig (Elt F)) : after ops V (Proc.devRef .tc main_arg7) = V (Proc.devRef .tc main_arg7) := by
  rw [ops_eq', after_append (opsA0 ++ opsB0), after_append (opsA1 ++ opsB1), after_append (opsA2 ++ opsB2), F_main_arg7, L2_main_arg7, L1_main_arg7, L0_main_arg7]
theorem ops_main_arg8 (V : Valuation τ sig (Elt F)) : after ops V (Proc.devRef .tc main_arg8) = V (Proc.devRef .tc main_arg8) := by
  rw [ops_eq', after_append (opsA0 ++ opsB0), after_append (opsA1 ++ opsB1), after_append (opsA2 ++ opsB2), F_main_arg8, L2_main_arg8, L1_main_arg8, L0_main_arg8]
theorem ops_main_arg9 (V : Valuation τ sig (Elt F)) : after ops V (Proc.devRef .tc main_arg9) = V (Proc.devRef .tc main_arg9) := by
  rw [ops_eq', after_append (opsA0 ++ opsB0), after_append (opsA1 ++ opsB1), after_append (opsA2 ++ opsB2), F_main_arg9, L2_main_arg9, L1_main_arg9, L0_main_arg9]

end Cert.ReferenceIdeal.RefValue

end
-- ==== Proof.RefRead.lean ====
/-
  The reference's layer term is the specification's layer, index by index.

  Every array operation of a layer is read at an index: a vector laid along the rows reads its entry; a
  scalar splat reads the scalar; the column reduction is zero plus the sum over the 100000 rows; the
  contraction of a 100000×128 table with a 128×k matrix is the sum over the 128 shared coordinates.
  The variance function's divisor is 100000.0 minus the converted integer zero, which is 100000.0, and
  is positive, so its final selection takes the value and not the NaN word.
-/
import proofs.«176156_j23407571763695_2_alg».proof.Proof.RefTerm
import Idealize.ShloMosaic.Lib.KernelVsHost
import Idealize.ShloMosaic.Lib.IdealHost
import Idealize.ShloMosaic.Lib.StackMember

noncomputable section

open scoped BigOperators

namespace Cert.ReferenceIdeal.RefValue

open Cert.ReferenceIdeal Cert.ReferenceIdeal.Gen Idealize.ShloMosaic Idealize.ShloMosaic.ValueIdx

/-! ## The count word -/

/-- The word 0x47C35000 is 100000. -/
theorem cnt_eq : Cert.Spec.cnt = ((100000 : ℝ) : EReal) := by
  unfold Cert.Spec.cnt
  simp [Ideal.ofBits, Ideal.ieee, -EReal.coe_mul]; norm_num

theorem cnt_pos : (0 : EReal) < Cert.Spec.cnt := by
  rw [cnt_eq]; exact EReal.coe_pos.mpr (by norm_num)

/-! ## Layout operations at an index -/

/-- A vector as a one-row matrix reads its entry. -/
theorem oneRow128_apply {α : Type} (x : S128.Idx → α) (q : Fin 128) :
    broadcastInDim S1x128 ![1] bcast_S128_S1x128_1 x (ix2 (0 : Fin 1) q) = x (ix1 q) :=
  broadcastInDim_apply ![1] bcast_S128_S1x128_1 x (ix2 (0 : Fin 1) q) (ix1 q) (by
    intro a
    match a with
    | ⟨0, _⟩ => show q.val = if (128 : ℕ) = 1 then 0 else q.val; rw [if_neg (by decide)])

theorem oneRow40_apply {α : Type} (x : S40.Idx → α) (q : Fin 40) :
    broadcastInDim S1x40 ![1] bcast_S40_S1x40_1 x (ix2 (0 : Fin 1) q) = x (ix1 q) :=
  broadcastInDim_apply ![1] bcast_S40_S1x40_1 x (ix2 (0 : Fin 1) q) (ix1 q) (by
    intro a
    match a with
    | ⟨0, _⟩ => show q.val = if (40 : ℕ) = 1 then 0 else q.val; rw [if_neg (by decide)])

/-- A vector laid along every row reads its entry at the column. -/
theorem rows128_apply (b : FVec Ideal S128 .f32) (p : Fin 100000) (q : Fin 128) :
    rows128 b (ix2 p q) = b (ix1 q) := by
  unfold rows128
  exact (broadcastInDim_oneRow_apply bcast_S1x128_S100000x128_0_1 _ p q).trans (oneRow128_apply b q)

theorem rows40_apply (b : FVec Ideal S40 .f32) (p : Fin 100000) (q : Fin 40) :
    broadcastInDim S100000x40 ![0, 1] bcast_S1x40_S100000x40_0_1 (broadcastInDim S1x40 ![1] bcast_S40_S1x40_1 b) (ix2 p q)
      = b (ix1 q) :=
  (broadcastInDim_oneRow_apply bcast_S1x40_S100000x40_0_1 _ p q).trans (oneRow40_apply b q)

theorem hostRsqrt_apply {s : Shape} (x : FVec Ideal s .f32) (i : s.Idx) : Host.rsqrt x i = Ideal.rsqrt (x i) := rfl

/-! ## The column sum, mean and variance -/

/-- The column reduction is the sum over the rows. -/
theorem colSum_apply (o : FVec Ideal S100000x128 .f32) (q : Fin 128) :
    colSum o (ix1 q) = ∑ p : Fin 100000, o (ix2 p q) := by
  have hR : S100000x128.Reduces [0] S128 := by decide
  unfold colSum
  rw [hostReduceAdd_apply, Ideal.hostReduceAdd_single reducesTo_S100000x128_S128_d0 hR, constant_apply,
    Ideal.ofBits_zero_f32, zero_add]
  refine Finset.sum_congr rfl fun k _ => congrArg o ?_
  funext a
  apply Fin.ext
  match a with
  | ⟨0, _⟩ => rfl
  | ⟨1, _⟩ => rfl

theorem meanT_apply (o : FVec Ideal S100000x128 .f32) (q : Fin 128) :
    meanT o (ix1 q) = Cert.Spec.mean (Cert.Spec.cur o) q := by
  unfold meanT
  rw [hostDivf_apply, colSum_apply, broadcastInDim_scalar_apply, constant_apply]
  rfl

theorem devT_apply (o : FVec Ideal S100000x128 .f32) (p : Fin 100000) (q : Fin 128) :
    devT o (ix2 p q) = o (ix2 p q) - Cert.Spec.mean (Cert.Spec.cur o) q := by
  unfold devT
  rw [subf_apply, broadcastInDim_oneRow_apply, hostDivf_apply, oneRow128_apply, colSum_apply,
    broadcastInDim_scalar_apply, constant_apply]
  rfl

/-- The variance's divisor: 100000.0 − 0. -/
theorem normK_apply (j : S_.Idx) : normK (F := Ideal) j = Cert.Spec.cnt := by
  show Ideal.ofBits .f32 0x47C35000#32 - ((((0#32 : BitVec 32).toInt : ℤ) : ℝ) : EReal) = Cert.Spec.cnt
  simp [Cert.Spec.cnt]

/-- It is positive: the selection's condition is the bit 1. -/
theorem cmpK_apply (j : S_.Idx) :
    cmpf .ogt (normK (F := Ideal)) (constant S_ .f32 0x00000000#32) j = 1#1 := by
  show Ideal.cmp .ogt (normK (F := Ideal) j) (Ideal.ofBits .f32 0x00000000#32) = 1#1
  rw [normK_apply, Ideal.ofBits_zero_f32]
  show BitVec.ofBool (decide ((0 : EReal) < Cert.Spec.cnt)) = 1#1
  rw [decide_eq_true cnt_pos]
  rfl

theorem varT_apply (o : FVec Ideal S100000x128 .f32) (q : Fin 128) :
    varT o (ix1 q) = Cert.Spec.varDev (Cert.Spec.cur o) q := by
  unfold varT
  rw [select_apply, broadcastInDim_scalar_apply, cmpK_apply, select_one, hostDivf_apply, colSum_apply,
    broadcastInDim_scalar_apply, normK_apply]
  unfold Cert.Spec.varDev
  refine congrArg (fun s => Ideal.div s Cert.Spec.cnt) (Finset.sum_congr rfl fun p _ => ?_)
  rw [mulf_apply, devT_apply]
  rfl

/-! ## The normalisation and the affine maps -/

theorem normT_apply (o : FVec Ideal S100000x128 .f32) (p : Fin 100000) (q : Fin 128) :
    normT o (ix2 p q)
      = Cert.Spec.normRelu (Cert.Spec.cur o) (Cert.Spec.mean (Cert.Spec.cur o)) (Cert.Spec.varDev (Cert.Spec.cur o)) p q := by
  unfold normT
  rw [maximumf_apply, mulf_apply, subf_apply, rows128_apply, rows128_apply, meanT_apply, hostRsqrt_apply, addf_apply,
    varT_apply, broadcastInDim_scalar_apply, broadcastInDim_scalar_apply, constant_apply, constant_apply,
    Ideal.ofBits_zero_f32]
  rfl

theorem dot128_apply (A : FVec Ideal S100000x128 .f32) (W : FVec Ideal S128x128 .f32) (p : Fin 100000) (q : Fin 128) :
    Host.dotGeneral dot_S100000x128_S128x128_S100000x128_1_0_0_1_n_n none A W (ix2 p q)
      = ∑ c : Fin 128, A (ix2 p c) * W (ix2 c q) :=
  StackMember.dotGeneral_plain_apply none A W p q

theorem dot40_apply (A : FVec Ideal S100000x128 .f32) (W : FVec Ideal S128x40 .f32) (p : Fin 100000) (q : Fin 40) :
    Host.dotGeneral dot_S100000x128_S128x40_S100000x40_1_0_0_1_n_n none A W (ix2 p q)
      = ∑ c : Fin 128, A (ix2 p c) * W (ix2 c q) :=
  StackMember.dotGeneral_plain_apply none A W p q

theorem preT_apply (a h : FVec Ideal S100000x128 .f32) (W : FVec Ideal S128x128 .f32) (b : FVec Ideal S128 .f32)
    (p : Fin 100000) (q : Fin 128) :
    preT a h W b (ix2 p q) = (∑ r : Fin 128, (a (ix2 p r) + h (ix2 p r)) * W (ix2 r q)) + b (ix1 q) := by
  unfold preT
  rw [addf_apply, dot128_apply, rows128_apply]
  rfl

/-! ## A layer, the final map, the whole value -/

/-- The aggregation as a map of curried tables. -/
abbrev aggTab (ei : IVec S2x800000 32) : Cert.Spec.Tab 100000 128 → Cert.Spec.Tab 100000 128 :=
  fun t => Cert.Spec.cur (agg (F := Ideal) ei (Cert.Spec.unc t))

theorem cur_preT (ei : IVec S2x800000 32) (h : FVec Ideal S100000x128 .f32) (W : FVec Ideal S128x128 .f32)
    (b : FVec Ideal S128 .f32) :
    Cert.Spec.cur (preT (agg ei h) h W b)
      = Cert.Spec.pre (aggTab ei) (Cert.Spec.cur h) (Cert.Spec.cur W) (Cert.Spec.cur1 b) := by
  funext p q
  show preT (agg ei h) h W b (ix2 p q) = _
  rw [preT_apply]
  unfold Cert.Spec.pre Cert.Spec.lin aggTab
  rw [Cert.Spec.unc_cur]
  rfl

theorem normT_eq (o : FVec Ideal S100000x128 .f32) :
    normT o = Cert.Spec.unc (Cert.Spec.normRelu (Cert.Spec.cur o) (Cert.Spec.mean (Cert.Spec.cur o))
      (Cert.Spec.varDev (Cert.Spec.cur o))) := by
  funext i
  obtain ⟨p, q, rfl⟩ : ∃ (p : Fin 100000) (q : Fin 128), i = ix2 p q := ⟨i 0, i 1, eq_ix2 i⟩
  exact normT_apply o p q

/-- One layer of the reference is the specification's layer, statistics by deviations. -/
theorem layerTerm_eq (ei : IVec S2x800000 32) (h : FVec Ideal S100000x128 .f32) (W : FVec Ideal S128x128 .f32)
    (b : FVec Ideal S128 .f32) :
    layerTerm ei h W b
      = Cert.Spec.unc (Cert.Spec.layerDev (aggTab ei) (Cert.Spec.cur h) (Cert.Spec.cur W) (Cert.Spec.cur1 b)) := by
  unfold layerTerm restTerm Cert.Spec.layerDev
  rw [normT_eq, cur_preT]

/-- The final affine map. -/
theorem finalTerm_eq (h : FVec Ideal S100000x128 .f32) (Wl : FVec Ideal S128x40 .f32) (bl : FVec Ideal S40 .f32) :
    finalTerm h Wl bl = Cert.Spec.unc (Cert.Spec.lin (Cert.Spec.cur h) (Cert.Spec.cur Wl) (Cert.Spec.cur1 bl)) := by
  funext i
  obtain ⟨p, q, rfl⟩ : ∃ (p : Fin 100000) (q : Fin 40), i = ix2 p q := ⟨i 0, i 1, eq_ix2 i⟩
  unfold finalTerm
  rw [addf_apply, dot40_apply, rows40_apply]
  rfl

/-- Three layers and the final map: the specification's `outDev`. -/
theorem outTerm_eq (ei : IVec S2x800000 32) (x : FVec Ideal S100000x128 .f32)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) (Wl : FVec Ideal S128x40 .f32) (bl : FVec Ideal S40 .f32) :
    finalTerm (layerTerm ei (layerTerm ei (layerTerm ei x W0 b0) W1 b1) W2 b2) Wl bl
      = Cert.Spec.unc (Cert.Spec.outDev (aggTab ei) (Cert.Spec.cur x) (Cert.Spec.cur W0) (Cert.Spec.cur1 b0)
          (Cert.Spec.cur W1) (Cert.Spec.cur1 b1) (Cert.Spec.cur W2) (Cert.Spec.cur1 b2) (Cert.Spec.cur Wl) (Cert.Spec.cur1 bl)) := by
  rw [finalTerm_eq, layerTerm_eq ei _ W2 b2, layerTerm_eq ei _ W1 b1, layerTerm_eq ei x W0 b0]
  simp only [Cert.Spec.cur_unc]
  rfl

end Cert.ReferenceIdeal.RefValue

end
-- ==== Proof.RefMain.lean ====
/-
  The reference program's run and value.

  Every weakly fair execution of the reference's @main terminates; its result buffer then holds the
  specification's `outDev` — three layers with the column statistics taken as mean and mean squared
  deviation, then the final affine map — of the argument buffers' launch contents, the aggregation being
  the program's own gather and scatter-add chain `agg` over the edge list; and the arguments are unchanged.
-/
import proofs.«176156_j23407571763695_2_alg».proof.Proof.RefMainEq
import proofs.«176156_j23407571763695_2_alg».proof.Proof.RefRun
import proofs.«176156_j23407571763695_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The run of the reference at the ideal values. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v102)
        = Cert.Spec.unc (Cert.Spec.outDev (fun h => Cert.Spec.cur (agg (F := Ideal) (m ((c.tc : Thread nD τ).loc main_arg1)) (Cert.Spec.unc h)))
            (Cert.Spec.cur (m ((c.tc : Thread nD τ).loc main_arg0))) (Cert.Spec.cur (m ((c.tc : Thread nD τ).loc main_arg2))) (Cert.Spec.cur1 (m ((c.tc : Thread nD τ).loc main_arg3)))
            (Cert.Spec.cur (m ((c.tc : Thread nD τ).loc main_arg4))) (Cert.Spec.cur1 (m ((c.tc : Thread nD τ).loc main_arg5)))
            (Cert.Spec.cur (m ((c.tc : Thread nD τ).loc main_arg6))) (Cert.Spec.cur1 (m ((c.tc : Thread nD τ).loc main_arg7)))
            (Cert.Spec.cur (m ((c.tc : Thread nD τ).loc main_arg8))) (Cert.Spec.cur1 (m ((c.tc : Thread nD τ).loc main_arg9))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v102).trans ((ops_val _).trans (outTerm_eq _ _ _ _ _ _ _ _ _ _)),
      (h c main_arg0).trans (ops_main_arg0 _),
      (h c main_arg1).trans (ops_main_arg1 _),
      (h c main_arg2).trans (ops_main_arg2 _),
      (h c main_arg3).trans (ops_main_arg3 _),
      (h c main_arg4).trans (ops_main_arg4 _),
      (h c main_arg5).trans (ops_main_arg5 _),
      (h c main_arg6).trans (ops_main_arg6 _),
      (h c main_arg7).trans (ops_main_arg7 _),
      (h c main_arg8).trans (ops_main_arg8 _),
      (h c main_arg9).trans (ops_main_arg9 _)⟩)
    (run_seq scopedRefs_eq scopedSems_eq defs main (fun _ => ops) main_eq (fun _ => ops_sub) m ρ)

end Cert.ReferenceIdeal.RefValue

end
-- ==== Proof.MathReal.lean ====
/-
  Real numbers inside the extended reals.

  "Is a real number" is closed under the operations the network uses (sum, difference, product, maximum,
  finite sums, quotient by a nonzero real, reciprocal square root of a positive real), and the coercion
  from ℝ commutes with finite sums. Also the variance identity over ℝ:

      (1/N) Σ v² − ((1/N) Σ v)²  =  (1/N) Σ (v − (1/N) Σ v)²,

  stated for any finite index type with a constant c such that (number of indices) · c = 1.
-/
import Mathlib
import Idealize.ShloMosaic.PureOps.Ideal
import Idealize.ShloMosaic.PureOps.Ideal.Laws

open scoped BigOperators

namespace Cert.Spec

open Idealize.ShloMosaic

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h
  · rw [h]; exact hx
  · rw [h]; exact hy

theorem IsReal.zero : IsReal 0 := ⟨0, rfl⟩

/-- The coercion from ℝ commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The exact quotient by a nonzero real is multiplication by its reciprocal. -/
theorem IsReal.div_coe {x : EReal} (hx : IsReal x) {y : ℝ} (hy : y ≠ 0) : IsReal (Ideal.div x (y : EReal)) := by
  rw [Ideal.div_coe hy]; exact hx.mul (IsReal.coe _)

/-- The reciprocal square root of (a real ≥ 0) + (a real > 0) is a real. -/
theorem rsqrt_isReal {s e : ℝ} (hs : 0 ≤ s) (he : 0 < e) :
    IsReal (Ideal.rsqrt ((s : EReal) + (e : EReal))) := by
  have hpos : 0 < s + e := by linarith
  rw [← EReal.coe_add, Ideal.rsqrt_coe, if_neg (not_lt.mpr hpos.le), if_neg hpos.ne']
  exact ⟨_, rfl⟩

/-- Mean of squares minus squared mean is the mean squared deviation from the mean (over ℝ). -/
theorem real_var_identity {ι : Type*} [Fintype ι] (c : ℝ) (hc : (Fintype.card ι : ℝ) * c = 1) (v : ι → ℝ) :
    (∑ i, v i * v i) * c - ((∑ i, v i) * c) * ((∑ i, v i) * c)
      = (∑ i, (v i - (∑ j, v j) * c) * (v i - (∑ j, v j) * c)) * c := by
  have h : ∀ m : ℝ, ∑ i, (v i - m) * (v i - m)
      = ∑ i, v i * v i - 2 * m * ∑ i, v i + (Fintype.card ι : ℝ) * (m * m) := by
    intro m
    have hsq : ∀ i, (v i - m) * (v i - m) = v i * v i - 2 * m * v i + m * m := fun i => by ring
    simp only [hsq, Finset.sum_add_distrib, Finset.sum_sub_distrib, ← Finset.mul_sum, Finset.sum_const,
      Finset.card_univ, nsmul_eq_mul]
    ring
  rw [h]
  generalize (∑ i, v i * v i) = Q
  generalize (∑ i, v i) = S
  linear_combination (-(S * c) * (S * c)) * hc

/-- The mean squared deviation is nonnegative (over ℝ). -/
theorem real_msd_nonneg {ι : Type*} [Fintype ι] (c : ℝ) (hc : 0 ≤ c) (m : ℝ) (v : ι → ℝ) :
    0 ≤ (∑ i, (v i - m) * (v i - m)) * c :=
  mul_nonneg (Finset.sum_nonneg fun i _ => mul_self_nonneg _) hc

end Cert.Spec
-- ==== Proof.MathSums.lean ====
/-
  A sum over the 100000 rows may be taken tile by tile: 20 tiles of 5000 rows.

  The pair (tile t, row p within the tile) ↦ row 5000·t + p is a bijection of Fin 20 × Fin 5000 with
  Fin 100000, so a double sum over tiles and rows within a tile is the single sum over all rows. This holds in
  any additive commutative monoid; no finiteness of the summands is needed.
-/
import Mathlib
import proofs.«176156_j23407571763695_2_alg».proof.Proof.Spec

open scoped BigOperators

namespace Cert.Spec

/-- Tiles and rows within a tile, against all rows. -/
def tileEquiv : Fin 20 × Fin 5000 ≃ Fin 100000 :=
  finProdFinEquiv.trans (finCongr (by norm_num))

theorem tileRow_eq (x : Fin 20 × Fin 5000) : tileRow x.1 x.2 = tileEquiv x := by
  apply Fin.ext
  simp only [tileRow, tileEquiv, Equiv.trans_apply, finProdFinEquiv_apply_val, finCongr_apply, Fin.coe_cast]
  omega

/-- A sum over all rows, taken tile by tile. -/
theorem sum_tileRow {M : Type*} [AddCommMonoid M] (f : Fin 100000 → M) :
    ∑ t : Fin 20, ∑ p : Fin 5000, f (tileRow t p) = ∑ i : Fin 100000, f i := by
  rw [← Fintype.sum_prod_type']
  have h : ∀ x : Fin 20 × Fin 5000, f (tileRow x.1 x.2) = f (tileEquiv x) := fun x => by rw [tileRow_eq]
  rw [Fintype.sum_congr _ _ h]
  exact Equiv.sum_comp tileEquiv f

variable {l : Nat} (o : Tab 100000 l)

/-- The 20 partial column sums add up to the column sum. -/
theorem sum_tileSum (q : Fin l) : ∑ t : Fin 20, tileSum o t q = ∑ p : Fin 100000, o p q :=
  sum_tileRow fun i => o i q

/-- The 20 partial column sums of squares add up to the column sum of squares. -/
theorem sum_tileSq (q : Fin l) : ∑ t : Fin 20, tileSq o t q = ∑ p : Fin 100000, o p q * o p q :=
  sum_tileRow fun i => o i q * o i q

/-- The column mean from partial sums is the column mean. -/
theorem meanT_eq_mean : meanT o = mean o := by
  funext q; unfold meanT mean; rw [sum_tileSum]

end Cert.Spec
-- ==== Proof.MathLit.lean ====
/-
  The two float words of the network, as real numbers.

  0x47C35000: sign 0, exponent field 143, fraction field 4411392, so (2^23 + 4411392) · 2^(143−127−23)
  = 12800000 / 128 = 100000.
  0x3727C5AC: sign 0, exponent field 110, fraction field 2606508, so 10995116 · 2^(−40), a positive real.
-/
import Mathlib
import Idealize.ShloMosaic.PureOps.Ideal
import Idealize.ShloMosaic.PureOps.Ideal.Laws

namespace Cert.Spec

open Idealize.ShloMosaic

theorem word_cnt : Ideal.ofBits .f32 0x47C35000#32 = ((100000 : ℝ) : EReal) := by
  simp [Ideal.ofBits, Ideal.ieee]
  exact (EReal.coe_mul _ _).symm.trans (congrArg _ (by norm_num))

theorem word_eps : ∃ e : ℝ, 0 < e ∧ Ideal.ofBits .f32 0x3727C5AC#32 = (e : EReal) := by
  simp [Ideal.ofBits, Ideal.ieee]
  exact ⟨10995116 * (2 ^ 40)⁻¹, by positivity, (EReal.coe_mul _ _).symm⟩

end Cert.Spec
-- ==== Proof.MathStats.lean ====
/-
  Column statistics of a table whose entries are real numbers.

  For a column of reals v (N = 100000 entries), with the count word equal to N:
    mean   = (Σ v) · (1/N)
    varDev = (Σ (v − mean)²) · (1/N)                       a real ≥ 0
    varT   = max ((Σ v²) · (1/N) − mean², 0) = varDev       by the variance identity over ℝ
  The sums of the tile form are the sums over all rows (tile regrouping), so the two ways of taking the
  statistics agree on every table of reals.
-/
import Mathlib
import Idealize.ShloMosaic.PureOps.Ideal
import Idealize.ShloMosaic.PureOps.Ideal.Laws
import proofs.«176156_j23407571763695_2_alg».proof.Proof.Spec
import proofs.«176156_j23407571763695_2_alg».proof.Proof.MathReal
import proofs.«176156_j23407571763695_2_alg».proof.Proof.MathLit
import proofs.«176156_j23407571763695_2_alg».proof.Proof.MathSums

open scoped BigOperators

namespace Cert.Spec

open Idealize.ShloMosaic

/-- The count word is 100000. -/
theorem cnt_eq : cnt = ((100000 : ℝ) : EReal) := word_cnt

/-- The stabiliser word is a positive real. -/
theorem eps_real : ∃ e : ℝ, 0 < e ∧ eps = (e : EReal) := word_eps

/-- Dividing by the count is multiplying by 1/100000. -/
theorem div_cnt (x : EReal) : Ideal.div x cnt = x * ((1 / 100000 : ℝ) : EReal) := by
  rw [cnt_eq]; exact Ideal.div_coe (by norm_num) x

theorem card_mul_inv : (Fintype.card (Fin 100000) : ℝ) * (1 / 100000) = 1 := by
  rw [Fintype.card_fin]; norm_num

section Column
variable {l : Nat} (o : Tab 100000 l) (q : Fin l) (v : Fin 100000 → ℝ)

/-- The mean of a column of reals. -/
theorem mean_coe (hv : ∀ p, o p q = (v p : EReal)) :
    mean o q = (((∑ p, v p) * (1 / 100000) : ℝ) : EReal) := by
  unfold mean
  rw [div_cnt, Fintype.sum_congr _ _ hv, ← coe_finset_sum, ← EReal.coe_mul]

/-- The mean squared deviation of a column of reals. -/
theorem varDev_coe (hv : ∀ p, o p q = (v p : EReal)) :
    varDev o q = (((∑ p, (v p - (∑ j, v j) * (1 / 100000)) * (v p - (∑ j, v j) * (1 / 100000)))
      * (1 / 100000) : ℝ) : EReal) := by
  unfold varDev
  rw [div_cnt, mean_coe o q v hv]
  have h : ∀ p, (o p q - (((∑ j, v j) * (1 / 100000) : ℝ) : EReal)) * (o p q - (((∑ j, v j) * (1 / 100000) : ℝ) : EReal))
      = (((v p - (∑ j, v j) * (1 / 100000)) * (v p - (∑ j, v j) * (1 / 100000)) : ℝ) : EReal) := by
    intro p; rw [hv p, ← EReal.coe_sub, ← EReal.coe_mul]
  rw [Fintype.sum_congr _ _ h, ← coe_finset_sum, ← EReal.coe_mul]

/-- Mean of squares minus squared mean, from the tile sums and clamped at zero, of a column of reals:
    it is the mean squared deviation. -/
theorem varT_coe (hv : ∀ p, o p q = (v p : EReal)) :
    varT o q = (((∑ p, (v p - (∑ j, v j) * (1 / 100000)) * (v p - (∑ j, v j) * (1 / 100000)))
      * (1 / 100000) : ℝ) : EReal) := by
  unfold varT
  rw [sum_tileSq, meanT_eq_mean, div_cnt, mean_coe o q v hv]
  have h : ∀ p, o p q * o p q = ((v p * v p : ℝ) : EReal) := fun p => by rw [hv p, ← EReal.coe_mul]
  rw [Fintype.sum_congr _ _ h, ← coe_finset_sum, ← EReal.coe_mul, ← EReal.coe_mul, ← EReal.coe_sub,
    real_var_identity (1 / 100000) card_mul_inv v]
  exact max_eq_left (EReal.coe_nonneg.mpr (real_msd_nonneg _ (by norm_num) _ v))

end Column

section Table
variable {l : Nat} (o : Tab 100000 l)

/-- On a table of reals the two variances agree. -/
theorem varT_eq_varDev (ho : Fin2 o) : varT o = varDev o := by
  funext q
  choose v hv using fun p => ho p q
  rw [varT_coe o q v hv, varDev_coe o q v hv]

/-- The column means of a table of reals are reals. -/
theorem mean_real (ho : Fin2 o) : Fin1 (mean o) := by
  intro q
  choose v hv using fun p => ho p q
  exact ⟨_, mean_coe o q v hv⟩

/-- The column variances of a table of reals are reals ≥ 0. -/
theorem varDev_real_nonneg (ho : Fin2 o) (q : Fin l) : ∃ s : ℝ, 0 ≤ s ∧ varDev o q = (s : EReal) := by
  choose v hv using fun p => ho p q
  exact ⟨_, real_msd_nonneg _ (by norm_num) _ v, varDev_coe o q v hv⟩

end Table

end Cert.Spec
-- ==== Proof.MathLayer.lean ====
/-
  One layer, on a table of reals.

  If the table h, the weights W and the bias b are real and the aggregation A keeps tables real, then the table
  the layer normalises, o = (A h + h) · W + b, is real (finite sums and products of reals). Its column means
  are real and its column variances are reals ≥ 0, so variance + stabiliser is a positive real, its reciprocal
  square root is real, and the normalised, clamped table is real. On such a table the two ways of taking the
  statistics agree, so the two forms of the layer are the same table.
-/
import Mathlib
import Idealize.ShloMosaic.PureOps.Ideal
import Idealize.ShloMosaic.PureOps.Ideal.Laws
import proofs.«176156_j23407571763695_2_alg».proof.Proof.Spec
import proofs.«176156_j23407571763695_2_alg».proof.Proof.MathReal
import proofs.«176156_j23407571763695_2_alg».proof.Proof.MathSums
import proofs.«176156_j23407571763695_2_alg».proof.Proof.MathStats

open scoped BigOperators

namespace Cert.Spec

open Idealize.ShloMosaic

/-- The affine map keeps tables real. -/
theorem Fin2_lin {n k l : Nat} (a : Tab n k) (W : Tab k l) (b : Fin l → EReal)
    (ha : Fin2 a) (hW : Fin2 W) (hb : Fin1 b) : Fin2 (lin a W b) := fun p q =>
  IsReal.add (IsReal.sum _ _ fun r _ => IsReal.mul (ha p r) (hW r q)) (hb q)

/-- Normalising a real table by real means and real variances ≥ 0, then clamping, gives a real table. -/
theorem Fin2_normRelu {l : Nat} (o : Tab 100000 l) (mu var : Fin l → EReal) (ho : Fin2 o) (hmu : Fin1 mu)
    (hvar : ∀ q, ∃ s : ℝ, 0 ≤ s ∧ var q = (s : EReal)) : Fin2 (normRelu o mu var) := by
  intro p q
  obtain ⟨e, he, hE⟩ := eps_real
  obtain ⟨s, hs, hS⟩ := hvar q
  show IsReal (max ((o p q - mu q) * Ideal.rsqrt (var q + eps)) 0)
  rw [hS, hE]
  exact IsReal.max (IsReal.mul (IsReal.sub (ho p q) (hmu q)) (rsqrt_isReal hs he)) IsReal.zero

section Layer
variable (A : Tab 100000 128 → Tab 100000 128) (hA : ∀ h, Fin2 h → Fin2 (A h))
variable (h : Tab 100000 128) (W : Tab 128 128) (b : Fin 128 → EReal)

include hA in
/-- The table a layer normalises is real. -/
theorem Fin2_pre (hh : Fin2 h) (hW : Fin2 W) (hb : Fin1 b) : Fin2 (pre A h W b) :=
  Fin2_lin _ W b (fun p r => IsReal.add (hA h hh p r) (hh p r)) hW hb

include hA in
/-- On real inputs the two forms of the layer are the same table. -/
theorem layerT_eq_layerDev (hh : Fin2 h) (hW : Fin2 W) (hb : Fin1 b) :
    layerT A h W b = layerDev A h W b := by
  unfold layerT layerDev
  rw [meanT_eq_mean, varT_eq_varDev _ (Fin2_pre A hA h W b hh hW hb)]

include hA in
/-- On real inputs the layer's result is real. -/
theorem Fin2_layerDev (hh : Fin2 h) (hW : Fin2 W) (hb : Fin1 b) : Fin2 (layerDev A h W b) :=
  Fin2_normRelu _ _ _ (Fin2_pre A hA h W b hh hW hb) (mean_real _ (Fin2_pre A hA h W b hh hW hb))
    (varDev_real_nonneg _ (Fin2_pre A hA h W b hh hW hb))

end Layer

end Cert.Spec
-- ==== Proof.MathMain.lean ====
/-
  The two forms of the network are the same function on real inputs.

  Layer by layer: on a real table the two forms of a layer agree and give a real table, so the next layer is
  again applied to one and the same real table. After three layers the final affine map is applied to equal
  tables; its weights and bias need no condition.
-/
import Mathlib
import Idealize.ShloMosaic.PureOps.Ideal
import Idealize.ShloMosaic.PureOps.Ideal.Laws
import Idealize.ShloMosaic.Lib.ValueIdx
import proofs.«176156_j23407571763695_2_alg».proof.Proof.Spec
import proofs.«176156_j23407571763695_2_alg».proof.Proof.MathLayer

namespace Cert.Spec

theorem outT_eq_outDev (A : Tab 100000 128 → Tab 100000 128) (hA : ∀ h, Fin2 h → Fin2 (A h))
    (x : Tab 100000 128) (W0 : Tab 128 128) (b0 : Fin 128 → EReal) (W1 : Tab 128 128) (b1 : Fin 128 → EReal)
    (W2 : Tab 128 128) (b2 : Fin 128 → EReal) (Wl : Tab 128 40) (bl : Fin 40 → EReal)
    (hx : Fin2 x) (hW0 : Fin2 W0) (hb0 : Fin1 b0) (hW1 : Fin2 W1) (hb1 : Fin1 b1) (hW2 : Fin2 W2) (hb2 : Fin1 b2) :
    outT A x W0 b0 W1 b1 W2 b2 Wl bl = outDev A x W0 b0 W1 b1 W2 b2 Wl bl := by
  have e1 := layerT_eq_layerDev A hA x W0 b0 hx hW0 hb0
  have f1 := Fin2_layerDev A hA x W0 b0 hx hW0 hb0
  have e2 := layerT_eq_layerDev A hA _ W1 b1 f1 hW1 hb1
  have f2 := Fin2_layerDev A hA _ W1 b1 f1 hW1 hb1
  have e3 := layerT_eq_layerDev A hA _ W2 b2 f2 hW2 hb2
  unfold outT outDev
  rw [e1, e2, e3]

end Cert.Spec
-- ==== Proof.PreFin.lean ====
/-
  Finiteness of the float inputs, from the precondition.

  The precondition says that a predicate of the ten argument arrays is the bit 1: the conjunction, over
  every float argument, of "all entries x satisfy |x| < +∞", each taken as a reduction by `and` from 1 of
  the array of comparison bits.  A conjunction of bits that is 1 has every conjunct 1; a reduction by
  `and` over all axes that is 1 met only 1s; and a comparison bit |x| < +∞ that is 1 says that the extended
  real x is neither +∞ nor −∞ (|x| is max x (−x), and the word 0x7F800000 is +∞), that is, a real number.
-/
import proofs.«176156_j23407571763695_2_alg».proof.Defs
import proofs.«176156_j23407571763695_2_alg».proof.Proof.Gen.Pre_finite_inputs
import proofs.«176156_j23407571763695_2_alg».proof.Proof.Spec
import Idealize.ShloMosaic.Lib.ReduceAll
import Idealize.ShloMosaic.Lib.ValueIdx
import Idealize.ShloMosaic.Lib.IdealHost

noncomputable section

namespace Cert.Proof

open Idealize.ShloMosaic Idealize.ShloMosaic.ValueIdx Idealize.SL.Sem

/-- A rank-0 array has one index. -/
instance subsingleton_idx0 : Subsingleton (⟨0, ![]⟩ : Shape).Idx := ⟨fun a b => funext fun d => d.elim0⟩

/-- The word 0x7F800000 is +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x with
  | bot => simp at hlt
  | coe r => exact ⟨r, rfl⟩
  | top => simp at hlt

/-- "All entries satisfy |x| < +∞", taken as a reduction by `and` over every axis, is 1: every entry is real. -/
theorem all_real {s : Shape} {axes : List (Fin s.rank)} (hb : (⟨0, ![]⟩ : Shape).BroadcastsInDim s ![])
    (hr : s.ReducesTo axes ⟨0, ![]⟩) (hu : 0 < (⟨0, ![]⟩ : Shape).numel) (init : IVec ⟨0, ![]⟩ 1)
    (x : FVec Ideal s .f32)
    (e : Host.reduce IntOp.andi
          (cmpf .olt (Host.absf x) (broadcastInDim s ![] hb (constant (F := Ideal) ⟨0, ![]⟩ .f32 0x7F800000#32)))
          init hr hu ix0 = 1#1)
    (i : s.Idx) : ∃ r : ℝ, x i = (r : EReal) := by
  have h1 := Host.reduce_andi_all _ init hr hu ix0 e i
  rw [cmpf_apply, broadcastInDim_scalar_apply] at h1
  exact real_of_abs_lt (x i) h1

/-- A table all of whose entries are real, in curried form. -/
theorem fin2_of_all {n k : Nat} (a : (⟨2, ![n, k]⟩ : Shape).Idx → EReal) (h : ∀ i, ∃ r : ℝ, a i = (r : EReal)) :
    Cert.Spec.Fin2 (Cert.Spec.cur a) := fun p q => h (ix2 p q)

/-- A vector all of whose entries are real, by its coordinate. -/
theorem fin1_of_all {n : Nat} (b : (⟨1, ![n]⟩ : Shape).Idx → EReal) (h : ∀ i, ∃ r : ℝ, b i = (r : EReal)) :
    Cert.Spec.Fin1 (Cert.Spec.cur1 b) := fun q => h (ix1 q)

/-- Under the precondition every entry of the input table, of the three weight matrices and of the three
    bias vectors of the layers is a real number. -/
theorem prefin (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Spec.Fin2 (Cert.Spec.cur (m ((c.tc : Thread Cert.KernelIdeal.nD Cert.KernelIdeal.τ).loc Cert.KernelIdeal.main_arg0)))
    ∧ Cert.Spec.Fin2 (Cert.Spec.cur (m ((c.tc : Thread Cert.KernelIdeal.nD Cert.KernelIdeal.τ).loc Cert.KernelIdeal.main_arg2)))
    ∧ Cert.Spec.Fin1 (Cert.Spec.cur1 (m ((c.tc : Thread Cert.KernelIdeal.nD Cert.KernelIdeal.τ).loc Cert.KernelIdeal.main_arg3)))
    ∧ Cert.Spec.Fin2 (Cert.Spec.cur (m ((c.tc : Thread Cert.KernelIdeal.nD Cert.KernelIdeal.τ).loc Cert.KernelIdeal.main_arg4)))
    ∧ Cert.Spec.Fin1 (Cert.Spec.cur1 (m ((c.tc : Thread Cert.KernelIdeal.nD Cert.KernelIdeal.τ).loc Cert.KernelIdeal.main_arg5)))
    ∧ Cert.Spec.Fin2 (Cert.Spec.cur (m ((c.tc : Thread Cert.KernelIdeal.nD Cert.KernelIdeal.τ).loc Cert.KernelIdeal.main_arg6)))
    ∧ Cert.Spec.Fin1 (Cert.Spec.cur1 (m ((c.tc : Thread Cert.KernelIdeal.nD Cert.KernelIdeal.τ).loc Cert.KernelIdeal.main_arg7))) := by
  have h0 := congrFun (h c) ix0
  dsimp only [Cert.Pre_finite_inputs.fn, Cert.Pre_finite_inputs.fn_part1, Cert.Pre_finite_inputs.fn_part2] at h0
  obtain ⟨h38, -⟩ := IntOp.andi_eq_one.1 h0
  obtain ⟨h33, -⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fin2_of_all _ (all_real _ _ _ _ _ h3), fin2_of_all _ (all_real _ _ _ _ _ h7), fin1_of_all _ (all_real _ _ _ _ _ h12),
    fin2_of_all _ (all_real _ _ _ _ _ h17), fin1_of_all _ (all_real _ _ _ _ _ h22), fin2_of_all _ (all_real _ _ _ _ _ h27),
    fin1_of_all _ (all_real _ _ _ _ _ h32)⟩

end Cert.Proof

end
-- ==== Proof.MathAgg.lean ====
/-
  Gathering and scatter-adding keep entries real.

  A gather reads each result entry off one operand entry. A scatter with an adding body gives, at each operand
  entry, that entry plus the finite sum of the updates that land on it. Both keep "every entry is a real
  number", whatever the dimension records.
-/
import Mathlib
import Idealize.ShloMosaic.PureOps.Ideal
import Idealize.ShloMosaic.PureOps.Ideal.Laws
import Idealize.ShloMosaic.PureOps.Contract
import proofs.«176156_j23407571763695_2_alg».proof.Proof.MathReal

open scoped BigOperators

namespace Cert.Spec

open Idealize.ShloMosaic

theorem gather_real {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

theorem scatterAdd_real {s si u : Shape} {w : Nat} (d : ScatterDims s si u) (x : FVec Ideal s .f32)
    (idx : IVec si w) (upd : FVec Ideal u .f32) (hx : ∀ i, ∃ r : ℝ, x i = (r : EReal))
    (hu : ∀ j, ∃ r : ℝ, upd j = (r : EReal)) :
    ∀ i, ∃ r : ℝ, Host.scatterAdd (F := Ideal) d x idx upd i = (r : EReal) := by
  intro i
  unfold Host.scatterAdd
  rw [Ideal.hostScatterAdd_def]
  unfold Ideal.hostScatterAdd
  exact IsReal.add (hx i) (IsReal.sum _ _ fun j _ => hu j)

end Cert.Spec
-- ==== Proof.KerHostAgg.lean ====
/-
  The aggregation keeps tables real, and the bias row read at a column.

  Every entry of the aggregation is an entry of the table of zeros plus a finite sum of gathered entries of the
  table; the zero word is the real 0, so if the table's entries are real so are the aggregation's.
-/
import Idealize.ShloMosaic.Lib.ValueIdx
import Idealize.ShloMosaic.Lib.ValueLayout
import proofs.«176156_j23407571763695_2_alg».proof.Proof.Gen.KernelIdeal.Launch
import proofs.«176156_j23407571763695_2_alg».proof.Proof.KerHostAggDef
import proofs.«176156_j23407571763695_2_alg».proof.Proof.MathAgg

noncomputable section

namespace Cert.KernelIdeal.KerValue

open Cert.KernelIdeal Cert.KernelIdeal.Gen Idealize.ShloMosaic Idealize.ShloMosaic.TcCoe Idealize.ShloMosaic.ValueIdx

theorem aggK_real (ei : IVec S2x800000 32) (h : FVec Ideal S100000x128 .f32)
    (hh : ∀ i, ∃ r : ℝ, h i = (r : EReal)) : ∀ i, ∃ r : ℝ, aggK ei h i = (r : EReal) := by
  unfold aggK
  refine Cert.Spec.scatterAdd_real _ _ _ _ (fun i => ⟨0, ?_⟩) (Cert.Spec.gather_real _ _ _ hh)
  show Ideal.ofBits .f32 0x00000000#32 = ((0 : ℝ) : EReal)
  rw [Ideal.ofBits_zero_f32]
  rfl

/-- A vector of 128 entries viewed as one row, read at a column. -/
theorem biasRow_apply (b : FVec Ideal S128 .f32) (q : Fin 128) :
    shapeCast S1x128 b shapeCasts_S128_S1x128 (ix2 (0 : Fin 1) q) = b (ix1 q) :=
  shapeCast_a_1a_apply b _ 0 q

/-- A vector of 40 entries viewed as one row, read at a column. -/
theorem biasRow40_apply (b : FVec Ideal S40 .f32) (q : Fin 40) :
    shapeCast S1x40 b shapeCasts_S40_S1x40 (ix2 (0 : Fin 1) q) = b (ix1 q) :=
  shapeCast_a_1a_apply b _ 0 q

end Cert.KernelIdeal.KerValue

end
-- ==== Proof.Claims.lean ====
/-
  The five claims.

  The three frames are the generated frame proofs of the two kernel programs and the reference's run with its result
  dropped. The ideal pass rewrote nothing, so there is nothing to preserve. For the algebraic claim: the idealized kernel
  ends at three layers with statistics taken from tile sums, the reference at three layers with statistics taken as
  mean and mean squared deviation, both under the same final affine map, of arguments that agree and through one and the
  same aggregation. On finite inputs — which the precondition gives for every float argument, and which the
  aggregation, the affine maps and the normalisation all keep — a sum may be taken tile by tile and
  E[o²] − (E o)² = E[(o − E o)²] ≥ 0, so the two are one function.
-/
import proofs.«176156_j23407571763695_2_alg».proof.Defs
import proofs.«176156_j23407571763695_2_alg».proof.Proof.Gen.Kernel.Frame
import proofs.«176156_j23407571763695_2_alg».proof.Proof.Gen.KernelIdeal.Frame
import proofs.«176156_j23407571763695_2_alg».proof.Proof.KerMain
import proofs.«176156_j23407571763695_2_alg».proof.Proof.RefMain
import proofs.«176156_j23407571763695_2_alg».proof.Proof.MathMain
import proofs.«176156_j23407571763695_2_alg».proof.Proof.PreFin
import proofs.«176156_j23407571763695_2_alg».proof.Proof.KerHostAgg

set_option maxRecDepth 16384

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- The two programs' aggregations are one function: the same gather and scatter-add chain over the same edge list. -/
theorem agg_eq (ei : IVec Cert.KernelIdeal.S2x800000 32) (h : FVec Ideal Cert.KernelIdeal.S100000x128 .f32) :
    Cert.KernelIdeal.KerValue.aggK ei h = Cert.ReferenceIdeal.RefValue.agg (F := Ideal) ei h := rfl

theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun r h c => ⟨(h c).1.trans ?_, (h c).2⟩) (Cert.ReferenceIdeal.RefValue.run m' ρ')
  obtain ⟨g0, g1, g2, g3, g4, g5, g6, g7, g8, g9⟩ := hagree c
  rw [g0, g1, g2, g3, g4, g5, g6, g7, g8, g9]
  refine congrArg Cert.Spec.unc ?_
  obtain ⟨f0, f2, f3, f4, f5, f6, f7⟩ := Cert.Proof.prefin m hpre c
  have hA : ∀ h, Cert.Spec.Fin2 h → Cert.Spec.Fin2 (Cert.KernelIdeal.KerValue.aggT m c h) := fun h hh p q =>
    Cert.KernelIdeal.KerValue.aggK_real _ _ (fun i => hh (i 0) (i 1)) (ix2 p q)
  have hAe : (fun h => Cert.Spec.cur (Cert.ReferenceIdeal.RefValue.agg (F := Ideal) (m ((c.tc : Thread Cert.KernelIdeal.nD Cert.KernelIdeal.τ).loc Cert.KernelIdeal.main_arg1)) (Cert.Spec.unc h))) = Cert.KernelIdeal.KerValue.aggT m c :=
    funext fun h => congrArg Cert.Spec.cur (agg_eq _ _).symm
  rw [hAe]
  exact (Cert.Spec.outT_eq_outDev (Cert.KernelIdeal.KerValue.aggT m c) hA _ _ _ _ _ _ _ _ _ f0 f2 f3 f4 f5 f6 f7).symm

end Cert.Proof.Claims

end
-- ==== Proof.lean ====
/-
  A three-layer graph network on 100000 nodes (aggregate neighbours, affine map, batch normalisation, clamp at zero;
  then a final affine map), computed by six pipelined kernel launches among host operations, against its plain
  reference. The kernel takes the batch statistics from per-tile sums and sums of squares and clamps
  E[o²] − (E o)² at zero; the reference takes the mean and then the mean squared deviation. Over finite inputs the two
  agree exactly. The parts: the shared specification (Proof/Spec.lean), the algebra (Proof/Math*.lean), the kernel
  program's run and value (Proof/Ker*.lean), the reference's (Proof/Ref*.lean), the inputs' finiteness
  (Proof/PreFin.lean) and the claims (Proof/Claims.lean).
-/
import proofs.«176156_j23407571763695_2_alg».proof.Defs
import proofs.«176156_j23407571763695_2_alg».proof.Proof.Gen.Kernel
import proofs.«176156_j23407571763695_2_alg».proof.Proof.Gen.Kernel.Skeleton
import proofs.«176156_j23407571763695_2_alg».proof.Proof.Gen.Kernel.Launch
import proofs.«176156_j23407571763695_2_alg».proof.Proof.Gen.Kernel.Points
import proofs.«176156_j23407571763695_2_alg».proof.Proof.Gen.Kernel.Frame
import proofs.«176156_j23407571763695_2_alg».proof.Proof.Gen.KernelIdeal
import proofs.«176156_j23407571763695_2_alg».proof.Proof.Gen.KernelIdeal.Skeleton
import proofs.«176156_j23407571763695_2_alg».proof.Proof.Gen.KernelIdeal.Launch
import proofs.«176156_j23407571763695_2_alg».proof.Proof.Gen.KernelIdeal.Points
import proofs.«176156_j23407571763695_2_alg».proof.Proof.Gen.KernelIdeal.Frame
import proofs.«176156_j23407571763695_2_alg».proof.Proof.Gen.ReferenceIdeal
import proofs.«176156_j23407571763695_2_alg».proof.Proof.Gen.Pre_finite_inputs
import proofs.«176156_j23407571763695_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
